-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x128 : Shape := ⟨3, ![4, 512, 128]⟩
abbrev S512x128 : Shape := ⟨2, ![512, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S128x64 : Shape := ⟨2, ![128, 64]⟩
abbrev S_ : Shape := ⟨0, ![]⟩

class Facts : Prop where
  bcast_S_S4x512x128 : S_.BroadcastsInDim S4x512x128 (![] : Fin 0 → Fin S4x512x128.rank)
  reducesTo_S4x512x128_S_d0_1_2 : S4x512x128.ReducesTo [0, 1, 2] S_
  h_S_ : 0 < S_.numel
  bcast_S_S512x128 : S_.BroadcastsInDim S512x128 (![] : Fin 0 → Fin S512x128.rank)
  reducesTo_S512x128_S_d0_1 : S512x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_arg4 : FVec F S128x1 .f32) (main_arg5 : FVec F S1 .f32) (main_arg6 : FVec F S128x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S4x512x128 .f32) (main_arg1 : FVec F S512x128 .f32) (main_arg2 : FVec F S256x128 .f32) (main_arg3 : FVec F S128 .f32) (main_arg4 : FVec F S128x1 .f32) (main_arg5 : FVec F S1 .f32) (main_arg6 : FVec F S128x64 .f32) : IVec S_ 1 :=
  let main_v0 : FVec F S4x512x128 .f32 := Host.absf main_arg0
  let main_cst : FVec F S_ .f32 := constant S_ .f32 0x7F800000#32
  let main_v1 : FVec F S4x512x128 .f32 := broadcastInDim S4x512x128 ![] bcast_S_S4x512x128 main_cst
  let main_v2 : IVec S4x512x128 1 := cmpf .olt main_v0 main_v1
  let main_c : IVec S_ 1 := constantI S_ 1 1#1
  let main_v3 : IVec S_ 1 := (fun x v => Host.reduce IntOp.andi x v reducesTo_S4x512x128_S_d0_1_2 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S4x512x128 : Shape := ⟨3, ![4, 512, 128]⟩
abbrev S512x128 : Shape := ⟨2, ![512, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S128x64 : Shape := ⟨2, ![128, 64]⟩
abbrev S128x128 : Shape := ⟨2, ![128, 128]⟩
abbrev S4x128x512 : Shape := ⟨3, ![4, 128, 512]⟩
abbrev S4x512x64 : Shape := ⟨3, ![4, 512, 64]⟩
abbrev S1x512x128 : Shape := ⟨3, ![1, 512, 128]⟩
abbrev S1x128x512 : Shape := ⟨3, ![1, 128, 512]⟩
abbrev S1x512x64 : Shape := ⟨3, ![1, 512, 64]⟩
abbrev S128x512 : Shape := ⟨2, ![128, 512]⟩
abbrev S512x64 : Shape := ⟨2, ![512, 64]⟩
abbrev S1x128 : Shape := ⟨2, ![1, 128]⟩
abbrev S1x1 : Shape := ⟨2, ![1, 1]⟩
abbrev S1x64x128 : Shape := ⟨3, ![1, 64, 128]⟩
abbrev S1x128x128 : Shape := ⟨3, ![1, 128, 128]⟩
abbrev S1x128x64 : Shape := ⟨3, ![1, 128, 64]⟩
abbrev S1x64x64 : Shape := ⟨3, ![1, 64, 64]⟩
abbrev S64x1 : Shape := ⟨2, ![64, 1]⟩
abbrev S64x64 : Shape := ⟨2, ![64, 64]⟩
abbrev S64x128 : Shape := ⟨2, ![64, 128]⟩
abbrev S64x128x1 : Shape := ⟨3, ![64, 128, 1]⟩
abbrev S1x128x1 : Shape := ⟨3, ![1, 128, 1]⟩
abbrev S64x128x128 : Shape := ⟨3, ![64, 128, 128]⟩
abbrev S64 : Shape := ⟨1, ![64]⟩

abbrev nBuf : Space → Nat
  | .hbm => 17
  | .vmem => 26
  | .smem => 0
  | _ => 0

abbrev bufTy : (tb : Table) → Fin (tcTables nBuf tb) → BufTy
  | .hbm, ⟨0, _⟩ => ⟨S4x512x128, .f32⟩
  | .hbm, ⟨1, _⟩ => ⟨S512x128, .f32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S128x64, .f32⟩
  | .hbm, ⟨7, _⟩ => ⟨S128x128, .f32⟩
  | .hbm, ⟨8, _⟩ => ⟨S128x128, .f32⟩
  | .hbm, ⟨9, _⟩ => ⟨S4x512x128, .f32⟩
  | .hbm, ⟨10, _⟩ => ⟨S4x128x512, .f32⟩
  | .hbm, ⟨11, _⟩ => ⟨S4x512x64, .f32⟩
  | .hbm, ⟨12, _⟩ => ⟨S1x128, .f32⟩
  | .hbm, ⟨13, _⟩ => ⟨S128, .f32⟩
  | .hbm, ⟨14, _⟩ => ⟨S1x128, .f32⟩
  | .hbm, ⟨15, _⟩ => ⟨S1x1, .f32⟩
  | .hbm, ⟨16, _⟩ => ⟨S4x512x64, .f32⟩
  | .local _ .vmem, ⟨0, _⟩ => ⟨S1x512x128, .f32⟩
  | .local _ .vmem, ⟨1, _⟩ => ⟨S1x512x128, .f32⟩
  | .local _ .vmem, ⟨2, _⟩ => ⟨S512x128, .f32⟩
  | .local _ .vmem, ⟨3, _⟩ => ⟨S128x128, .f32⟩
  | .local _ .vmem, ⟨4, _⟩ => ⟨S128x128, .f32⟩
  | .local _ .vmem, ⟨5, _⟩ => ⟨S128x64, .f32⟩
  | .local _ .vmem, ⟨6, _⟩ => ⟨S1x512x128, .f32⟩
  | .local _ .vmem, ⟨7, _⟩ => ⟨S1x512x128, .f32⟩
  | .local _ .vmem, ⟨8, _⟩ => ⟨S1x128x512, .f32⟩
  | .local _ .vmem, ⟨9, _⟩ => ⟨S1x128x512, .f32⟩
  | .local _ .vmem, ⟨10, _⟩ => ⟨S1x512x64, .f32⟩
  | .local _ .vmem, ⟨11, _⟩ => ⟨S1x512x64, .f32⟩
  | .local _ .vmem, ⟨12, _⟩ => ⟨S1x64x128, .f32⟩
  | .local _ .vmem, ⟨13, _⟩ => ⟨S1x64x128, .f32⟩
  | .local _ .vmem, ⟨14, _⟩ => ⟨S1x128x128, .f32⟩
  | .local _ .vmem, ⟨15, _⟩ => ⟨S1x128x128, .f32⟩
  | .local _ .vmem, ⟨16, _⟩ => ⟨S1x128x64, .f32⟩
  | .local _ .vmem, ⟨17, _⟩ => ⟨S1x128x64, .f32⟩
  | .local _ .vmem, ⟨18, _⟩ => ⟨S1x128, .f32⟩
  | .local _ .vmem, ⟨19, _⟩ => ⟨S1x128, .f32⟩
  | .local _ .vmem, ⟨20, _⟩ => ⟨S1x1, .f32⟩
  | .local _ .vmem, ⟨21, _⟩ => ⟨S1x64x64, .f32⟩
  | .local _ .vmem, ⟨22, _⟩ => ⟨S1x64x64, .f32⟩
  | .local _ .vmem, ⟨23, _⟩ => ⟨S64x1, .f32⟩
  | .local _ .vmem, ⟨24, _⟩ => ⟨S64x1, .f32⟩
  | .local _ .vmem, ⟨25, _⟩ => ⟨S64x64, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨3, ![4, 8, 4], ![false, false, false]⟩

def k1_cond3 (i : grid1.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_2 : BitVec 32 := 0#32
  let v11 : BitVec 1 := Scalar.cmpi .ne v10 c0_i32_2
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x64x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  slices_S256x128_S128x128_0_0 : S256x128.Slices ![0, 0] S128x128
  slices_S256x128_S128x128_128_0 : S256x128.Slices ![128, 0] S128x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64_S128x64_0_0 : ∀ a, (![0, 0] : Fin 2 → Nat) a + S128x64.size a ≤ S128x64.size a
  h_S128x64 : 0 < S128x64.numel
  shapeCasts_S512x128_S1x512x128 : S512x128.ShapeCasts S1x512x128
  transposes_S512x128_p1_0_S128x512 : S512x128.Transposes [1, 0] S128x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  shapeCasts_S128_S1x128 : S128.ShapeCasts S1x128
  shapeCasts_S128x1_S128 : S128x1.ShapeCasts S128
  shapeCasts_S1_S1x1 : S1.ShapeCasts S1x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S64x128_S64x128x1 : S64x128.ShapeCasts S64x128x1
  shapeCasts_S128x128_S1x128x128 : S128x128.ShapeCasts S1x128x128
  shapeCasts_S1x128_S128 : S1x128.ShapeCasts S128
  shapeCasts_S128_S1x128x1 : S128.ShapeCasts S1x128x1
  broadcasts_S64x128x1_S64x128x128 : S64x128x1.Broadcasts S64x128x128
  broadcasts_S1x128x128_S64x128x128 : S1x128x128.Broadcasts S64x128x128
  broadcasts_S1x128x1_S64x128x128 : S1x128x1.Broadcasts S64x128x128
  reduces_S64x128x128_S64x128 : S64x128x128.Reduces [1] S64x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x128 : S1x1.Broadcasts S64x128
  iota_S64x128_d0_w32 : S64x128.Iotas .tc 32 [0]
  iota_S64x128_d1_w32 : S64x128.Iotas .tc 32 [1]
  reduces_S64x128_S64 : S64x128.Reduces [1] S64
  shapeCasts_S64_S64x1 : S64.ShapeCasts S64x1
  broadcasts_S64x1_S64x128 : S64x1.Broadcasts S64x128
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  broadcasts_S64x1_S64x64 : S64x1.Broadcasts S64x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  dot_S512x128_S128x128_S512x128_1_0_0_1_n_n_wf : DotDims.WF S512x128 S128x128 S512x128 [1] [0] [0] [1] [] []
  dot_S512x128_S128x64_S512x64_1_0_0_1_n_n_wf : DotDims.WF S512x128 S128x64 S512x64 [1] [0] [0] [1] [] []
  dot_S64x128_S128x64_S64x64_1_0_0_1_n_n_wf : DotDims.WF S64x128 S128x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S4x512x128.size a
  hwx0_0 : ∀ i : grid0.Coords, EltTy.bits .f32 = 32 ∨ (Rect.block (s := S4x512x128) S1x512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x128.size a ≤ S4x512x128.size a
  hwx0_5 : ∀ i : grid0.Coords, EltTy.bits .f32 = 32 ∨ (Rect.block (s := S4x512x128) S1x512x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x512.size a ≤ S4x128x512.size a
  hwx0_6 : ∀ i : grid0.Coords, EltTy.bits .f32 = 32 ∨ (Rect.block (s := S4x128x512) S1x128x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x64.size a ≤ S4x512x64.size a
  hwx0_7 : ∀ i : grid0.Coords, EltTy.bits .f32 = 32 ∨ (Rect.block (s := S4x512x64) S1x512x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x128.size a ≤ S4x512x128.size a
  hwx1_0 : ∀ i : grid1.Coords, EltTy.bits .f32 = 32 ∨ (Rect.block (s := S4x512x128) S1x64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S4x128x512.size a
  hwx1_1 : ∀ i : grid1.Coords, EltTy.bits .f32 = 32 ∨ (Rect.block (s := S4x128x512) S1x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x64.size a ≤ S4x512x64.size a
  hwx1_2 : ∀ i : grid1.Coords, EltTy.bits .f32 = 32 ∨ (Rect.block (s := S4x512x64) S1x128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x64x64.size a ≤ S4x512x64.size a
  hwx1_6 : ∀ i : grid1.Coords, EltTy.bits .f32 = 32 ∨ (Rect.block (s := S4x512x64) S1x64x64.size (cc1_transform_6 i) (hinb1_6 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S1x512x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S1x128x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_2) S1x512x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v2_0) S1x64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S1x128x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x64x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond3 i == 1#1) | ⟨_ + 7, h⟩ => absurd h (Nat.not_lt.2 (Nat.le_add_left _ _))

class Facts : Prop extends Facts₀ where

variable [Facts]
-- ==== ReferenceIdeal.lean ====
abbrev S4x512x128 : Shape := ⟨3, ![4, 512, 128]⟩
abbrev S512x128 : Shape := ⟨2, ![512, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S128x64 : Shape := ⟨2, ![128, 64]⟩
abbrev S1x512x128 : Shape := ⟨3, ![1, 512, 128]⟩
abbrev S128x128 : Shape := ⟨2, ![128, 128]⟩
abbrev S4x512x1x128 : Shape := ⟨4, ![4, 512, 1, 128]⟩
abbrev S4x1x512x128 : Shape := ⟨4, ![4, 1, 512, 128]⟩
abbrev S4x512x512x128 : Shape := ⟨4, ![4, 512, 512, 128]⟩
abbrev S1x1x1x128 : Shape := ⟨4, ![1, 1, 1, 128]⟩
abbrev S_ : Shape := ⟨0, ![]⟩
abbrev S4x512x512x1 : Shape := ⟨4, ![4, 512, 512, 1]⟩
abbrev S4x512x512 : Shape := ⟨3, ![4, 512, 512]⟩
abbrev S512x512 : Shape := ⟨2, ![512, 512]⟩
abbrev S4x512 : Shape := ⟨2, ![4, 512]⟩
abbrev S4x512x1 : Shape := ⟨3, ![4, 512, 1]⟩
abbrev S4x512x64 : Shape := ⟨3, ![4, 512, 64]⟩

abbrev nBuf : Space → Nat
  | .hbm => 65
  | .vmem => 0
  | .smem => 0
  | _ => 0

abbrev bufTy : (tb : Table) → Fin (tcTables nBuf tb) → BufTy
  | .hbm, ⟨0, _⟩ => ⟨S4x512x128, .f32⟩
  | .hbm, ⟨1, _⟩ => ⟨S512x128, .f32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S128x64, .f32⟩
  | .hbm, ⟨7, _⟩ => ⟨S1x512x128, .f32⟩
  | .hbm, ⟨8, _⟩ => ⟨S4x512x128, .f32⟩
  | .hbm, ⟨9, _⟩ => ⟨S4x512x128, .f32⟩
  | .hbm, ⟨10, _⟩ => ⟨S128x128, .f32⟩
  | .hbm, ⟨11, _⟩ => ⟨S128x128, .f32⟩
  | .hbm, ⟨12, _⟩ => ⟨S4x512x128, .f32⟩
  | .hbm, ⟨13, _⟩ => ⟨S4x512x128, .f32⟩
  | .hbm, ⟨14, _⟩ => ⟨S4x512x1x128, .f32⟩
  | .hbm, ⟨15, _⟩ => ⟨S4x1x512x128, .f32⟩
  | .hbm, ⟨16, _⟩ => ⟨S4x512x512x128, .f32⟩
  | .hbm, ⟨17, _⟩ => ⟨S4x512x512x128, .f32⟩
  | .hbm, ⟨18, _⟩ => ⟨S4x512x512x128, .f32⟩
  | .hbm, ⟨19, _⟩ => ⟨S1x1x1x128, .f32⟩
  | .hbm, ⟨20, _⟩ => ⟨S4x512x512x128, .f32⟩
  | .hbm, ⟨21, _⟩ => ⟨S4x512x512x128, .f32⟩
  | .hbm, ⟨22, _⟩ => ⟨S_, .f32⟩
  | .hbm, ⟨23, _⟩ => ⟨S4x512x512x128, .f32⟩
  | .hbm, ⟨24, _⟩ => ⟨S4x512x512x128, .f32⟩
  | .hbm, ⟨25, _⟩ => ⟨S4x512x512x1, .f32⟩
  | .hbm, ⟨26, _⟩ => ⟨S4x512x512, .f32⟩
  | .hbm, ⟨27, _⟩ => ⟨S_, .f32⟩
  | .hbm, ⟨28, _⟩ => ⟨S4x512x512, .f32⟩
  | .hbm, ⟨29, _⟩ => ⟨S4x512x512, .f32⟩
  | .hbm, ⟨30, _⟩ => ⟨S_, .f32⟩
  | .hbm, ⟨31, _⟩ => ⟨S4x512x512, .f32⟩
  | .hbm, ⟨32, _⟩ => ⟨S4x512x512, .f32⟩
  | .hbm, ⟨33, _⟩ => ⟨S_, .i1⟩
  | .hbm, ⟨34, _⟩ => ⟨S512x512, .i1⟩
  | .hbm, ⟨35, _⟩ => ⟨S512x512, .i32⟩
  | .hbm, ⟨36, _⟩ => ⟨S_, .i32⟩
  | .hbm, ⟨37, _⟩ => ⟨S512x512, .i32⟩
  | .hbm, ⟨38, _⟩ => ⟨S512x512, .i32⟩
  | .hbm, ⟨39, _⟩ => ⟨S512x512, .i32⟩
  | .hbm, ⟨40, _⟩ => ⟨S512x512, .i1⟩
  | .hbm, ⟨41, _⟩ => ⟨S_, .i1⟩
  | .hbm, ⟨42, _⟩ => ⟨S512x512, .i1⟩
  | .hbm, ⟨43, _⟩ => ⟨S512x512, .i1⟩
  | .hbm, ⟨44, _⟩ => ⟨S_, .f32⟩
  | .hbm, ⟨45, _⟩ => ⟨S_, .f32⟩
  | .hbm, ⟨46, _⟩ => ⟨S4x512x512, .i1⟩
  | .hbm, ⟨47, _⟩ => ⟨S4x512x512, .f32⟩
  | .hbm, ⟨48, _⟩ => ⟨S4x512x512, .f32⟩
  | .hbm, ⟨49, _⟩ => ⟨S_, .f32⟩
  | .hbm, ⟨50, _⟩ => ⟨S4x512, .f32⟩
  | .hbm, ⟨51, _⟩ => ⟨S_, .f32⟩
  | .hbm, ⟨52, _⟩ => ⟨S4x512, .f32⟩
  | .hbm, ⟨53, _⟩ => ⟨S4x512, .f32⟩
  | .hbm, ⟨54, _⟩ => ⟨S4x512x1, .f32⟩
  | .hbm, ⟨55, _⟩ => ⟨S4x512x512, .f32⟩
  | .hbm, ⟨56, _⟩ => ⟨S4x512x512, .f32⟩
  | .hbm, ⟨57, _⟩ => ⟨S4x512x512, .f32⟩
  | .hbm, ⟨58, _⟩ => ⟨S_, .f32⟩
  | .hbm, ⟨59, _⟩ => ⟨S4x512, .f32⟩
  | .hbm, ⟨60, _⟩ => ⟨S4x512x1, .f32⟩
  | .hbm, ⟨61, _⟩ => ⟨S4x512x512, .f32⟩
  | .hbm, ⟨62, _⟩ => ⟨S4x512x512, .f32⟩
  | .hbm, ⟨63, _⟩ => ⟨S4x512x64, .f32⟩
  | .hbm, ⟨64, _⟩ => ⟨S4x512x64, .f32⟩
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_call1_v0 : Ref sig .tc := ⟨.hbm, 35, rfl⟩
abbrev main_call1_c : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_0 : Ref sig .tc := ⟨.hbm, 41, rfl⟩
abbrev main_call1_v5 : Ref sig .tc := ⟨.hbm, 42, rfl⟩
abbrev main_v24 : Ref sig .tc := ⟨.hbm, 43, rfl⟩
abbrev main_cst_0 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v25 : Ref sig .tc := ⟨.hbm, 48, rfl⟩
abbrev main_cst_1 : Ref sig .tc := ⟨.hbm, 49, rfl⟩
abbrev main_v26 : Ref sig .tc := ⟨.hbm, 50, rfl⟩
abbrev main_cst_2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩

abbrev nD : Nat := 1
abbrev τ : Topo := Topo.v7x

variable {F : FTy → Type} [FloatOps F]

class Facts₀ : Prop where
  bcast_S512x128_S1x512x128_1_2 : S512x128.BroadcastsInDim S1x512x128 (![1, 2] : Fin 2 → Fin S1x512x128.rank)
  bcast_S1x512x128_S4x512x128_0_1_2 : S1x512x128.BroadcastsInDim S4x512x128 (![0, 1, 2] : Fin 3 → Fin S4x512x128.rank)
  slices_S256x128_S128x128_0_0 : S256x128.Slices ![0, 0] S128x128
  slices_S256x128_S128x128_128_0 : S256x128.Slices ![128, 0] S128x128
  bcast_S4x512x128_S4x512x1x128_0_1_3 : S4x512x128.BroadcastsInDim S4x512x1x128 (![0, 1, 3] : Fin 3 → Fin S4x512x1x128.rank)
  bcast_S4x512x128_S4x1x512x128_0_2_3 : S4x512x128.BroadcastsInDim S4x1x512x128 (![0, 2, 3] : Fin 3 → Fin S4x1x512x128.rank)
  bcast_S4x512x1x128_S4x512x512x128_0_1_2_3 : S4x512x1x128.BroadcastsInDim S4x512x512x128 (![0, 1, 2, 3] : Fin 4 → Fin S4x512x512x128.rank)
  bcast_S4x1x512x128_S4x512x512x128_0_1_2_3 : S4x1x512x128.BroadcastsInDim S4x512x512x128 (![0, 1, 2, 3] : Fin 4 → Fin S4x512x512x128.rank)
  bcast_S128_S1x1x1x128_3 : S128.BroadcastsInDim S1x1x1x128 (![3] : Fin 1 → Fin S1x1x1x128.rank)
  bcast_S1x1x1x128_S4x512x512x128_0_1_2_3 : S1x1x1x128.BroadcastsInDim S4x512x512x128 (![0, 1, 2, 3] : Fin 4 → Fin S4x512x512x128.rank)
  bcast_S_S4x512x512x128 : S_.BroadcastsInDim S4x512x512x128 (![] : Fin 0 → Fin S4x512x512x128.rank)
  shapeCasts_S4x512x512x1_S4x512x512 : S4x512x512x1.ShapeCasts S4x512x512
  shapeCasts_S1_S_ : S1.ShapeCasts S_
  bcast_S_S4x512x512 : S_.BroadcastsInDim S4x512x512 (![] : Fin 0 → Fin S4x512x512.rank)
  bcast_S_S512x512 : S_.BroadcastsInDim S512x512 (![] : Fin 0 → Fin S512x512.rank)
  bcast_S512x512_S4x512x512_1_2 : S512x512.BroadcastsInDim S4x512x512 (![1, 2] : Fin 2 → Fin S4x512x512.rank)
  reducesTo_S4x512x512_S4x512_d2 : S4x512x512.ReducesTo [2] S4x512
  h_S_ : 0 < S_.numel
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  bcast_S4x512x1_S4x512x512_0_1_2 : S4x512x1.BroadcastsInDim S4x512x512 (![0, 1, 2] : Fin 3 → Fin S4x512x512.rank)
  dot_S4x512x128_S128x128_S4x512x128_2_0_01_1_n_n_wf : DotDims.WF S4x512x128 S128x128 S4x512x128 [2] [0] [0, 1] [1] [] []
  dot_S4x512x512x128_S128x1_S4x512x512x1_3_0_012_1_n_n_wf : DotDims.WF S4x512x512x128 S128x1 S4x512x512x1 [3] [0] [0, 1, 2] [1] [] []
  dot_S4x512x128_S128x64_S4x512x64_2_0_01_1_n_n_wf : DotDims.WF S4x512x128 S128x64 S4x512x64 [2] [0] [0, 1] [1] [] []
  dot_S4x512x512_S4x512x64_S4x512x64_2_1_1_2_0_0_wf : DotDims.WF S4x512x512 S4x512x64 S4x512x64 [2] [1] [1] [2] [0] [0]

variable [Facts₀]

def dot_S4x512x128_S128x128_S4x512x128_2_0_01_1_n_n : DotDims S4x512x128 S128x128 S4x512x128 where
  lhsContracting := [2]
  rhsContracting := [0]
  lhsNonContracting := [0, 1]
  rhsNonContracting := [1]
  lhsBatch := []
  rhsBatch := []
  wf := dot_S4x512x128_S128x128_S4x512x128_2_0_01_1_n_n_wf
def dot_S4x512x512x128_S128x1_S4x512x512x1_3_0_012_1_n_n : DotDims S4x512x512x128 S128x1 S4x512x512x1 where
  lhsContracting := [3]
  rhsContracting := [0]
  lhsNonContracting := [0, 1, 2]
  rhsNonContracting := [1]
  lhsBatch := []
  rhsBatch := []
  wf := dot_S4x512x512x128_S128x1_S4x512x512x1_3_0_012_1_n_n_wf
def dot_S4x512x128_S128x64_S4x512x64_2_0_01_1_n_n : DotDims S4x512x128 S128x64 S4x512x64 where
  lhsContracting := [2]
  rhsContracting := [0]
  lhsNonContracting := [0, 1]
  rhsNonContracting := [1]
  lhsBatch := []
  rhsBatch := []
  wf := dot_S4x512x128_S128x64_S4x512x64_2_0_01_1_n_n_wf
def dot_S4x512x512_S4x512x64_S4x512x64_2_1_1_2_0_0 : DotDims S4x512x512 S4x512x64 S4x512x64 where
  lhsContracting := [2]
  rhsContracting := [1]
  lhsNonContracting := [1]
  rhsNonContracting := [2]
  lhsBatch := [0]
  rhsBatch := [0]
  wf := dot_S4x512x512_S4x512x64_S4x512x64_2_1_1_2_0_0_wf

class Facts : Prop extends Facts₀ where

variable [Facts]
-- ==== Proof.RegionPre.lean ====
/-
  The first kernel region (the precompute call: one grid axis of four points, one batch entry each), on whole
  staging buffers: per point the three output blocks are the two projections of (x + pos) and the value projection
  of x, each stored whole; the inputs' blocks are left in place. Stated at any float instance.
-/
import proofs.«152301_j13073880449825_2_alg».proof.Proof.Gen.KernelIdeal.Launch
import proofs.«152301_j13073880449825_2_alg».proof.Proof.Gen.KernelIdeal.Skeleton
import proofs.«152301_j13073880449825_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S1x512x128 := Rect.unit (s := S1x512x128) ![0, 0, 0] S1x512x128.size inb_S1x512x128_S1x512x128_0_0_0
abbrev rp0 : Rect S512x128 := Rect.unit (s := S512x128) ![0, 0] S512x128.size inb_S512x128_S512x128_0_0
abbrev rw0 : Rect S128x128 := Rect.unit (s := S128x128) ![0, 0] S128x128.size inb_S128x128_S128x128_0_0
abbrev rv0 : Rect S128x64 := Rect.unit (s := S128x64) ![0, 0] S128x64.size inb_S128x64_S128x64_0_0
abbrev rt0 : Rect S1x128x512 := Rect.unit (s := S1x128x512) ![0, 0, 0] S1x128x512.size inb_S1x128x512_S1x128x512_0_0_0
abbrev ro0 : Rect S1x512x64 := Rect.unit (s := S1x512x64) ![0, 0, 0] S1x512x64.size inb_S1x512x64_S1x512x64_0_0_0

/-- The query-side projection block after the body. -/
def out0_5 (x0 : Vec F S1x512x128 .f32) (x1 : Vec F S512x128 .f32) (x2 : Vec F S128x128 .f32) : Vec F S1x512x128 .f32 :=
  View.canon [⟨rx0, k0_pay3 (View.ld x0 rx0) (View.ld x1 rp0) (View.ld x2 rw0)⟩]
/-- The key-side projection block, transposed, after the body. -/
def out0_6 (x0 : Vec F S1x512x128 .f32) (x1 : Vec F S512x128 .f32) (x3 : Vec F S128x128 .f32) : Vec F S1x128x512 .f32 :=
  View.canon [⟨rt0, k0_pay4 (View.ld x0 rx0) (View.ld x1 rp0) (View.ld x3 rw0)⟩]
/-- The value projection block after the body. -/
def out0_7 (x0 : Vec F S1x512x128 .f32) (x4 : Vec F S128x64 .f32) : Vec F S1x512x64 .f32 :=
  View.canon [⟨ro0, k0_pay5 (View.ld x0 rx0) (View.ld x4 rv0)⟩]

theorem cover0_5 (p0 : Vec F S1x512x128 .f32) (y : S1x512x128.Idx) :
    ∃ pc ∈ ([⟨rx0, p0⟩] : List (View.Piece (Elt F) S1x512x128 .f32)), y ∈ pc.1.set :=
  View.cover_of_tiled [⟨rx0, p0⟩] S1x512x128.size (by rfl) y
theorem cover0_6 (p0 : Vec F S1x128x512 .f32) (y : S1x128x512.Idx) :
    ∃ pc ∈ ([⟨rt0, p0⟩] : List (View.Piece (Elt F) S1x128x512 .f32)), y ∈ pc.1.set :=
  View.cover_of_tiled [⟨rt0, p0⟩] S1x128x512.size (by rfl) y
theorem cover0_7 (p0 : Vec F S1x512x64 .f32) (y : S1x512x64.Idx) :
    ∃ pc ∈ ([⟨ro0, p0⟩] : List (View.Piece (Elt F) S1x512x64 .f32)), y ∈ pc.1.set :=
  View.cover_of_tiled [⟨ro0, p0⟩] S1x512x64.size (by rfl) y

set_option maxHeartbeats 2000000 in
/-- The body on whole staging memrefs: the inputs kept, each output at its projection. -/
theorem sound_kernel0 (c : Dev nD) (E : Set ℕ) (i : grid0.Coords)
    (arg1 : Memref sig .tc .vmem S1x512x128 .f32) (harg1 : arg1.IsWhole) (arg2 : Memref sig .tc .vmem S512x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128x64 .f32) (harg5 : arg5.IsWhole) (arg6 : Memref sig .tc .vmem S1x512x128 .f32) (harg6 : arg6.IsWhole)
    (arg7 : Memref sig .tc .vmem S1x128x512 .f32) (harg7 : arg7.IsWhole) (arg8 : Memref sig .tc .vmem S1x512x64 .f32) (harg8 : arg8.IsWhole)
    (x0 : Vec F S1x512x128 .f32) (x1 : Vec F S512x128 .f32) (x2 : Vec F S128x128 .f32) (x3 : Vec F S128x128 .f32) (x4 : Vec F S128x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x1 x3)
            ∗ owns (c : Thread nD τ) arg8 fullShare (out0_7 x0 x4)) -∗ K ⟨⟩))
      ⊢ wp frame (wpE (defs₀ (F := F)) Variants.none c none) E (cc0__precompute_kernel i arg1 harg1 arg2 harg2 arg3 harg3 arg4 harg4 arg5 harg5 arg6 harg6 arg7 harg7 arg8 harg8) K := by
  simp only [cc0__precompute_kernel_eq_skeleton]; unfold cc0__precompute_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-- The proof data of the first region on core `c`: the arrays as the region finds them; each input's buffer at its
    block, each output's at its projection of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 3 t)
    | ⟨7, _⟩ => out0_7 (iblk0 V c 0 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]
theorem after0_7 (c : Dev nD) (t : Fin cfg0.N) : (dat0 V c).after 7 t = out0_7 (iblk0 V c 0 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.RegionAttnRuns.lean ====
/-
  The second kernel region (the attention call: batch × query tile × key tile), its body run on whole staging
  buffers in each of the five ways its three guards fall over the grid: (A) first key tile: reset and accumulate;
  (B) a middle key tile inside the causal triangle: accumulate; (C) a middle key tile outside it: nothing;
  (D) the last key tile inside the triangle: accumulate and write the quotient; (E) the last key tile outside it:
  write the quotient. Stated at any float instance.
-/
import proofs.«152301_j13073880449825_2_alg».proof.Proof.Gen.KernelIdeal.Launch
import proofs.«152301_j13073880449825_2_alg».proof.Proof.Gen.KernelIdeal.Skeleton
import proofs.«152301_j13073880449825_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's three guards, from the grid coordinates (batch, query tile, key tile) -/

/-- The first guard: this is the first key tile of the query tile (the running state is reset). -/
abbrev cond1_0 (i : grid1.Coords) : Prop := (Scalar.cmpi .ne (Scalar.extui (Scalar.cmpi .eq (BitVec.ofNat 32 (i 2).val) 0#32)) 0#32) = 1#1
/-- The second guard: the key tile starts before the query tile ends (it meets the causal triangle). -/
abbrev cond1_1 (i : grid1.Coords) : Prop := (Scalar.cmpi .ne (Scalar.extui (Scalar.cmpi .slt (Scalar.muli (BitVec.ofNat 32 (i 2).val) 128#32) (Scalar.muli (Scalar.addi (BitVec.ofNat 32 (i 1).val) 1#32) 64#32))) 0#32) = 1#1
/-- The third guard: this is the last key tile (the output block is written). -/
abbrev cond1_2 (i : grid1.Coords) : Prop := k1_cond3 i = 1#1

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ (t.val % 4) * 2 < (t.val / 4) % 8 + 1 :=
  (by decide +kernel : ∀ t : Fin grid1.N, cond1_1 (grid1.coords t) ↔ (t.val % 4) * 2 < (t.val / 4) % 8 + 1)
theorem hcond1_2 : ∀ t : Fin cfg1.N, cond1_2 (grid1.coords t) ↔ t.val % 4 = 3 :=
  (by decide +kernel : ∀ t : Fin grid1.N, cond1_2 (grid1.coords t) ↔ t.val % 4 = 3)

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- The output window is idle, and not written back, except at the last key tile. -/
theorem idleAt1_6 : ∀ t : Fin cfg1.N, ¬cond1_2 (grid1.coords t) → cfg1.idle 6 (grid1.coords t) = true := by decide +kernel
theorem noFlush1_6 : ∀ t : Fin cfg1.N, ¬cond1_2 (grid1.coords t) → (cfg1.win 6).flush t = false := by decide +kernel
theorem liveAt1_6 : ∀ t : Fin cfg1.N, cond1_2 (grid1.coords t) → cfg1.idle 6 (grid1.coords t) = false := by decide +kernel

/-- Each window's current staging memref at point `t`, and its wholeness. -/
abbrev ms1_0 (t : Fin cfg1.N) : Memref sig .tc .vmem S1x64x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64x64 .f32 := win1_6.stage (cfg1.slots t 6)
abbrev hs1_6 (t : Fin cfg1.N) : (ms1_6 t).IsWhole := hstage1_6 ((cfg1.slots t 6).cast nbuf1_6)
/-- The three scratch operands: the running maximum, the running denominator, the running numerator. -/
abbrev scM1_0 : Memref sig .tc .vmem S64x1 .f32 := Memref.whole cc1_scratch0
abbrev scM1_1 : Memref sig .tc .vmem S64x1 .f32 := Memref.whole cc1_scratch1
abbrev scM1_2 : Memref sig .tc .vmem S64x64 .f32 := Memref.whole cc1_scratch2
abbrev VS1_0 : View sig .tc .vmem S64x1 .f32 := scM1_0.view
abbrev VS1_1 : View sig .tc .vmem S64x1 .f32 := scM1_1.view
abbrev VS1_2 : View sig .tc .vmem S64x64 .f32 := scM1_2.view
abbrev VO1_6 : View sig .tc .vmem S1x64x64 .f32 := (Memref.whole cc1_stg6_0 : Memref sig .tc .vmem S1x64x64 .f32).view

set_option maxHeartbeats 4000000 in
/-- Case A (first key tile): whatever the scratch held, it ends at the reset state advanced by this tile; the output block is handed back untouched. -/
noncomputable def kernelRun1_A (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) :
    Σ' (LS0 : List (View.Piece (Elt F) S64x1 .f32)), Σ' (LS1 : List (View.Piece (Elt F) S64x1 .f32)), { LS2 : List (View.Piece (Elt F) S64x64 .f32) //
      ∀ (xi6 : Vec F S1x64x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, fun xi6 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

set_option maxHeartbeats 4000000 in
/-- Case B (a middle key tile meeting the triangle): the scratch ends at its contents advanced by this tile; the output block is handed back untouched. -/
noncomputable def kernelRun1_B (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) :
    Σ' (LS0 : List (View.Piece (Elt F) S64x1 .f32)), Σ' (LS1 : List (View.Piece (Elt F) S64x1 .f32)), { LS2 : List (View.Piece (Elt F) S64x64 .f32) //
      ∀ (xi6 : Vec F S1x64x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, fun xi6 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0; obtain rfl := harg11.eq_unread hfs1; obtain rfl := harg12.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

set_option maxHeartbeats 4000000 in
/-- Case C (a middle key tile outside the triangle): nothing is written. -/
theorem kernelRun1_C (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : ¬cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) :
    ∀ (xi6 : Vec F S1x64x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0 ∗ owns (c : Thread nD τ) arg11 fullShare xs1 ∗ owns (c : Thread nD τ) arg12 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K := by
  intro xi6 E K
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0; obtain rfl := harg11.eq_unread hfs1; obtain rfl := harg12.eq_unread hfs2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [HS0]
  · iexists _; isplitr; · ipureintro; exact harg10.read_unread _
    iexact HS0
  isplitl [HS1]
  · iexists _; isplitr; · ipureintro; exact harg11.read_unread _
    iexact HS1
  iexists _; isplitr; · ipureintro; exact harg12.read_unread _
  iexact HS2

set_option maxHeartbeats 4000000 in
/-- Case D (the last key tile, meeting the triangle): the scratch advanced by this tile, the output block written with the quotient of the advanced numerator by the advanced denominator. -/
noncomputable def kernelRun1_D (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) :
    Σ' (L6 : List (View.Piece (Elt F) S1x64x64 .f32)), Σ' (LS0 : List (View.Piece (Elt F) S64x1 .f32)), Σ' (LS1 : List (View.Piece (Elt F) S64x1 .f32)), { LS2 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0; obtain rfl := harg11.eq_unread hfs1; obtain rfl := harg12.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]; · iexists _; iexact HS1
    iexists _; iexact HS2

set_option maxHeartbeats 4000000 in
/-- Case E (the last key tile, outside the triangle): the scratch kept, the output block written with the quotient of numerator by denominator. -/
noncomputable def kernelRun1_E (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : ¬cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) :
    { L6 : List (View.Piece (Elt F) S1x64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xs0 ∗ owns (c : Thread nD τ) arg11 fullShare xs1 ∗ owns (c : Thread nD τ) arg12 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0; obtain rfl := harg11.eq_unread hfs1; obtain rfl := harg12.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]
    · iexists _; isplitr; · ipureintro; exact harg10.read_unread _
      iexact HS0
    isplitl [HS1]
    · iexists _; isplitr; · ipureintro; exact harg11.read_unread _
      iexact HS1
    iexists _; isplitr; · ipureintro; exact harg12.read_unread _
    iexact HS2

end Cert.KernelIdeal.Gen

end
-- ==== Proof.RegionAttnState.lean ====
/-
  The second kernel region's proof data. The three scratch buffers carry, per (batch, query tile), the running
  maximum, denominator and numerator over the key tiles seen so far; the state after a point is defined by recursion
  on the point — reset and advanced at a first key tile, advanced at a key tile that meets the causal triangle, kept
  otherwise — and the output block is the quotient written at the last key tile.
-/
import proofs.«152301_j13073880449825_2_alg».proof.Proof.Gen.KernelIdeal.Launch
import proofs.«152301_j13073880449825_2_alg».proof.Proof.Gen.KernelIdeal.Skeleton
import proofs.«152301_j13073880449825_2_alg».proof.Proof.Gen.KernelIdeal.Points
import proofs.«152301_j13073880449825_2_alg».proof.Proof.RegionAttnRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Covers of the found pieces, and the contents they leave (generic memrefs) -/

theorem cover1_A_LS0 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (y : S64x1.Idx) :
    ∃ pc ∈ (kernelRun1_A c i arg3 harg3 arg4 harg4 arg5 harg5 arg6 harg6 arg7 harg7 arg8 harg8 arg9 harg9 arg10 harg10 arg11 harg11 arg12 harg12 hc0 hc1 hc2 x0 x1 x2 x3 x4 x5).1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 hc2 x0 x1 x2 x3 x4 x5).1 S64x1.size (by sl_kernel_rfl) y
/-- What case A leaves there: its pieces read back. -/
def val1_A_LS0 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) : Vec F S64x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 arg12 harg12 hc0 hc1 hc2 x0 x1 x2 x3 x4 x5).1)

theorem cover1_A_LS1 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (y : S64x1.Idx) :
    ∃ pc ∈ (kernelRun1_A c i arg3 harg3 arg4 harg4 arg5 harg5 arg6 harg6 arg7 harg7 arg8 harg8 arg9 harg9 arg10 harg10 arg11 harg11 arg12 harg12 hc0 hc1 hc2 x0 x1 x2 x3 x4 x5).2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 hc2 x0 x1 x2 x3 x4 x5).2.1 S64x1.size (by sl_kernel_rfl) y
/-- What case A leaves there: its pieces read back. -/
def val1_A_LS1 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) : Vec F S64x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 arg12 harg12 hc0 hc1 hc2 x0 x1 x2 x3 x4 x5).2.1)

theorem cover1_A_LS2 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (y : S64x64.Idx) :
    ∃ pc ∈ (kernelRun1_A c i arg3 harg3 arg4 harg4 arg5 harg5 arg6 harg6 arg7 harg7 arg8 harg8 arg9 harg9 arg10 harg10 arg11 harg11 arg12 harg12 hc0 hc1 hc2 x0 x1 x2 x3 x4 x5).2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 hc2 x0 x1 x2 x3 x4 x5).2.2.1 S64x64.size (by sl_kernel_rfl) y
/-- What case A leaves there: its pieces read back. -/
def val1_A_LS2 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) : Vec F S64x64 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 arg12 harg12 hc0 hc1 hc2 x0 x1 x2 x3 x4 x5).2.2.1)

theorem cover1_B_LS0 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) (y : S64x1.Idx) :
    ∃ pc ∈ (kernelRun1_B c i arg3 harg3 arg4 harg4 arg5 harg5 arg6 harg6 arg7 harg7 arg8 harg8 arg9 harg9 arg10 harg10 arg11 harg11 arg12 harg12 hc0 hc1 hc2 x0 x1 x2 x3 x4 x5 xs0 xs1 xs2).1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 hc2 x0 x1 x2 x3 x4 x5 xs0 xs1 xs2).1 S64x1.size (by sl_kernel_rfl) y
/-- What case B leaves there: its pieces read back. -/
def val1_B_LS0 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) : Vec F S64x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 arg12 harg12 hc0 hc1 hc2 x0 x1 x2 x3 x4 x5 xs0 xs1 xs2).1)

theorem cover1_B_LS1 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) (y : S64x1.Idx) :
    ∃ pc ∈ (kernelRun1_B c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.1 S64x1.size (by sl_kernel_rfl) y
/-- What case B leaves there: its pieces read back. -/
def val1_B_LS1 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) : Vec F S64x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.1)

theorem cover1_B_LS2 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) (y : S64x64.Idx) :
    ∃ pc ∈ (kernelRun1_B c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.2.1 S64x64.size (by sl_kernel_rfl) y
/-- What case B leaves there: its pieces read back. -/
def val1_B_LS2 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) : Vec F S64x64 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.2.1)

theorem cover1_D_L6 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) (y : S1x64x64.Idx) :
    ∃ pc ∈ (kernelRun1_D c i arg3 harg3 arg4 harg4 arg5 harg5 arg6 harg6 arg7 harg7 arg8 harg8 arg9 harg9 arg10 harg10 arg11 harg11 arg12 harg12 hc0 hc1 hc2 x0 x1 x2 x3 x4 x5 xs0 xs1 xs2).1, y ∈ pc.1.set :=
  View.cover_of_tiledL (kernelRun1_D c i arg3 harg3 arg4 harg4 arg5 harg5 arg6 harg6 arg7 harg7 arg8 harg8 arg9 harg9 arg10 harg10 arg11 harg11 arg12 harg12 hc0 hc1 hc2 x0 x1 x2 x3 x4 x5 xs0 xs1 xs2).1 S1x64x64.size (by sl_kernel_rfl) y
/-- What case D leaves there: its pieces read back. -/
def val1_D_L6 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) : Vec F S1x64x64 .f32 :=
  VO1_6.read (Elt F) (VO1_6.writes (Elt F) VO1_6.junk (kernelRun1_D c i arg3 harg3 arg4 harg4 arg5 harg5 arg6 harg6 arg7 harg7 arg8 harg8 arg9 harg9 arg10 harg10 arg11 harg11 arg12 harg12 hc0 hc1 hc2 x0 x1 x2 x3 x4 x5 xs0 xs1 xs2).1)

theorem cover1_D_LS0 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) (y : S64x1.Idx) :
    ∃ pc ∈ (kernelRun1_D c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.1, y ∈ pc.1.set :=
  View.cover_of_tiledL (kernelRun1_D c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.1 S64x1.size (by sl_kernel_rfl) y
/-- What case D leaves there: its pieces read back. -/
def val1_D_LS0 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) : Vec F S64x1 .f32 :=
  VS1_0.read (Elt F) (VS1_0.writes (Elt F) VS1_0.junk (kernelRun1_D c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.1)

theorem cover1_D_LS1 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) (y : S64x1.Idx) :
    ∃ pc ∈ (kernelRun1_D c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.2.1, y ∈ pc.1.set :=
  View.cover_of_tiledL (kernelRun1_D c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.2.1 S64x1.size (by sl_kernel_rfl) y
/-- What case D leaves there: its pieces read back. -/
def val1_D_LS1 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) : Vec F S64x1 .f32 :=
  VS1_1.read (Elt F) (VS1_1.writes (Elt F) VS1_1.junk (kernelRun1_D c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.2.1)

theorem cover1_D_LS2 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) (y : S64x64.Idx) :
    ∃ pc ∈ (kernelRun1_D c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.2.2.1, y ∈ pc.1.set :=
  View.cover_of_tiledL (kernelRun1_D c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.2.2.1 S64x64.size (by sl_kernel_rfl) y
/-- What case D leaves there: its pieces read back. -/
def val1_D_LS2 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) : Vec F S64x64 .f32 :=
  VS1_2.read (Elt F) (VS1_2.writes (Elt F) VS1_2.junk (kernelRun1_D c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.2.2.1)

theorem cover1_E_L6 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : ¬cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) (y : S1x64x64.Idx) :
    ∃ pc ∈ (kernelRun1_E c i arg3 harg3 arg4 harg4 arg5 harg5 arg6 harg6 arg7 harg7 arg8 harg8 arg9 harg9 arg10 harg10 arg11 harg11 arg12 harg12 hc0 hc1 hc2 x0 x1 x2 x3 x4 x5 xs0 xs1 xs2).1, y ∈ pc.1.set :=
  View.cover_of_tiledL (kernelRun1_E c i arg3 harg3 arg4 harg4 arg5 harg5 arg6 harg6 arg7 harg7 arg8 harg8 arg9 harg9 arg10 harg10 arg11 harg11 arg12 harg12 hc0 hc1 hc2 x0 x1 x2 x3 x4 x5 xs0 xs1 xs2).1 S1x64x64.size (by sl_kernel_rfl) y
/-- What case E leaves there: its pieces read back. -/
def val1_E_L6 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : ¬cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) : Vec F S1x64x64 .f32 :=
  VO1_6.read (Elt F) (VO1_6.writes (Elt F) VO1_6.junk (kernelRun1_E c i arg3 harg3 arg4 harg4 arg5 harg5 arg6 harg6 arg7 harg7 arg8 harg8 arg9 harg9 arg10 harg10 arg11 harg11 arg12 harg12 hc0 hc1 hc2 x0 x1 x2 x3 x4 x5 xs0 xs1 xs2).1)

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The running state: maximum, denominator, numerator. -/
abbrev St (F : FTy → Type) [FloatOps F] : Type := Vec F S64x1 .f32 × Vec F S64x1 .f32 × Vec F S64x64 .f32

/-- The state after a first key tile. -/
def sA (c : Dev nD) (t : Fin cfg1.N) (h0 : cond1_0 (grid1.coords t)) (h1 : cond1_1 (grid1.coords t)) (h2 : ¬cond1_2 (grid1.coords t)) : St F :=
  (val1_A_LS0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 h2 (iblk1 V c 0 t) (iblk1 V c 1 t) (iblk1 V c 2 t) (iblk1 V c 3 t) (iblk1 V c 4 t) (iblk1 V c 5 t), val1_A_LS1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 h2 (iblk1 V c 0 t) (iblk1 V c 1 t) (iblk1 V c 2 t) (iblk1 V c 3 t) (iblk1 V c 4 t) (iblk1 V c 5 t), val1_A_LS2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 h2 (iblk1 V c 0 t) (iblk1 V c 1 t) (iblk1 V c 2 t) (iblk1 V c 3 t) (iblk1 V c 4 t) (iblk1 V c 5 t))
/-- The state after a middle key tile that meets the triangle, from the state before it. -/
def sB (c : Dev nD) (t : Fin cfg1.N) (h0 : ¬cond1_0 (grid1.coords t)) (h1 : cond1_1 (grid1.coords t)) (h2 : ¬cond1_2 (grid1.coords t)) (s : St F) : St F :=
  (val1_B_LS0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 h2 (iblk1 V c 0 t) (iblk1 V c 1 t) (iblk1 V c 2 t) (iblk1 V c 3 t) (iblk1 V c 4 t) (iblk1 V c 5 t) s.1 s.2.1 s.2.2, val1_B_LS1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 h2 (iblk1 V c 0 t) (iblk1 V c 1 t) (iblk1 V c 2 t) (iblk1 V c 3 t) (iblk1 V c 4 t) (iblk1 V c 5 t) s.1 s.2.1 s.2.2, val1_B_LS2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 h2 (iblk1 V c 0 t) (iblk1 V c 1 t) (iblk1 V c 2 t) (iblk1 V c 3 t) (iblk1 V c 4 t) (iblk1 V c 5 t) s.1 s.2.1 s.2.2)
/-- The state after a last key tile that meets the triangle. -/
def sD (c : Dev nD) (t : Fin cfg1.N) (h0 : ¬cond1_0 (grid1.coords t)) (h1 : cond1_1 (grid1.coords t)) (h2 : cond1_2 (grid1.coords t)) (s : St F) : St F :=
  (val1_D_LS0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 h2 (iblk1 V c 0 t) (iblk1 V c 1 t) (iblk1 V c 2 t) (iblk1 V c 3 t) (iblk1 V c 4 t) (iblk1 V c 5 t) s.1 s.2.1 s.2.2, val1_D_LS1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 h2 (iblk1 V c 0 t) (iblk1 V c 1 t) (iblk1 V c 2 t) (iblk1 V c 3 t) (iblk1 V c 4 t) (iblk1 V c 5 t) s.1 s.2.1 s.2.2, val1_D_LS2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 h2 (iblk1 V c 0 t) (iblk1 V c 1 t) (iblk1 V c 2 t) (iblk1 V c 3 t) (iblk1 V c 4 t) (iblk1 V c 5 t) s.1 s.2.1 s.2.2)
/-- The output block written at a last key tile that meets the triangle / that does not. -/
def oD (c : Dev nD) (t : Fin cfg1.N) (h0 : ¬cond1_0 (grid1.coords t)) (h1 : cond1_1 (grid1.coords t)) (h2 : cond1_2 (grid1.coords t)) (s : St F) : Vec F S1x64x64 .f32 :=
  val1_D_L6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 h2 (iblk1 V c 0 t) (iblk1 V c 1 t) (iblk1 V c 2 t) (iblk1 V c 3 t) (iblk1 V c 4 t) (iblk1 V c 5 t) s.1 s.2.1 s.2.2
def oE (c : Dev nD) (t : Fin cfg1.N) (h0 : ¬cond1_0 (grid1.coords t)) (h1 : ¬cond1_1 (grid1.coords t)) (h2 : cond1_2 (grid1.coords t)) (s : St F) : Vec F S1x64x64 .f32 :=
  val1_E_L6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 h2 (iblk1 V c 0 t) (iblk1 V c 1 t) (iblk1 V c 2 t) (iblk1 V c 3 t) (iblk1 V c 4 t) (iblk1 V c 5 t) s.1 s.2.1 s.2.2

/-- THE RUNNING STATE after the point at position `n`. -/
def stAt (c : Dev nD) : (n : ℕ) → n < cfg1.N → St F
  | 0, hn => sA V c ⟨0, hn⟩ ((hcond1_0 ⟨0, hn⟩).mpr (Nat.zero_mod _)) ((hcond1_1 ⟨0, hn⟩).mpr (by show (0 % 4) * 2 < (0 / 4) % 8 + 1; decide))
      (fun h => absurd ((hcond1_2 ⟨0, hn⟩).mp h) (by show ¬ (0 % 4 = 3); decide))
  | n + 1, hn =>
    if h0 : (n + 1) % 4 = 0 then
      sA V c ⟨n + 1, hn⟩ ((hcond1_0 ⟨n + 1, hn⟩).mpr h0) ((hcond1_1 ⟨n + 1, hn⟩).mpr (by show ((n + 1) % 4) * 2 < ((n + 1) / 4) % 8 + 1; omega))
        (fun h => absurd ((hcond1_2 ⟨n + 1, hn⟩).mp h) (by show ¬ ((n + 1) % 4 = 3); omega))
    else if h1 : ((n + 1) % 4) * 2 < ((n + 1) / 4) % 8 + 1 then
      if h2 : (n + 1) % 4 = 3 then
        sD V c ⟨n + 1, hn⟩ (fun h => h0 ((hcond1_0 ⟨n + 1, hn⟩).mp h)) ((hcond1_1 ⟨n + 1, hn⟩).mpr h1) ((hcond1_2 ⟨n + 1, hn⟩).mpr h2) (stAt c n (Nat.lt_of_succ_lt hn))
      else
        sB V c ⟨n + 1, hn⟩ (fun h => h0 ((hcond1_0 ⟨n + 1, hn⟩).mp h)) ((hcond1_1 ⟨n + 1, hn⟩).mpr h1) (fun h => h2 ((hcond1_2 ⟨n + 1, hn⟩).mp h)) (stAt c n (Nat.lt_of_succ_lt hn))
    else stAt c n (Nat.lt_of_succ_lt hn)

theorem stAt_A (c : Dev nD) (t : Fin cfg1.N) (h0 : t.val % 4 = 0) (h1 : cond1_1 (grid1.coords t)) (h2 : ¬cond1_2 (grid1.coords t)) :
    stAt V c t.val t.isLt = sA V c t ((hcond1_0 t).mpr h0) h1 h2 := by
  obtain ⟨n, hn⟩ := t
  cases n with
  | zero => rfl
  | succ n => exact (dif_pos h0).trans rfl

theorem stAt_B (c : Dev nD) (t : Fin cfg1.N) (h0 : ¬t.val % 4 = 0) (h1 : (t.val % 4) * 2 < (t.val / 4) % 8 + 1) (h2 : ¬t.val % 4 = 3) :
    stAt V c t.val t.isLt = sB V c t (fun h => h0 ((hcond1_0 t).mp h)) ((hcond1_1 t).mpr h1) (fun h => h2 ((hcond1_2 t).mp h))
      (stAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans ((dif_neg h2).trans rfl))

theorem stAt_D (c : Dev nD) (t : Fin cfg1.N) (h0 : ¬t.val % 4 = 0) (h1 : (t.val % 4) * 2 < (t.val / 4) % 8 + 1) (h2 : t.val % 4 = 3) :
    stAt V c t.val t.isLt = sD V c t (fun h => h0 ((hcond1_0 t).mp h)) ((hcond1_1 t).mpr h1) ((hcond1_2 t).mpr h2)
      (stAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans ((dif_pos h2).trans rfl))

theorem stAt_keep (c : Dev nD) (t : Fin cfg1.N) (h0 : ¬t.val % 4 = 0) (h1 : ¬(t.val % 4) * 2 < (t.val / 4) % 8 + 1) :
    stAt V c t.val t.isLt = stAt V c (t.val - 1) (Nat.lt_of_le_of_lt (Nat.sub_le _ _) t.isLt) := by
  obtain ⟨n, hn⟩ := t
  cases n with
  | zero => exact absurd (Nat.zero_mod _) h0
  | succ n => exact (dif_neg h0).trans ((dif_neg h1).trans rfl)

/-- THE OUTPUT BLOCK after the point at position `n`: the quotient at a last key tile, a placeholder elsewhere (the
    window is idle there: neither written back nor read). -/
def outAt (c : Dev nD) (n : ℕ) (hn : n < cfg1.N) : Vec F S1x64x64 .f32 :=
  if h2 : n % 4 = 3 then
    if h1 : (n % 4) * 2 < (n / 4) % 8 + 1 then
      oD V c ⟨n, hn⟩ (fun h => absurd ((hcond1_0 ⟨n, hn⟩).mp h) (by show ¬ (n % 4 = 0); omega)) ((hcond1_1 ⟨n, hn⟩).mpr h1) ((hcond1_2 ⟨n, hn⟩).mpr h2)
        (stAt V c (n - 1) (Nat.lt_of_le_of_lt (Nat.sub_le _ _) hn))
    else
      oE V c ⟨n, hn⟩ (fun h => absurd ((hcond1_0 ⟨n, hn⟩).mp h) (by show ¬ (n % 4 = 0); omega)) (fun h => h1 ((hcond1_1 ⟨n, hn⟩).mp h)) ((hcond1_2 ⟨n, hn⟩).mpr h2)
        (stAt V c (n - 1) (Nat.lt_of_le_of_lt (Nat.sub_le _ _) hn))
  else VO1_6.read (Elt F) VO1_6.junk

theorem outAt_D (c : Dev nD) (t : Fin cfg1.N) (h0 : ¬cond1_0 (grid1.coords t)) (h1 : (t.val % 4) * 2 < (t.val / 4) % 8 + 1) (h2 : t.val % 4 = 3) :
    outAt V c t.val t.isLt = oD V c t h0 ((hcond1_1 t).mpr h1) ((hcond1_2 t).mpr h2) (stAt V c (t.val - 1) (Nat.lt_of_le_of_lt (Nat.sub_le _ _) t.isLt)) :=
  (dif_pos h2).trans ((dif_pos h1).trans rfl)
theorem outAt_E (c : Dev nD) (t : Fin cfg1.N) (h0 : ¬cond1_0 (grid1.coords t)) (h1 : ¬(t.val % 4) * 2 < (t.val / 4) % 8 + 1) (h2 : t.val % 4 = 3) :
    outAt V c t.val t.isLt = oE V c t h0 (fun h => h1 ((hcond1_1 t).mp h)) ((hcond1_2 t).mpr h2) (stAt V c (t.val - 1) (Nat.lt_of_le_of_lt (Nat.sub_le _ _) t.isLt)) :=
  (dif_pos h2).trans ((dif_neg h1).trans rfl)

end Region1

end Cert.KernelIdeal.Gen

end
-- ==== Proof.RegionAttn.lean ====
/-
  The second kernel region's invariant, proof data and body obligation: before the first point the scratch buffers
  hold anything; after a point they hold the running state of that point; the body at a point is run in the case the
  point's coordinates select.
-/
import proofs.«152301_j13073880449825_2_alg».proof.Proof.Gen.KernelIdeal.Launch
import proofs.«152301_j13073880449825_2_alg».proof.Proof.Gen.KernelIdeal.Skeleton
import proofs.«152301_j13073880449825_2_alg».proof.Proof.Gen.KernelIdeal.Points
import proofs.«152301_j13073880449825_2_alg».proof.Proof.RegionAttnState
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1
variable (V : (c : Dev nD) → (b : Ref sig .tc) → Buf (Elt F) ((c : Thread nD τ).loc b))

/-- The scoped buffers the second region does not stage, apart from its three scratch buffers: each at anything. -/
def RestOnly (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

/-- The same with the three scratch buffers held as `P0`, `P1`, `P2`. -/
def ScopedWith (c : Dev nD) (P0 P1 P2 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ P0 ∗ P1 ∗ P2)

theorem scoped_open (c : Dev nD) (P0 P1 P2 : sProp 𝕄) : ScopedWith (F := F) c P0 P1 P2 ⊢ iprop(RestOnly (F := F) c ∗ P0 ∗ P1 ∗ P2) := by
  unfold ScopedWith RestOnly
  iintro ⟨R0, R1, R2, R3, R4, R5, R6, R7, R8, R9, R10, R11, HP0, HP1, HP2⟩
  isplitl [R0 R1 R2 R3 R4 R5 R6 R7 R8 R9 R10 R11]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  isplitl [HP0]; · iexact HP0
  isplitl [HP1]; · iexact HP1
  iexact HP2

theorem scoped_close (c : Dev nD) (P0 P1 P2 : sProp 𝕄) : iprop(RestOnly (F := F) c ∗ P0 ∗ P1 ∗ P2) ⊢ ScopedWith (F := F) c P0 P1 P2 := by
  unfold ScopedWith RestOnly
  iintro ⟨⟨R0, R1, R2, R3, R4, R5, R6, R7, R8, R9, R10, R11⟩, HP0, HP1, HP2⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [HP0]; · iexact HP0
  isplitl [HP1]; · iexact HP1
  iexact HP2

/-- The region's entry invariant with the scratch operands as memrefs owned at some contents. -/
theorem PhiA1_eq (c : Dev nD) :
    (Pipeline.ΦA spec1 c : sProp 𝕄)
      = iprop(ScopedWith (F := F) c iprop(∃ d, owns (c : Thread nD τ) scM1_0 fullShare d) iprop(∃ d, owns (c : Thread nD τ) scM1_1 fullShare d) iprop(∃ d, owns (c : Thread nD τ) scM1_2 fullShare d) ∗ (∃ r, prngReg c r)) := by
  unfold Pipeline.ΦA ScopedWith; rw [scopedRest1_eq]; simp only [scM1_0, scM1_1, scM1_2, owns_whole]; try rfl

/-- The region invariant before position `n`: before the first point the entry invariant; afterwards the scratch
    buffers at the running state the point before left. -/
def PhiS (c : Dev nD) : (n : ℕ) → n ≤ cfg1.N → sProp 𝕄
  | 0, _ => Pipeline.ΦA spec1 c
  | n + 1, hn => iprop(ScopedWith (F := F) c (owns (c : Thread nD τ) scM1_0 fullShare (stAt V c n hn).1) (owns (c : Thread nD τ) scM1_1 fullShare (stAt V c n hn).2.1)
      (owns (c : Thread nD τ) scM1_2 fullShare (stAt V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(ScopedWith (F := F) c (owns (c : Thread nD τ) scM1_0 fullShare (stAt V c n hn).1) (owns (c : Thread nD τ) scM1_1 fullShare (stAt V c n hn).2.1)
      (owns (c : Thread nD τ) scM1_2 fullShare (stAt V c n hn).2.2) ∗ (∃ r, prngReg c r)) := rfl

theorem PhiS_pos (c : Dev nD) (n : ℕ) (h : n ≤ cfg1.N) (hz : n ≠ 0) :
    PhiS V c n h = iprop(ScopedWith (F := F) c (owns (c : Thread nD τ) scM1_0 fullShare (stAt V c (n - 1) (by omega)).1) (owns (c : Thread nD τ) scM1_1 fullShare (stAt V c (n - 1) (by omega)).2.1)
      (owns (c : Thread nD τ) scM1_2 fullShare (stAt V c (n - 1) (by omega)).2.2) ∗ (∃ r, prngReg c r)) := by
  cases n with
  | zero => exact absurd rfl hz
  | succ n => rfl

/-- The proof data of the second region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point, in the case its coordinates select. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 4 = 0
  · have h1 : (t.val % 4) * 2 < (t.val / 4) % 8 + 1 := by omega
    have h2 : ¬t.val % 4 = 3 := by omega
    rw [Dat.leavesExact_idle (dat1 V c) 6 t (idleAt1_6 t (fun h => h2 ((hcond1_2 t).mp h))) (noFlush1_6 t (fun h => h2 ((hcond1_2 t).mp h)))]
    rw [stAt_A V c t h0 ((hcond1_1 t).mpr h1) (fun h => h2 ((hcond1_2 t).mp h))]
    unfold sA; (try dsimp only)
    by_cases hz : t.val = 0
    · rw [PhiS_castSucc V c t, PhiS_zero V c _ _ hz, PhiA1_eq]
      iintro ⟨⟨Hsc, Hg⟩, Ho, ⟨%d0, H0⟩, ⟨%d1, H1⟩, ⟨%d2, H2⟩, ⟨%d3, H3⟩, ⟨%d4, H4⟩, ⟨%d5, H5⟩, ⟨%d6, H6⟩⟩
      ihave Hsc' := (scoped_open c _ _ _) $$ Hsc
      icases Hsc' with ⟨HR, HS0, HS1, HS2⟩
      iapply ((kernelRun1_A c (grid1.coords t) _ _ _ _ _ _ _ _ _ _ _ _ _ _ _ _ _ _ _ _ ((hcond1_0 t).mpr h0) ((hcond1_1 t).mpr h1) (fun h => h2 ((hcond1_2 t).mp h)) (iblk1 V c 0 t) (iblk1 V c 1 t) (iblk1 V c 2 t) (iblk1 V c 3 t) (iblk1 V c 4 t) (iblk1 V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HR HS0 HS1 HS2 Hg]
      · isplitl [HR HS0 HS1 HS2]
        · iapply (scoped_close c _ _ _)
          isplitl [HR]; · iexact HR
          isplitl [HS0]
          · unfold owns; iexists _; isplitr
            swap; · iexact HS0
            ipureintro; exact View.read_writes_of_cover _ _ _ _ _ (cover1_A_LS0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover1_A_LS1 c _ _ _ _ _ _ _ _ _ _ _ _ _ _ _ _ _ _ _ _ _ _ _ _ _ _ _ _ _ _)
          unfold owns; iexists _; isplitr
          swap; · iexact HS2
          ipureintro; exact View.read_writes_of_cover _ _ _ _ _ (cover1_A_LS2 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc V c t, PhiS_pos V c _ _ hz]
      iintro ⟨⟨Hsc, Hg⟩, Ho, ⟨%d0, H0⟩, ⟨%d1, H1⟩, ⟨%d2, H2⟩, ⟨%d3, H3⟩, ⟨%d4, H4⟩, ⟨%d5, H5⟩, ⟨%d6, H6⟩⟩
      ihave Hsc' := (scoped_open c _ _ _) $$ Hsc
      icases Hsc' with ⟨HR, HS0, HS1, HS2⟩
      iapply ((kernelRun1_A c (grid1.coords t) _ _ _ _ _ _ _ _ _ _ _ _ _ _ _ _ _ _ _ _ ((hcond1_0 t).mpr h0) ((hcond1_1 t).mpr h1) (fun h => h2 ((hcond1_2 t).mp h)) (iblk1 V c 0 t) (iblk1 V c 1 t) (iblk1 V c 2 t) (iblk1 V c 3 t) (iblk1 V c 4 t) (iblk1 V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, ⟨%es0, HS0⟩, ⟨%es1, HS1⟩, ⟨%es2, HS2⟩⟩
      isplitl [HR HS0 HS1 HS2 Hg]
      · isplitl [HR HS0 HS1 HS2]
        · iapply (scoped_close c _ _ _)
          isplitl [HR]; · iexact HR
          isplitl [HS0]
          · unfold owns; iexists _; isplitr
            swap; · iexact HS0
            ipureintro; exact View.read_writes_of_cover _ _ _ _ _ (cover1_A_LS0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover1_A_LS1 c _ _ _ _ _ _ _ _ _ _ _ _ _ _ _ _ _ _ _ _ _ _ _ _ _ _ _ _ _ _)
          unfold owns; iexists _; isplitr
          swap; · iexact HS2
          ipureintro; exact View.read_writes_of_cover _ _ _ _ _ (cover1_A_LS2 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : (t.val % 4) * 2 < (t.val / 4) % 8 + 1
    · by_cases h2 : t.val % 4 = 3
      · rw [show (dat1 V c).leavesExact 6 t = owns (c : Thread nD τ) (ms1_6 t) fullShare ((dat1 V c).after 6 t) from by
          unfold Dat.leavesExact; rw [liveAt1_6 t ((hcond1_2 t).mpr h2)], after1_6]
        rw [outAt_D V c t (fun h => h0 ((hcond1_0 t).mp h)) h1 h2, stAt_D V c t h0 h1 h2]
        unfold sD oD; (try dsimp only)
        rw [PhiS_castSucc V c t, PhiS_pos V c _ _ hz]
        iintro ⟨⟨Hsc, Hg⟩, Ho, ⟨%d0, H0⟩, ⟨%d1, H1⟩, ⟨%d2, H2⟩, ⟨%d3, H3⟩, ⟨%d4, H4⟩, ⟨%d5, H5⟩, ⟨%d6, H6⟩⟩
        ihave Hsc' := (scoped_open c _ _ _) $$ Hsc
        icases Hsc' with ⟨HR, HS0, HS1, HS2⟩
        iapply ((kernelRun1_D c (grid1.coords t) _ _ _ _ _ _ _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) (iblk1 V c 3 t) (iblk1 V c 4 t) (iblk1 V c 5 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        iintro ⟨H0, H1, H2, H3, H4, H5, ⟨%e6, H6⟩, ⟨%es0, HS0⟩, ⟨%es1, HS1⟩, ⟨%es2, HS2⟩⟩
        isplitl [HR HS0 HS1 HS2 Hg]
        · isplitl [HR HS0 HS1 HS2]
          · iapply (scoped_close c _ _ _)
            isplitl [HR]; · iexact HR
            isplitl [HS0]
            · unfold owns; iexists _; isplitr
              swap; · iexact HS0
              ipureintro; exact View.read_writes_of_cover _ _ _ _ _ (cover1_D_LS0 c _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (cover1_D_LS1 c _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (cover1_D_LS2 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_D_L6 c _ _ _ _ _ _ _ _ _ _ _ _ _ _ _ _ _ _ _ _ _ _ _ _ _ _ _ _ _ _ _ _ _)
      · rw [Dat.leavesExact_idle (dat1 V c) 6 t (idleAt1_6 t (fun h => h2 ((hcond1_2 t).mp h))) (noFlush1_6 t (fun h => h2 ((hcond1_2 t).mp h)))]
        rw [stAt_B V c t h0 h1 h2]
        unfold sB; (try dsimp only)
        rw [PhiS_castSucc V c t, PhiS_pos V c _ _ hz]
        iintro ⟨⟨Hsc, Hg⟩, Ho, ⟨%d0, H0⟩, ⟨%d1, H1⟩, ⟨%d2, H2⟩, ⟨%d3, H3⟩, ⟨%d4, H4⟩, ⟨%d5, H5⟩, ⟨%d6, H6⟩⟩
        ihave Hsc' := (scoped_open c _ _ _) $$ Hsc
        icases Hsc' with ⟨HR, HS0, HS1, HS2⟩
        iapply ((kernelRun1_B c (grid1.coords t) _ _ _ _ _ _ _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) (iblk1 V c 5 t) _ _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HR HS0 HS1 HS2 Hg]
        · isplitl [HR HS0 HS1 HS2]
          · iapply (scoped_close c _ _ _)
            isplitl [HR]; · iexact HR
            isplitl [HS0]
            · unfold owns; iexists _; isplitr
              swap; · iexact HS0
              ipureintro; exact View.read_writes_of_cover _ _ _ _ _ (cover1_B_LS0 c _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (cover1_B_LS1 c _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (cover1_B_LS2 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · by_cases h2 : t.val % 4 = 3
      · rw [show (dat1 V c).leavesExact 6 t = owns (c : Thread nD τ) (ms1_6 t) fullShare ((dat1 V c).after 6 t) from by
          unfold Dat.leavesExact; rw [liveAt1_6 t ((hcond1_2 t).mpr h2)], after1_6]
        rw [outAt_E V c t (fun h => h0 ((hcond1_0 t).mp h)) h1 h2, stAt_keep V c t h0 h1]
        unfold oE; (try dsimp only)
        rw [PhiS_castSucc V c t, PhiS_pos V c _ _ hz]
        iintro ⟨⟨Hsc, Hg⟩, Ho, ⟨%d0, H0⟩, ⟨%d1, H1⟩, ⟨%d2, H2⟩, ⟨%d3, H3⟩, ⟨%d4, H4⟩, ⟨%d5, H5⟩, ⟨%d6, H6⟩⟩
        ihave Hsc' := (scoped_open c _ _ _) $$ Hsc
        icases Hsc' with ⟨HR, HS0, HS1, HS2⟩
        iapply ((kernelRun1_E c (grid1.coords t) _ _ _ _ _ _ _ _ _ _ _ _ _ _ _ _ _ _ _ _ (fun h => h0 ((hcond1_0 t).mp h)) (fun h => h1 ((hcond1_1 t).mp h)) ((hcond1_2 t).mpr h2) (iblk1 V c 0 t) (iblk1 V c 1 t) (iblk1 V c 2 t) (iblk1 V c 3 t) (iblk1 V c 4 t) (iblk1 V c 5 t) _ _ _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        iintro ⟨H0, H1, H2, H3, H4, H5, ⟨%e6, H6⟩, HS0, HS1, HS2⟩
        isplitl [HR HS0 HS1 HS2 Hg]
        · isplitl [HR HS0 HS1 HS2]
          · iapply (scoped_close c _ _ _)
            isplitl [HR]; · iexact HR
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_E_L6 c _ _ _ _ _ _ _ _ _ _ _ _ _ _ _ _ _ _ _ _ _ _ _ _ _ _ _ _ _ _ _ _ _)
      · rw [Dat.leavesExact_idle (dat1 V c) 6 t (idleAt1_6 t (fun h => h2 ((hcond1_2 t).mp h))) (noFlush1_6 t (fun h => h2 ((hcond1_2 t).mp h)))]
        rw [stAt_keep V c t h0 h1]
        rw [PhiS_castSucc V c t, PhiS_pos V c _ _ hz]
        iintro ⟨⟨Hsc, Hg⟩, Ho, ⟨%d0, H0⟩, ⟨%d1, H1⟩, ⟨%d2, H2⟩, ⟨%d3, H3⟩, ⟨%d4, H4⟩, ⟨%d5, H5⟩, ⟨%d6, H6⟩⟩
        ihave Hsc' := (scoped_open c _ _ _) $$ Hsc
        icases Hsc' with ⟨HR, HS0, HS1, HS2⟩
        iapply (kernelRun1_C c (grid1.coords t) _ _ _ _ _ _ _ _ _ _ _ _ _ _ _ _ _ _ _ _ (fun h => h0 ((hcond1_0 t).mp h)) (fun h => h1 ((hcond1_1 t).mp h)) (fun h => h2 ((hcond1_2 t).mp h)) (iblk1 V c 0 t) (iblk1 V c 1 t) (iblk1 V c 2 t) (iblk1 V c 3 t) (iblk1 V c 4 t) (iblk1 V c 5 t) _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, HS0, HS1, HS2⟩
        isplitl [HR HS0 HS1 HS2 Hg]
        · isplitl [HR HS0 HS1 HS2]
          · iapply (scoped_close c _ _ _)
            isplitl [HR]; · iexact HR
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the entry invariant back: the running state is forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl, PhiS_pos V c _ _ hne, PhiA1_eq]
  iintro ⟨Hsc, Hg⟩
  isplitl [Hsc]
  · ihave Hsc' := (scoped_open c _ _ _) $$ Hsc
    icases Hsc' with ⟨HR, HS0, HS1, HS2⟩
    iapply (scoped_close c _ _ _)
    isplitl [HR]; · iexact HR
    isplitl [HS0]; · iexists _; iexact HS0
    isplitl [HS1]; · iexists _; iexact HS1
    iexists _; iexact HS2
  iexact Hg

end Region1

end Cert.KernelIdeal.Gen

end
-- ==== Proof.MainRun.lean ====
/-
  The whole program as four segments — two host stretches (the slices of the first-layer weight; the reshapes of the
  bias, the second-layer weight and its bias) and the two kernel regions — run from the launch to the return: every
  unscoped buffer ends at the contents folded through the segments, so the seven arguments end as launched and the
  result buffer ends at what the second region's write-backs leave. Stated at any float instance.
-/
import proofs.«152301_j13073880449825_2_alg».proof.Proof.Gen.KernelIdeal.Launch
import proofs.«152301_j13073880449825_2_alg».proof.Proof.Gen.KernelIdeal.Skeleton
import proofs.«152301_j13073880449825_2_alg».proof.Proof.Gen.KernelIdeal.Points
import proofs.«152301_j13073880449825_2_alg».proof.Proof.RegionPre
import proofs.«152301_j13073880449825_2_alg».proof.Proof.RegionAttn
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The buffer contents at each segment boundary -/

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### No segment writes an argument -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg6) := (W2_arr m c 4).trans (((dat0 (V1 m) c).arrAt_in 4 rfl _).trans (A_eq0 (V1 m) c 4))
    _ = W0 m c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The result buffer ends at what the second region's write-backs leave in its output window's array. -/
theorem W4_main_v7 (c : Dev nD) : W4 m c (Proc.devRef .tc main_v7) = (dat1 (V3 m) c).arrAt 6 cfg1.N :=
  W4_arr m c 6

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state "every unscoped buffer at the boundary's contents, the generator register at some
    state, nothing owed": its arrays split out of the unscoped buffers at entry and put back at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (V3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub ops0_fresh (W0 m)),
    .region (reg0 m),
    .host (hseg hostOps1 hostOps1_sub ops1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: the seven arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_all m ρ)

/-- THE RESULT: the result buffer ends at what the second region's write-backs leave, the arguments as launched. -/
theorem run_value (ρ : Dev nD → PrngReg) : θ_run defs (onTc (τ := τ) (main (F := F))) ⟨m, fun _ => 0, ρ⟩ (fun r => ∀ c : Dev nD,
      r.2.mem ((c.tc : Thread nD τ).loc main_v7) = (dat1 (V3 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v7 (by decide))).trans (W4_main_v7 m c), (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_all m ρ)

end Cert.KernelIdeal.Run

end
-- ==== Proof.RegionPreB.lean ====
/-
  The first kernel region (the precompute call: one grid axis of four points, one batch entry each), on whole
  staging buffers: per point the three output blocks are the two projections of (x + pos) and the value projection
  of x, each stored whole; the inputs' blocks are left in place. Stated at any float instance.
-/
import proofs.«152301_j13073880449825_2_alg».proof.Proof.Gen.Kernel.Launch
import proofs.«152301_j13073880449825_2_alg».proof.Proof.Gen.Kernel.Skeleton
import proofs.«152301_j13073880449825_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S1x512x128 := Rect.unit (s := S1x512x128) ![0, 0, 0] S1x512x128.size inb_S1x512x128_S1x512x128_0_0_0
abbrev rp0 : Rect S512x128 := Rect.unit (s := S512x128) ![0, 0] S512x128.size inb_S512x128_S512x128_0_0
abbrev rw0 : Rect S128x128 := Rect.unit (s := S128x128) ![0, 0] S128x128.size inb_S128x128_S128x128_0_0
abbrev rv0 : Rect S128x64 := Rect.unit (s := S128x64) ![0, 0] S128x64.size inb_S128x64_S128x64_0_0
abbrev rt0 : Rect S1x128x512 := Rect.unit (s := S1x128x512) ![0, 0, 0] S1x128x512.size inb_S1x128x512_S1x128x512_0_0_0
abbrev ro0 : Rect S1x512x64 := Rect.unit (s := S1x512x64) ![0, 0, 0] S1x512x64.size inb_S1x512x64_S1x512x64_0_0_0

/-- The query-side projection block after the body. -/
def out0_5 (x0 : Vec F S1x512x128 .f32) (x1 : Vec F S512x128 .f32) (x2 : Vec F S128x128 .f32) : Vec F S1x512x128 .f32 :=
  View.canon [⟨rx0, k0_pay3 (View.ld x0 rx0) (View.ld x1 rp0) (View.ld x2 rw0)⟩]
/-- The key-side projection block, transposed, after the body. -/
def out0_6 (x0 : Vec F S1x512x128 .f32) (x1 : Vec F S512x128 .f32) (x3 : Vec F S128x128 .f32) : Vec F S1x128x512 .f32 :=
  View.canon [⟨rt0, k0_pay4 (View.ld x0 rx0) (View.ld x1 rp0) (View.ld x3 rw0)⟩]
/-- The value projection block after the body. -/
def out0_7 (x0 : Vec F S1x512x128 .f32) (x4 : Vec F S128x64 .f32) : Vec F S1x512x64 .f32 :=
  View.canon [⟨ro0, k0_pay5 (View.ld x0 rx0) (View.ld x4 rv0)⟩]

theorem cover0_5 (p0 : Vec F S1x512x128 .f32) (y : S1x512x128.Idx) :
    ∃ pc ∈ ([⟨rx0, p0⟩] : List (View.Piece (Elt F) S1x512x128 .f32)), y ∈ pc.1.set :=
  View.cover_of_tiled [⟨rx0, p0⟩] S1x512x128.size (by rfl) y
theorem cover0_6 (p0 : Vec F S1x128x512 .f32) (y : S1x128x512.Idx) :
    ∃ pc ∈ ([⟨rt0, p0⟩] : List (View.Piece (Elt F) S1x128x512 .f32)), y ∈ pc.1.set :=
  View.cover_of_tiled [⟨rt0, p0⟩] S1x128x512.size (by rfl) y
theorem cover0_7 (p0 : Vec F S1x512x64 .f32) (y : S1x512x64.Idx) :
    ∃ pc ∈ ([⟨ro0, p0⟩] : List (View.Piece (Elt F) S1x512x64 .f32)), y ∈ pc.1.set :=
  View.cover_of_tiled [⟨ro0, p0⟩] S1x512x64.size (by rfl) y

set_option maxHeartbeats 2000000 in
/-- The body on whole staging memrefs: the inputs kept, each output at its projection. -/
theorem sound_kernel0 (c : Dev nD) (E : Set ℕ) (i : grid0.Coords)
    (arg1 : Memref sig .tc .vmem S1x512x128 .f32) (harg1 : arg1.IsWhole) (arg2 : Memref sig .tc .vmem S512x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128x64 .f32) (harg5 : arg5.IsWhole) (arg6 : Memref sig .tc .vmem S1x512x128 .f32) (harg6 : arg6.IsWhole)
    (arg7 : Memref sig .tc .vmem S1x128x512 .f32) (harg7 : arg7.IsWhole) (arg8 : Memref sig .tc .vmem S1x512x64 .f32) (harg8 : arg8.IsWhole)
    (x0 : Vec F S1x512x128 .f32) (x1 : Vec F S512x128 .f32) (x2 : Vec F S128x128 .f32) (x3 : Vec F S128x128 .f32) (x4 : Vec F S128x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x1 x3)
            ∗ owns (c : Thread nD τ) arg8 fullShare (out0_7 x0 x4)) -∗ K ⟨⟩))
      ⊢ wp frame (wpE (defs₀ (F := F)) Variants.none c none) E (cc0__precompute_kernel i arg1 harg1 arg2 harg2 arg3 harg3 arg4 harg4 arg5 harg5 arg6 harg6 arg7 harg7 arg8 harg8) K := by
  simp only [cc0__precompute_kernel_eq_skeleton]; unfold cc0__precompute_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-- The proof data of the first region on core `c`: the arrays as the region finds them; each input's buffer at its
    block, each output's at its projection of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 3 t)
    | ⟨7, _⟩ => out0_7 (iblk0 V c 0 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]
theorem after0_7 (c : Dev nD) (t : Fin cfg0.N) : (dat0 V c).after 7 t = out0_7 (iblk0 V c 0 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.RegionAttnRunsB.lean ====
/-
  The second kernel region (the attention call: batch × query tile × key tile), its body run on whole staging
  buffers in each of the five ways its three guards fall over the grid: (A) first key tile: reset and accumulate;
  (B) a middle key tile inside the causal triangle: accumulate; (C) a middle key tile outside it: nothing;
  (D) the last key tile inside the triangle: accumulate and write the quotient; (E) the last key tile outside it:
  write the quotient. Stated at any float instance.
-/
import proofs.«152301_j13073880449825_2_alg».proof.Proof.Gen.Kernel.Launch
import proofs.«152301_j13073880449825_2_alg».proof.Proof.Gen.Kernel.Skeleton
import proofs.«152301_j13073880449825_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three guards, from the grid coordinates (batch, query tile, key tile) -/

/-- The first guard: this is the first key tile of the query tile (the running state is reset). -/
abbrev cond1_0 (i : grid1.Coords) : Prop := (Scalar.cmpi .ne (Scalar.extui (Scalar.cmpi .eq (BitVec.ofNat 32 (i 2).val) 0#32)) 0#32) = 1#1
/-- The second guard: the key tile starts before the query tile ends (it meets the causal triangle). -/
abbrev cond1_1 (i : grid1.Coords) : Prop := (Scalar.cmpi .ne (Scalar.extui (Scalar.cmpi .slt (Scalar.muli (BitVec.ofNat 32 (i 2).val) 128#32) (Scalar.muli (Scalar.addi (BitVec.ofNat 32 (i 1).val) 1#32) 64#32))) 0#32) = 1#1
/-- The third guard: this is the last key tile (the output block is written). -/
abbrev cond1_2 (i : grid1.Coords) : Prop := k1_cond3 i = 1#1

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ (t.val % 4) * 2 < (t.val / 4) % 8 + 1 :=
  (by decide +kernel : ∀ t : Fin grid1.N, cond1_1 (grid1.coords t) ↔ (t.val % 4) * 2 < (t.val / 4) % 8 + 1)
theorem hcond1_2 : ∀ t : Fin cfg1.N, cond1_2 (grid1.coords t) ↔ t.val % 4 = 3 :=
  (by decide +kernel : ∀ t : Fin grid1.N, cond1_2 (grid1.coords t) ↔ t.val % 4 = 3)

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- The output window is idle, and not written back, except at the last key tile. -/
theorem idleAt1_6 : ∀ t : Fin cfg1.N, ¬cond1_2 (grid1.coords t) → cfg1.idle 6 (grid1.coords t) = true := by decide +kernel
theorem noFlush1_6 : ∀ t : Fin cfg1.N, ¬cond1_2 (grid1.coords t) → (cfg1.win 6).flush t = false := by decide +kernel
theorem liveAt1_6 : ∀ t : Fin cfg1.N, cond1_2 (grid1.coords t) → cfg1.idle 6 (grid1.coords t) = false := by decide +kernel

/-- Each window's current staging memref at point `t`, and its wholeness. -/
abbrev ms1_0 (t : Fin cfg1.N) : Memref sig .tc .vmem S1x64x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64x64 .f32 := win1_6.stage (cfg1.slots t 6)
abbrev hs1_6 (t : Fin cfg1.N) : (ms1_6 t).IsWhole := hstage1_6 ((cfg1.slots t 6).cast nbuf1_6)
/-- The three scratch operands: the running maximum, the running denominator, the running numerator. -/
abbrev scM1_0 : Memref sig .tc .vmem S64x1 .f32 := Memref.whole cc1_scratch0
abbrev scM1_1 : Memref sig .tc .vmem S64x1 .f32 := Memref.whole cc1_scratch1
abbrev scM1_2 : Memref sig .tc .vmem S64x64 .f32 := Memref.whole cc1_scratch2
abbrev VS1_0 : View sig .tc .vmem S64x1 .f32 := scM1_0.view
abbrev VS1_1 : View sig .tc .vmem S64x1 .f32 := scM1_1.view
abbrev VS1_2 : View sig .tc .vmem S64x64 .f32 := scM1_2.view
abbrev VO1_6 : View sig .tc .vmem S1x64x64 .f32 := (Memref.whole cc1_stg6_0 : Memref sig .tc .vmem S1x64x64 .f32).view

set_option maxHeartbeats 4000000 in
/-- Case A (first key tile): whatever the scratch held, it ends at the reset state advanced by this tile; the output block is handed back untouched. -/
noncomputable def kernelRun1_A (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) :
    Σ' (LS0 : List (View.Piece (Elt F) S64x1 .f32)), Σ' (LS1 : List (View.Piece (Elt F) S64x1 .f32)), { LS2 : List (View.Piece (Elt F) S64x64 .f32) //
      ∀ (xi6 : Vec F S1x64x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, fun xi6 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

set_option maxHeartbeats 4000000 in
/-- Case B (a middle key tile meeting the triangle): the scratch ends at its contents advanced by this tile; the output block is handed back untouched. -/
noncomputable def kernelRun1_B (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) :
    Σ' (LS0 : List (View.Piece (Elt F) S64x1 .f32)), Σ' (LS1 : List (View.Piece (Elt F) S64x1 .f32)), { LS2 : List (View.Piece (Elt F) S64x64 .f32) //
      ∀ (xi6 : Vec F S1x64x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, fun xi6 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0; obtain rfl := harg11.eq_unread hfs1; obtain rfl := harg12.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

set_option maxHeartbeats 4000000 in
/-- Case C (a middle key tile outside the triangle): nothing is written. -/
theorem kernelRun1_C (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : ¬cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) :
    ∀ (xi6 : Vec F S1x64x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0 ∗ owns (c : Thread nD τ) arg11 fullShare xs1 ∗ owns (c : Thread nD τ) arg12 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K := by
  intro xi6 E K
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0; obtain rfl := harg11.eq_unread hfs1; obtain rfl := harg12.eq_unread hfs2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [HS0]
  · iexists _; isplitr; · ipureintro; exact harg10.read_unread _
    iexact HS0
  isplitl [HS1]
  · iexists _; isplitr; · ipureintro; exact harg11.read_unread _
    iexact HS1
  iexists _; isplitr; · ipureintro; exact harg12.read_unread _
  iexact HS2

set_option maxHeartbeats 4000000 in
/-- Case D (the last key tile, meeting the triangle): the scratch advanced by this tile, the output block written with the quotient of the advanced numerator by the advanced denominator. -/
noncomputable def kernelRun1_D (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) :
    Σ' (L6 : List (View.Piece (Elt F) S1x64x64 .f32)), Σ' (LS0 : List (View.Piece (Elt F) S64x1 .f32)), Σ' (LS1 : List (View.Piece (Elt F) S64x1 .f32)), { LS2 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0; obtain rfl := harg11.eq_unread hfs1; obtain rfl := harg12.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]; · iexists _; iexact HS1
    iexists _; iexact HS2

set_option maxHeartbeats 4000000 in
/-- Case E (the last key tile, outside the triangle): the scratch kept, the output block written with the quotient of numerator by denominator. -/
noncomputable def kernelRun1_E (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : ¬cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) :
    { L6 : List (View.Piece (Elt F) S1x64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xs0 ∗ owns (c : Thread nD τ) arg11 fullShare xs1 ∗ owns (c : Thread nD τ) arg12 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0; obtain rfl := harg11.eq_unread hfs1; obtain rfl := harg12.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]
    · iexists _; isplitr; · ipureintro; exact harg10.read_unread _
      iexact HS0
    isplitl [HS1]
    · iexists _; isplitr; · ipureintro; exact harg11.read_unread _
      iexact HS1
    iexists _; isplitr; · ipureintro; exact harg12.read_unread _
    iexact HS2

end Cert.Kernel.Gen

end
-- ==== Proof.RegionAttnStateB.lean ====
/-
  The second kernel region's proof data. The three scratch buffers carry, per (batch, query tile), the running
  maximum, denominator and numerator over the key tiles seen so far; the state after a point is defined by recursion
  on the point — reset and advanced at a first key tile, advanced at a key tile that meets the causal triangle, kept
  otherwise — and the output block is the quotient written at the last key tile.
-/
import proofs.«152301_j13073880449825_2_alg».proof.Proof.Gen.Kernel.Launch
import proofs.«152301_j13073880449825_2_alg».proof.Proof.Gen.Kernel.Skeleton
import proofs.«152301_j13073880449825_2_alg».proof.Proof.Gen.Kernel.Points
import proofs.«152301_j13073880449825_2_alg».proof.Proof.RegionAttnRunsB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Covers of the found pieces, and the contents they leave (generic memrefs) -/

theorem cover1_A_LS0 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (y : S64x1.Idx) :
    ∃ pc ∈ (kernelRun1_A c i arg3 harg3 arg4 harg4 arg5 harg5 arg6 harg6 arg7 harg7 arg8 harg8 arg9 harg9 arg10 harg10 arg11 harg11 arg12 harg12 hc0 hc1 hc2 x0 x1 x2 x3 x4 x5).1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 hc2 x0 x1 x2 x3 x4 x5).1 S64x1.size (by sl_kernel_rfl) y
/-- What case A leaves there: its pieces read back. -/
def val1_A_LS0 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) : Vec F S64x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 arg12 harg12 hc0 hc1 hc2 x0 x1 x2 x3 x4 x5).1)

theorem cover1_A_LS1 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (y : S64x1.Idx) :
    ∃ pc ∈ (kernelRun1_A c i arg3 harg3 arg4 harg4 arg5 harg5 arg6 harg6 arg7 harg7 arg8 harg8 arg9 harg9 arg10 harg10 arg11 harg11 arg12 harg12 hc0 hc1 hc2 x0 x1 x2 x3 x4 x5).2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 hc2 x0 x1 x2 x3 x4 x5).2.1 S64x1.size (by sl_kernel_rfl) y
/-- What case A leaves there: its pieces read back. -/
def val1_A_LS1 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) : Vec F S64x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 arg12 harg12 hc0 hc1 hc2 x0 x1 x2 x3 x4 x5).2.1)

theorem cover1_A_LS2 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (y : S64x64.Idx) :
    ∃ pc ∈ (kernelRun1_A c i arg3 harg3 arg4 harg4 arg5 harg5 arg6 harg6 arg7 harg7 arg8 harg8 arg9 harg9 arg10 harg10 arg11 harg11 arg12 harg12 hc0 hc1 hc2 x0 x1 x2 x3 x4 x5).2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 hc2 x0 x1 x2 x3 x4 x5).2.2.1 S64x64.size (by sl_kernel_rfl) y
/-- What case A leaves there: its pieces read back. -/
def val1_A_LS2 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) : Vec F S64x64 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 arg12 harg12 hc0 hc1 hc2 x0 x1 x2 x3 x4 x5).2.2.1)

theorem cover1_B_LS0 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) (y : S64x1.Idx) :
    ∃ pc ∈ (kernelRun1_B c i arg3 harg3 arg4 harg4 arg5 harg5 arg6 harg6 arg7 harg7 arg8 harg8 arg9 harg9 arg10 harg10 arg11 harg11 arg12 harg12 hc0 hc1 hc2 x0 x1 x2 x3 x4 x5 xs0 xs1 xs2).1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 hc2 x0 x1 x2 x3 x4 x5 xs0 xs1 xs2).1 S64x1.size (by sl_kernel_rfl) y
/-- What case B leaves there: its pieces read back. -/
def val1_B_LS0 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) : Vec F S64x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 arg12 harg12 hc0 hc1 hc2 x0 x1 x2 x3 x4 x5 xs0 xs1 xs2).1)

theorem cover1_B_LS1 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) (y : S64x1.Idx) :
    ∃ pc ∈ (kernelRun1_B c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.1 S64x1.size (by sl_kernel_rfl) y
/-- What case B leaves there: its pieces read back. -/
def val1_B_LS1 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) : Vec F S64x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.1)

theorem cover1_B_LS2 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) (y : S64x64.Idx) :
    ∃ pc ∈ (kernelRun1_B c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.2.1 S64x64.size (by sl_kernel_rfl) y
/-- What case B leaves there: its pieces read back. -/
def val1_B_LS2 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) : Vec F S64x64 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.2.1)

theorem cover1_D_L6 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) (y : S1x64x64.Idx) :
    ∃ pc ∈ (kernelRun1_D c i arg3 harg3 arg4 harg4 arg5 harg5 arg6 harg6 arg7 harg7 arg8 harg8 arg9 harg9 arg10 harg10 arg11 harg11 arg12 harg12 hc0 hc1 hc2 x0 x1 x2 x3 x4 x5 xs0 xs1 xs2).1, y ∈ pc.1.set :=
  View.cover_of_tiledL (kernelRun1_D c i arg3 harg3 arg4 harg4 arg5 harg5 arg6 harg6 arg7 harg7 arg8 harg8 arg9 harg9 arg10 harg10 arg11 harg11 arg12 harg12 hc0 hc1 hc2 x0 x1 x2 x3 x4 x5 xs0 xs1 xs2).1 S1x64x64.size (by sl_kernel_rfl) y
/-- What case D leaves there: its pieces read back. -/
def val1_D_L6 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) : Vec F S1x64x64 .f32 :=
  VO1_6.read (Elt F) (VO1_6.writes (Elt F) VO1_6.junk (kernelRun1_D c i arg3 harg3 arg4 harg4 arg5 harg5 arg6 harg6 arg7 harg7 arg8 harg8 arg9 harg9 arg10 harg10 arg11 harg11 arg12 harg12 hc0 hc1 hc2 x0 x1 x2 x3 x4 x5 xs0 xs1 xs2).1)

theorem cover1_D_LS0 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) (y : S64x1.Idx) :
    ∃ pc ∈ (kernelRun1_D c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.1, y ∈ pc.1.set :=
  View.cover_of_tiledL (kernelRun1_D c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.1 S64x1.size (by sl_kernel_rfl) y
/-- What case D leaves there: its pieces read back. -/
def val1_D_LS0 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) : Vec F S64x1 .f32 :=
  VS1_0.read (Elt F) (VS1_0.writes (Elt F) VS1_0.junk (kernelRun1_D c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.1)

theorem cover1_D_LS1 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) (y : S64x1.Idx) :
    ∃ pc ∈ (kernelRun1_D c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.2.1, y ∈ pc.1.set :=
  View.cover_of_tiledL (kernelRun1_D c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.2.1 S64x1.size (by sl_kernel_rfl) y
/-- What case D leaves there: its pieces read back. -/
def val1_D_LS1 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) : Vec F S64x1 .f32 :=
  VS1_1.read (Elt F) (VS1_1.writes (Elt F) VS1_1.junk (kernelRun1_D c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.2.1)

theorem cover1_D_LS2 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) (y : S64x64.Idx) :
    ∃ pc ∈ (kernelRun1_D c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.2.2.1, y ∈ pc.1.set :=
  View.cover_of_tiledL (kernelRun1_D c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.2.2.1 S64x64.size (by sl_kernel_rfl) y
/-- What case D leaves there: its pieces read back. -/
def val1_D_LS2 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) : Vec F S64x64 .f32 :=
  VS1_2.read (Elt F) (VS1_2.writes (Elt F) VS1_2.junk (kernelRun1_D c i arg3 harg3 arg4 harg4 arg5 harg5 arg6 harg6 arg7 harg7 arg8 harg8 arg9 harg9 arg10 harg10 arg11 harg11 arg12 harg12 hc0 hc1 hc2 x0 x1 x2 x3 x4 x5 xs0 xs1 xs2).2.2.2.1)

theorem cover1_E_L6 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : ¬cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) (y : S1x64x64.Idx) :
    ∃ pc ∈ (kernelRun1_E c i arg3 harg3 arg4 harg4 arg5 harg5 arg6 harg6 arg7 harg7 arg8 harg8 arg9 harg9 arg10 harg10 arg11 harg11 arg12 harg12 hc0 hc1 hc2 x0 x1 x2 x3 x4 x5 xs0 xs1 xs2).1, y ∈ pc.1.set :=
  View.cover_of_tiledL (kernelRun1_E c i arg3 harg3 arg4 harg4 arg5 harg5 arg6 harg6 arg7 harg7 arg8 harg8 arg9 harg9 arg10 harg10 arg11 harg11 arg12 harg12 hc0 hc1 hc2 x0 x1 x2 x3 x4 x5 xs0 xs1 xs2).1 S1x64x64.size (by sl_kernel_rfl) y
/-- What case E leaves there: its pieces read back. -/
def val1_E_L6 (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : ¬cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) : Vec F S1x64x64 .f32 :=
  VO1_6.read (Elt F) (VO1_6.writes (Elt F) VO1_6.junk (kernelRun1_E c i arg3 harg3 arg4 harg4 arg5 harg5 arg6 harg6 arg7 harg7 arg8 harg8 arg9 harg9 arg10 harg10 arg11 harg11 arg12 harg12 hc0 hc1 hc2 x0 x1 x2 x3 x4 x5 xs0 xs1 xs2).1)

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The running state: maximum, denominator, numerator. -/
abbrev St (F : FTy → Type) [FloatOps F] : Type := Vec F S64x1 .f32 × Vec F S64x1 .f32 × Vec F S64x64 .f32

/-- The state after a first key tile. -/
def sA (c : Dev nD) (t : Fin cfg1.N) (h0 : cond1_0 (grid1.coords t)) (h1 : cond1_1 (grid1.coords t)) (h2 : ¬cond1_2 (grid1.coords t)) : St F :=
  (val1_A_LS0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 h2 (iblk1 V c 0 t) (iblk1 V c 1 t) (iblk1 V c 2 t) (iblk1 V c 3 t) (iblk1 V c 4 t) (iblk1 V c 5 t), val1_A_LS1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 h2 (iblk1 V c 0 t) (iblk1 V c 1 t) (iblk1 V c 2 t) (iblk1 V c 3 t) (iblk1 V c 4 t) (iblk1 V c 5 t), val1_A_LS2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 h2 (iblk1 V c 0 t) (iblk1 V c 1 t) (iblk1 V c 2 t) (iblk1 V c 3 t) (iblk1 V c 4 t) (iblk1 V c 5 t))
/-- The state after a middle key tile that meets the triangle, from the state before it. -/
def sB (c : Dev nD) (t : Fin cfg1.N) (h0 : ¬cond1_0 (grid1.coords t)) (h1 : cond1_1 (grid1.coords t)) (h2 : ¬cond1_2 (grid1.coords t)) (s : St F) : St F :=
  (val1_B_LS0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 h2 (iblk1 V c 0 t) (iblk1 V c 1 t) (iblk1 V c 2 t) (iblk1 V c 3 t) (iblk1 V c 4 t) (iblk1 V c 5 t) s.1 s.2.1 s.2.2, val1_B_LS1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 h2 (iblk1 V c 0 t) (iblk1 V c 1 t) (iblk1 V c 2 t) (iblk1 V c 3 t) (iblk1 V c 4 t) (iblk1 V c 5 t) s.1 s.2.1 s.2.2, val1_B_LS2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 h2 (iblk1 V c 0 t) (iblk1 V c 1 t) (iblk1 V c 2 t) (iblk1 V c 3 t) (iblk1 V c 4 t) (iblk1 V c 5 t) s.1 s.2.1 s.2.2)
/-- The state after a last key tile that meets the triangle. -/
def sD (c : Dev nD) (t : Fin cfg1.N) (h0 : ¬cond1_0 (grid1.coords t)) (h1 : cond1_1 (grid1.coords t)) (h2 : cond1_2 (grid1.coords t)) (s : St F) : St F :=
  (val1_D_LS0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 h2 (iblk1 V c 0 t) (iblk1 V c 1 t) (iblk1 V c 2 t) (iblk1 V c 3 t) (iblk1 V c 4 t) (iblk1 V c 5 t) s.1 s.2.1 s.2.2, val1_D_LS1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 h2 (iblk1 V c 0 t) (iblk1 V c 1 t) (iblk1 V c 2 t) (iblk1 V c 3 t) (iblk1 V c 4 t) (iblk1 V c 5 t) s.1 s.2.1 s.2.2, val1_D_LS2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 h2 (iblk1 V c 0 t) (iblk1 V c 1 t) (iblk1 V c 2 t) (iblk1 V c 3 t) (iblk1 V c 4 t) (iblk1 V c 5 t) s.1 s.2.1 s.2.2)
/-- The output block written at a last key tile that meets the triangle / that does not. -/
def oD (c : Dev nD) (t : Fin cfg1.N) (h0 : ¬cond1_0 (grid1.coords t)) (h1 : cond1_1 (grid1.coords t)) (h2 : cond1_2 (grid1.coords t)) (s : St F) : Vec F S1x64x64 .f32 :=
  val1_D_L6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 h2 (iblk1 V c 0 t) (iblk1 V c 1 t) (iblk1 V c 2 t) (iblk1 V c 3 t) (iblk1 V c 4 t) (iblk1 V c 5 t) s.1 s.2.1 s.2.2
def oE (c : Dev nD) (t : Fin cfg1.N) (h0 : ¬cond1_0 (grid1.coords t)) (h1 : ¬cond1_1 (grid1.coords t)) (h2 : cond1_2 (grid1.coords t)) (s : St F) : Vec F S1x64x64 .f32 :=
  val1_E_L6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) h0 h1 h2 (iblk1 V c 0 t) (iblk1 V c 1 t) (iblk1 V c 2 t) (iblk1 V c 3 t) (iblk1 V c 4 t) (iblk1 V c 5 t) s.1 s.2.1 s.2.2

/-- THE RUNNING STATE after the point at position `n`. -/
def stAt (c : Dev nD) : (n : ℕ) → n < cfg1.N → St F
  | 0, hn => sA V c ⟨0, hn⟩ ((hcond1_0 ⟨0, hn⟩).mpr (Nat.zero_mod _)) ((hcond1_1 ⟨0, hn⟩).mpr (by show (0 % 4) * 2 < (0 / 4) % 8 + 1; decide))
      (fun h => absurd ((hcond1_2 ⟨0, hn⟩).mp h) (by show ¬ (0 % 4 = 3); decide))
  | n + 1, hn =>
    if h0 : (n + 1) % 4 = 0 then
      sA V c ⟨n + 1, hn⟩ ((hcond1_0 ⟨n + 1, hn⟩).mpr h0) ((hcond1_1 ⟨n + 1, hn⟩).mpr (by show ((n + 1) % 4) * 2 < ((n + 1) / 4) % 8 + 1; omega))
        (fun h => absurd ((hcond1_2 ⟨n + 1, hn⟩).mp h) (by show ¬ ((n + 1) % 4 = 3); omega))
    else if h1 : ((n + 1) % 4) * 2 < ((n + 1) / 4) % 8 + 1 then
      if h2 : (n + 1) % 4 = 3 then
        sD V c ⟨n + 1, hn⟩ (fun h => h0 ((hcond1_0 ⟨n + 1, hn⟩).mp h)) ((hcond1_1 ⟨n + 1, hn⟩).mpr h1) ((hcond1_2 ⟨n + 1, hn⟩).mpr h2) (stAt c n (Nat.lt_of_succ_lt hn))
      else
        sB V c ⟨n + 1, hn⟩ (fun h => h0 ((hcond1_0 ⟨n + 1, hn⟩).mp h)) ((hcond1_1 ⟨n + 1, hn⟩).mpr h1) (fun h => h2 ((hcond1_2 ⟨n + 1, hn⟩).mp h)) (stAt c n (Nat.lt_of_succ_lt hn))
    else stAt c n (Nat.lt_of_succ_lt hn)

theorem stAt_A (c : Dev nD) (t : Fin cfg1.N) (h0 : t.val % 4 = 0) (h1 : cond1_1 (grid1.coords t)) (h2 : ¬cond1_2 (grid1.coords t)) :
    stAt V c t.val t.isLt = sA V c t ((hcond1_0 t).mpr h0) h1 h2 := by
  obtain ⟨n, hn⟩ := t
  cases n with
  | zero => rfl
  | succ n => exact (dif_pos h0).trans rfl

theorem stAt_B (c : Dev nD) (t : Fin cfg1.N) (h0 : ¬t.val % 4 = 0) (h1 : (t.val % 4) * 2 < (t.val / 4) % 8 + 1) (h2 : ¬t.val % 4 = 3) :
    stAt V c t.val t.isLt = sB V c t (fun h => h0 ((hcond1_0 t).mp h)) ((hcond1_1 t).mpr h1) (fun h => h2 ((hcond1_2 t).mp h))
      (stAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans ((dif_neg h2).trans rfl))

theorem stAt_D (c : Dev nD) (t : Fin cfg1.N) (h0 : ¬t.val % 4 = 0) (h1 : (t.val % 4) * 2 < (t.val / 4) % 8 + 1) (h2 : t.val % 4 = 3) :
    stAt V c t.val t.isLt = sD V c t (fun h => h0 ((hcond1_0 t).mp h)) ((hcond1_1 t).mpr h1) ((hcond1_2 t).mpr h2)
      (stAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans ((dif_pos h2).trans rfl))

theorem stAt_keep (c : Dev nD) (t : Fin cfg1.N) (h0 : ¬t.val % 4 = 0) (h1 : ¬(t.val % 4) * 2 < (t.val / 4) % 8 + 1) :
    stAt V c t.val t.isLt = stAt V c (t.val - 1) (Nat.lt_of_le_of_lt (Nat.sub_le _ _) t.isLt) := by
  obtain ⟨n, hn⟩ := t
  cases n with
  | zero => exact absurd (Nat.zero_mod _) h0
  | succ n => exact (dif_neg h0).trans ((dif_neg h1).trans rfl)

/-- THE OUTPUT BLOCK after the point at position `n`: the quotient at a last key tile, a placeholder elsewhere (the
    window is idle there: neither written back nor read). -/
def outAt (c : Dev nD) (n : ℕ) (hn : n < cfg1.N) : Vec F S1x64x64 .f32 :=
  if h2 : n % 4 = 3 then
    if h1 : (n % 4) * 2 < (n / 4) % 8 + 1 then
      oD V c ⟨n, hn⟩ (fun h => absurd ((hcond1_0 ⟨n, hn⟩).mp h) (by show ¬ (n % 4 = 0); omega)) ((hcond1_1 ⟨n, hn⟩).mpr h1) ((hcond1_2 ⟨n, hn⟩).mpr h2)
        (stAt V c (n - 1) (Nat.lt_of_le_of_lt (Nat.sub_le _ _) hn))
    else
      oE V c ⟨n, hn⟩ (fun h => absurd ((hcond1_0 ⟨n, hn⟩).mp h) (by show ¬ (n % 4 = 0); omega)) (fun h => h1 ((hcond1_1 ⟨n, hn⟩).mp h)) ((hcond1_2 ⟨n, hn⟩).mpr h2)
        (stAt V c (n - 1) (Nat.lt_of_le_of_lt (Nat.sub_le _ _) hn))
  else VO1_6.read (Elt F) VO1_6.junk

theorem outAt_D (c : Dev nD) (t : Fin cfg1.N) (h0 : ¬cond1_0 (grid1.coords t)) (h1 : (t.val % 4) * 2 < (t.val / 4) % 8 + 1) (h2 : t.val % 4 = 3) :
    outAt V c t.val t.isLt = oD V c t h0 ((hcond1_1 t).mpr h1) ((hcond1_2 t).mpr h2) (stAt V c (t.val - 1) (Nat.lt_of_le_of_lt (Nat.sub_le _ _) t.isLt)) :=
  (dif_pos h2).trans ((dif_pos h1).trans rfl)
theorem outAt_E (c : Dev nD) (t : Fin cfg1.N) (h0 : ¬cond1_0 (grid1.coords t)) (h1 : ¬(t.val % 4) * 2 < (t.val / 4) % 8 + 1) (h2 : t.val % 4 = 3) :
    outAt V c t.val t.isLt = oE V c t h0 (fun h => h1 ((hcond1_1 t).mp h)) ((hcond1_2 t).mpr h2) (stAt V c (t.val - 1) (Nat.lt_of_le_of_lt (Nat.sub_le _ _) t.isLt)) :=
  (dif_pos h2).trans ((dif_neg h1).trans rfl)

end Region1

end Cert.Kernel.Gen

end
-- ==== Proof.RegionAttnB.lean ====
/-
  The second kernel region's invariant, proof data and body obligation: before the first point the scratch buffers
  hold anything; after a point they hold the running state of that point; the body at a point is run in the case the
  point's coordinates select.
-/
import proofs.«152301_j13073880449825_2_alg».proof.Proof.Gen.Kernel.Launch
import proofs.«152301_j13073880449825_2_alg».proof.Proof.Gen.Kernel.Skeleton
import proofs.«152301_j13073880449825_2_alg».proof.Proof.Gen.Kernel.Points
import proofs.«152301_j13073880449825_2_alg».proof.Proof.RegionAttnStateB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- The scoped buffers the second region does not stage, apart from its three scratch buffers: each at anything. -/
def RestOnly (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

/-- The same with the three scratch buffers held as `P0`, `P1`, `P2`. -/
def ScopedWith (c : Dev nD) (P0 P1 P2 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ P0 ∗ P1 ∗ P2)

theorem scoped_open (c : Dev nD) (P0 P1 P2 : sProp 𝕄) : ScopedWith (F := F) c P0 P1 P2 ⊢ iprop(RestOnly (F := F) c ∗ P0 ∗ P1 ∗ P2) := by
  unfold ScopedWith RestOnly
  iintro ⟨R0, R1, R2, R3, R4, R5, R6, R7, R8, R9, R10, R11, HP0, HP1, HP2⟩
  isplitl [R0 R1 R2 R3 R4 R5 R6 R7 R8 R9 R10 R11]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  isplitl [HP0]; · iexact HP0
  isplitl [HP1]; · iexact HP1
  iexact HP2

theorem scoped_close (c : Dev nD) (P0 P1 P2 : sProp 𝕄) : iprop(RestOnly (F := F) c ∗ P0 ∗ P1 ∗ P2) ⊢ ScopedWith (F := F) c P0 P1 P2 := by
  unfold ScopedWith RestOnly
  iintro ⟨⟨R0, R1, R2, R3, R4, R5, R6, R7, R8, R9, R10, R11⟩, HP0, HP1, HP2⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [HP0]; · iexact HP0
  isplitl [HP1]; · iexact HP1
  iexact HP2

/-- The region's entry invariant with the scratch operands as memrefs owned at some contents. -/
theorem PhiA1_eq (c : Dev nD) :
    (Pipeline.ΦA spec1 c : sProp 𝕄)
      = iprop(ScopedWith (F := F) c iprop(∃ d, owns (c : Thread nD τ) scM1_0 fullShare d) iprop(∃ d, owns (c : Thread nD τ) scM1_1 fullShare d) iprop(∃ d, owns (c : Thread nD τ) scM1_2 fullShare d) ∗ (∃ r, prngReg c r)) := by
  unfold Pipeline.ΦA ScopedWith; rw [scopedRest1_eq]; simp only [scM1_0, scM1_1, scM1_2, owns_whole]; try rfl

/-- The region invariant before position `n`: before the first point the entry invariant; afterwards the scratch
    buffers at the running state the point before left. -/
def PhiS (c : Dev nD) : (n : ℕ) → n ≤ cfg1.N → sProp 𝕄
  | 0, _ => Pipeline.ΦA spec1 c
  | n + 1, hn => iprop(ScopedWith (F := F) c (owns (c : Thread nD τ) scM1_0 fullShare (stAt V c n hn).1) (owns (c : Thread nD τ) scM1_1 fullShare (stAt V c n hn).2.1)
      (owns (c : Thread nD τ) scM1_2 fullShare (stAt V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(ScopedWith (F := F) c (owns (c : Thread nD τ) scM1_0 fullShare (stAt V c n hn).1) (owns (c : Thread nD τ) scM1_1 fullShare (stAt V c n hn).2.1)
      (owns (c : Thread nD τ) scM1_2 fullShare (stAt V c n hn).2.2) ∗ (∃ r, prngReg c r)) := rfl

theorem PhiS_pos (c : Dev nD) (n : ℕ) (h : n ≤ cfg1.N) (hz : n ≠ 0) :
    PhiS V c n h = iprop(ScopedWith (F := F) c (owns (c : Thread nD τ) scM1_0 fullShare (stAt V c (n - 1) (by omega)).1) (owns (c : Thread nD τ) scM1_1 fullShare (stAt V c (n - 1) (by omega)).2.1)
      (owns (c : Thread nD τ) scM1_2 fullShare (stAt V c (n - 1) (by omega)).2.2) ∗ (∃ r, prngReg c r)) := by
  cases n with
  | zero => exact absurd rfl hz
  | succ n => rfl

/-- The proof data of the second region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point, in the case its coordinates select. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 4 = 0
  · have h1 : (t.val % 4) * 2 < (t.val / 4) % 8 + 1 := by omega
    have h2 : ¬t.val % 4 = 3 := by omega
    rw [Dat.leavesExact_idle (dat1 V c) 6 t (idleAt1_6 t (fun h => h2 ((hcond1_2 t).mp h))) (noFlush1_6 t (fun h => h2 ((hcond1_2 t).mp h)))]
    rw [stAt_A V c t h0 ((hcond1_1 t).mpr h1) (fun h => h2 ((hcond1_2 t).mp h))]
    unfold sA; (try dsimp only)
    by_cases hz : t.val = 0
    · rw [PhiS_castSucc V c t, PhiS_zero V c _ _ hz, PhiA1_eq]
      iintro ⟨⟨Hsc, Hg⟩, Ho, ⟨%d0, H0⟩, ⟨%d1, H1⟩, ⟨%d2, H2⟩, ⟨%d3, H3⟩, ⟨%d4, H4⟩, ⟨%d5, H5⟩, ⟨%d6, H6⟩⟩
      ihave Hsc' := (scoped_open c _ _ _) $$ Hsc
      icases Hsc' with ⟨HR, HS0, HS1, HS2⟩
      iapply ((kernelRun1_A c (grid1.coords t) _ _ _ _ _ _ _ _ _ _ _ _ _ _ _ _ _ _ _ _ ((hcond1_0 t).mpr h0) ((hcond1_1 t).mpr h1) (fun h => h2 ((hcond1_2 t).mp h)) (iblk1 V c 0 t) (iblk1 V c 1 t) (iblk1 V c 2 t) (iblk1 V c 3 t) (iblk1 V c 4 t) (iblk1 V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HR HS0 HS1 HS2 Hg]
      · isplitl [HR HS0 HS1 HS2]
        · iapply (scoped_close c _ _ _)
          isplitl [HR]; · iexact HR
          isplitl [HS0]
          · unfold owns; iexists _; isplitr
            swap; · iexact HS0
            ipureintro; exact View.read_writes_of_cover _ _ _ _ _ (cover1_A_LS0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover1_A_LS1 c _ _ _ _ _ _ _ _ _ _ _ _ _ _ _ _ _ _ _ _ _ _ _ _ _ _ _ _ _ _)
          unfold owns; iexists _; isplitr
          swap; · iexact HS2
          ipureintro; exact View.read_writes_of_cover _ _ _ _ _ (cover1_A_LS2 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc V c t, PhiS_pos V c _ _ hz]
      iintro ⟨⟨Hsc, Hg⟩, Ho, ⟨%d0, H0⟩, ⟨%d1, H1⟩, ⟨%d2, H2⟩, ⟨%d3, H3⟩, ⟨%d4, H4⟩, ⟨%d5, H5⟩, ⟨%d6, H6⟩⟩
      ihave Hsc' := (scoped_open c _ _ _) $$ Hsc
      icases Hsc' with ⟨HR, HS0, HS1, HS2⟩
      iapply ((kernelRun1_A c (grid1.coords t) _ _ _ _ _ _ _ _ _ _ _ _ _ _ _ _ _ _ _ _ ((hcond1_0 t).mpr h0) ((hcond1_1 t).mpr h1) (fun h => h2 ((hcond1_2 t).mp h)) (iblk1 V c 0 t) (iblk1 V c 1 t) (iblk1 V c 2 t) (iblk1 V c 3 t) (iblk1 V c 4 t) (iblk1 V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, ⟨%es0, HS0⟩, ⟨%es1, HS1⟩, ⟨%es2, HS2⟩⟩
      isplitl [HR HS0 HS1 HS2 Hg]
      · isplitl [HR HS0 HS1 HS2]
        · iapply (scoped_close c _ _ _)
          isplitl [HR]; · iexact HR
          isplitl [HS0]
          · unfold owns; iexists _; isplitr
            swap; · iexact HS0
            ipureintro; exact View.read_writes_of_cover _ _ _ _ _ (cover1_A_LS0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover1_A_LS1 c _ _ _ _ _ _ _ _ _ _ _ _ _ _ _ _ _ _ _ _ _ _ _ _ _ _ _ _ _ _)
          unfold owns; iexists _; isplitr
          swap; · iexact HS2
          ipureintro; exact View.read_writes_of_cover _ _ _ _ _ (cover1_A_LS2 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : (t.val % 4) * 2 < (t.val / 4) % 8 + 1
    · by_cases h2 : t.val % 4 = 3
      · rw [show (dat1 V c).leavesExact 6 t = owns (c : Thread nD τ) (ms1_6 t) fullShare ((dat1 V c).after 6 t) from by
          unfold Dat.leavesExact; rw [liveAt1_6 t ((hcond1_2 t).mpr h2)], after1_6]
        rw [outAt_D V c t (fun h => h0 ((hcond1_0 t).mp h)) h1 h2, stAt_D V c t h0 h1 h2]
        unfold sD oD; (try dsimp only)
        rw [PhiS_castSucc V c t, PhiS_pos V c _ _ hz]
        iintro ⟨⟨Hsc, Hg⟩, Ho, ⟨%d0, H0⟩, ⟨%d1, H1⟩, ⟨%d2, H2⟩, ⟨%d3, H3⟩, ⟨%d4, H4⟩, ⟨%d5, H5⟩, ⟨%d6, H6⟩⟩
        ihave Hsc' := (scoped_open c _ _ _) $$ Hsc
        icases Hsc' with ⟨HR, HS0, HS1, HS2⟩
        iapply ((kernelRun1_D c (grid1.coords t) _ _ _ _ _ _ _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) (iblk1 V c 3 t) (iblk1 V c 4 t) (iblk1 V c 5 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        iintro ⟨H0, H1, H2, H3, H4, H5, ⟨%e6, H6⟩, ⟨%es0, HS0⟩, ⟨%es1, HS1⟩, ⟨%es2, HS2⟩⟩
        isplitl [HR HS0 HS1 HS2 Hg]
        · isplitl [HR HS0 HS1 HS2]
          · iapply (scoped_close c _ _ _)
            isplitl [HR]; · iexact HR
            isplitl [HS0]
            · unfold owns; iexists _; isplitr
              swap; · iexact HS0
              ipureintro; exact View.read_writes_of_cover _ _ _ _ _ (cover1_D_LS0 c _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (cover1_D_LS1 c _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (cover1_D_LS2 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_D_L6 c _ _ _ _ _ _ _ _ _ _ _ _ _ _ _ _ _ _ _ _ _ _ _ _ _ _ _ _ _ _ _ _ _)
      · rw [Dat.leavesExact_idle (dat1 V c) 6 t (idleAt1_6 t (fun h => h2 ((hcond1_2 t).mp h))) (noFlush1_6 t (fun h => h2 ((hcond1_2 t).mp h)))]
        rw [stAt_B V c t h0 h1 h2]
        unfold sB; (try dsimp only)
        rw [PhiS_castSucc V c t, PhiS_pos V c _ _ hz]
        iintro ⟨⟨Hsc, Hg⟩, Ho, ⟨%d0, H0⟩, ⟨%d1, H1⟩, ⟨%d2, H2⟩, ⟨%d3, H3⟩, ⟨%d4, H4⟩, ⟨%d5, H5⟩, ⟨%d6, H6⟩⟩
        ihave Hsc' := (scoped_open c _ _ _) $$ Hsc
        icases Hsc' with ⟨HR, HS0, HS1, HS2⟩
        iapply ((kernelRun1_B c (grid1.coords t) _ _ _ _ _ _ _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) (iblk1 V c 5 t) _ _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HR HS0 HS1 HS2 Hg]
        · isplitl [HR HS0 HS1 HS2]
          · iapply (scoped_close c _ _ _)
            isplitl [HR]; · iexact HR
            isplitl [HS0]
            · unfold owns; iexists _; isplitr
              swap; · iexact HS0
              ipureintro; exact View.read_writes_of_cover _ _ _ _ _ (cover1_B_LS0 c _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (cover1_B_LS1 c _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (cover1_B_LS2 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · by_cases h2 : t.val % 4 = 3
      · rw [show (dat1 V c).leavesExact 6 t = owns (c : Thread nD τ) (ms1_6 t) fullShare ((dat1 V c).after 6 t) from by
          unfold Dat.leavesExact; rw [liveAt1_6 t ((hcond1_2 t).mpr h2)], after1_6]
        rw [outAt_E V c t (fun h => h0 ((hcond1_0 t).mp h)) h1 h2, stAt_keep V c t h0 h1]
        unfold oE; (try dsimp only)
        rw [PhiS_castSucc V c t, PhiS_pos V c _ _ hz]
        iintro ⟨⟨Hsc, Hg⟩, Ho, ⟨%d0, H0⟩, ⟨%d1, H1⟩, ⟨%d2, H2⟩, ⟨%d3, H3⟩, ⟨%d4, H4⟩, ⟨%d5, H5⟩, ⟨%d6, H6⟩⟩
        ihave Hsc' := (scoped_open c _ _ _) $$ Hsc
        icases Hsc' with ⟨HR, HS0, HS1, HS2⟩
        iapply ((kernelRun1_E c (grid1.coords t) _ _ _ _ _ _ _ _ _ _ _ _ _ _ _ _ _ _ _ _ (fun h => h0 ((hcond1_0 t).mp h)) (fun h => h1 ((hcond1_1 t).mp h)) ((hcond1_2 t).mpr h2) (iblk1 V c 0 t) (iblk1 V c 1 t) (iblk1 V c 2 t) (iblk1 V c 3 t) (iblk1 V c 4 t) (iblk1 V c 5 t) _ _ _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        iintro ⟨H0, H1, H2, H3, H4, H5, ⟨%e6, H6⟩, HS0, HS1, HS2⟩
        isplitl [HR HS0 HS1 HS2 Hg]
        · isplitl [HR HS0 HS1 HS2]
          · iapply (scoped_close c _ _ _)
            isplitl [HR]; · iexact HR
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_E_L6 c _ _ _ _ _ _ _ _ _ _ _ _ _ _ _ _ _ _ _ _ _ _ _ _ _ _ _ _ _ _ _ _ _)
      · rw [Dat.leavesExact_idle (dat1 V c) 6 t (idleAt1_6 t (fun h => h2 ((hcond1_2 t).mp h))) (noFlush1_6 t (fun h => h2 ((hcond1_2 t).mp h)))]
        rw [stAt_keep V c t h0 h1]
        rw [PhiS_castSucc V c t, PhiS_pos V c _ _ hz]
        iintro ⟨⟨Hsc, Hg⟩, Ho, ⟨%d0, H0⟩, ⟨%d1, H1⟩, ⟨%d2, H2⟩, ⟨%d3, H3⟩, ⟨%d4, H4⟩, ⟨%d5, H5⟩, ⟨%d6, H6⟩⟩
        ihave Hsc' := (scoped_open c _ _ _) $$ Hsc
        icases Hsc' with ⟨HR, HS0, HS1, HS2⟩
        iapply (kernelRun1_C c (grid1.coords t) _ _ _ _ _ _ _ _ _ _ _ _ _ _ _ _ _ _ _ _ (fun h => h0 ((hcond1_0 t).mp h)) (fun h => h1 ((hcond1_1 t).mp h)) (fun h => h2 ((hcond1_2 t).mp h)) (iblk1 V c 0 t) (iblk1 V c 1 t) (iblk1 V c 2 t) (iblk1 V c 3 t) (iblk1 V c 4 t) (iblk1 V c 5 t) _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, HS0, HS1, HS2⟩
        isplitl [HR HS0 HS1 HS2 Hg]
        · isplitl [HR HS0 HS1 HS2]
          · iapply (scoped_close c _ _ _)
            isplitl [HR]; · iexact HR
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the entry invariant back: the running state is forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl, PhiS_pos V c _ _ hne, PhiA1_eq]
  iintro ⟨Hsc, Hg⟩
  isplitl [Hsc]
  · ihave Hsc' := (scoped_open c _ _ _) $$ Hsc
    icases Hsc' with ⟨HR, HS0, HS1, HS2⟩
    iapply (scoped_close c _ _ _)
    isplitl [HR]; · iexact HR
    isplitl [HS0]; · iexists _; iexact HS0
    isplitl [HS1]; · iexists _; iexact HS1
    iexists _; iexact HS2
  iexact Hg

end Region1

end Cert.Kernel.Gen

end
-- ==== Proof.MainRunB.lean ====
/-
  The whole program as four segments — two host stretches (the slices of the first-layer weight; the reshapes of the
  bias, the second-layer weight and its bias) and the two kernel regions — run from the launch to the return: every
  unscoped buffer ends at the contents folded through the segments, so the seven arguments end as launched and the
  result buffer ends at what the second region's write-backs leave. Stated at any float instance.
-/
import proofs.«152301_j13073880449825_2_alg».proof.Proof.Gen.Kernel.Launch
import proofs.«152301_j13073880449825_2_alg».proof.Proof.Gen.Kernel.Skeleton
import proofs.«152301_j13073880449825_2_alg».proof.Proof.Gen.Kernel.Points
import proofs.«152301_j13073880449825_2_alg».proof.Proof.RegionPreB
import proofs.«152301_j13073880449825_2_alg».proof.Proof.RegionAttnB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### No segment writes an argument -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg6) := (W2_arr m c 4).trans (((dat0 (V1 m) c).arrAt_in 4 rfl _).trans (A_eq0 (V1 m) c 4))
    _ = W0 m c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The result buffer ends at what the second region's write-backs leave in its output window's array. -/
theorem W4_main_v7 (c : Dev nD) : W4 m c (Proc.devRef .tc main_v7) = (dat1 (V3 m) c).arrAt 6 cfg1.N :=
  W4_arr m c 6

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state "every unscoped buffer at the boundary's contents, the generator register at some
    state, nothing owed": its arrays split out of the unscoped buffers at entry and put back at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (V3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub ops0_fresh (W0 m)),
    .region (reg0 m),
    .host (hseg hostOps1 hostOps1_sub ops1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: the seven arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_all m ρ)

/-- THE RESULT: the result buffer ends at what the second region's write-backs leave, the arguments as launched. -/
theorem run_value (ρ : Dev nD → PrngReg) : θ_run defs (onTc (τ := τ) (main (F := F))) ⟨m, fun _ => 0, ρ⟩ (fun r => ∀ c : Dev nD,
      r.2.mem ((c.tc : Thread nD τ).loc main_v7) = (dat1 (V3 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v7 (by decide))).trans (W4_main_v7 m c), (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_all m ρ)

end Cert.Kernel.Run

end
-- ==== Proof.BlockReads.lean ====
/-
  Reading the windows' blocks at an index: a block's entry is the array's entry at block index × block size + the
  coordinate inside the block, the block indices of every window decided over each grid; and which point's block
  covers an entry of each output array.
-/
import proofs.«152301_j13073880449825_2_alg».proof.Proof.Gen.KernelIdeal.Launch
import proofs.«152301_j13073880449825_2_alg».proof.Proof.Gen.KernelIdeal.Skeleton
import proofs.«152301_j13073880449825_2_alg».proof.Proof.Gen.KernelIdeal.Points
import proofs.«152301_j13073880449825_2_alg».proof.Proof.RegionPre
import proofs.«152301_j13073880449825_2_alg».proof.Proof.RegionAttnState
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The block indices, decided over the grids -/

theorem idx0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0
    ∧ t.val < 4 :=
  (by decide +kernel : ∀ t : Fin grid0.N, _)

theorem idx1 : ∀ t : Fin cfg1.N,
    win1_0.index t (0 : Fin 3) = t.val / 32 ∧ win1_0.index t (1 : Fin 3) = (t.val / 4) % 8 ∧ win1_0.index t (2 : Fin 3) = 0
    ∧ win1_1.index t (0 : Fin 3) = t.val / 32 ∧ win1_1.index t (1 : Fin 3) = 0 ∧ win1_1.index t (2 : Fin 3) = t.val % 4
    ∧ win1_2.index t (0 : Fin 3) = t.val / 32 ∧ win1_2.index t (1 : Fin 3) = t.val % 4 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) = t.val / 32 ∧ win1_6.index t (1 : Fin 3) = (t.val / 4) % 8 ∧ win1_6.index t (2 : Fin 3) = 0
    ∧ ((grid1.coords t) 1).val = (t.val / 4) % 8 ∧ ((grid1.coords t) 2).val = t.val % 4 ∧ t.val < 128 :=
  (by decide +kernel : ∀ t : Fin grid1.N, _)

/-! ## The first region's input blocks -/

theorem iblk0_0_at (c : Dev nD) (t : Fin cfg0.N) (tt : Fin 512) (cc : Fin 128) (bb : Fin 4) (hb : bb.val = t.val) :
    (iblk0 V c 0 t : Vec F S1x512x128 .f32) (ix3 0 tt cc) = V c main_arg0 (ix3 bb tt cc) := by
  have hI := idx0 t
  unfold iblk0
  rw [View.read_apply]
  show V c main_arg0 _ = _
  congr 1
  funext a
  apply Fin.ext
  match a with
  | ⟨0, _⟩ => show win0_0.index t (0 : Fin 3) * 1 + 1 * 0 = bb.val; omega
  | ⟨1, _⟩ => show win0_0.index t (1 : Fin 3) * 512 + 1 * tt.val = tt.val; omega
  | ⟨2, _⟩ => show win0_0.index t (2 : Fin 3) * 128 + 1 * cc.val = cc.val; omega

theorem iblk0_1_at (c : Dev nD) (t : Fin cfg0.N) (tt : Fin 512) (cc : Fin 128)  :
    (iblk0 V c 1 t : Vec F S512x128 .f32) (ix2 tt cc) = V c main_arg1 (ix2 tt cc) := by
  have hI := idx0 t
  unfold iblk0
  rw [View.read_apply]
  show V c main_arg1 _ = _
  congr 1
  funext a
  apply Fin.ext
  match a with
  | ⟨0, _⟩ => show win0_1.index t (0 : Fin 2) * 512 + 1 * tt.val = tt.val; omega
  | ⟨1, _⟩ => show win0_1.index t (1 : Fin 2) * 128 + 1 * cc.val = cc.val; omega

theorem iblk0_2_at (c : Dev nD) (t : Fin cfg0.N) (cc : Fin 128) (d : Fin 128)  :
    (iblk0 V c 2 t : Vec F S128x128 .f32) (ix2 cc d) = V c main_v1 (ix2 cc d) := by
  have hI := idx0 t
  unfold iblk0
  rw [View.read_apply]
  show V c main_v1 _ = _
  congr 1
  funext a
  apply Fin.ext
  match a with
  | ⟨0, _⟩ => show win0_2.index t (0 : Fin 2) * 128 + 1 * cc.val = cc.val; omega
  | ⟨1, _⟩ => show win0_2.index t (1 : Fin 2) * 128 + 1 * d.val = d.val; omega

theorem iblk0_3_at (c : Dev nD) (t : Fin cfg0.N) (cc : Fin 128) (d : Fin 128)  :
    (iblk0 V c 3 t : Vec F S128x128 .f32) (ix2 cc d) = V c main_v0 (ix2 cc d) := by
  have hI := idx0 t
  unfold iblk0
  rw [View.read_apply]
  show V c main_v0 _ = _
  congr 1
  funext a
  apply Fin.ext
  match a with
  | ⟨0, _⟩ => show win0_3.index t (0 : Fin 2) * 128 + 1 * cc.val = cc.val; omega
  | ⟨1, _⟩ => show win0_3.index t (1 : Fin 2) * 128 + 1 * d.val = d.val; omega

theorem iblk0_4_at (c : Dev nD) (t : Fin cfg0.N) (cc : Fin 128) (h : Fin 64)  :
    (iblk0 V c 4 t : Vec F S128x64 .f32) (ix2 cc h) = V c main_arg6 (ix2 cc h) := by
  have hI := idx0 t
  unfold iblk0
  rw [View.read_apply]
  show V c main_arg6 _ = _
  congr 1
  funext a
  apply Fin.ext
  match a with
  | ⟨0, _⟩ => show win0_4.index t (0 : Fin 2) * 128 + 1 * cc.val = cc.val; omega
  | ⟨1, _⟩ => show win0_4.index t (1 : Fin 2) * 64 + 1 * h.val = h.val; omega

/-! ## The first region's output blocks of any array -/

theorem blk0_5_read (c : Dev nD) (t : Fin cfg0.N) (A : Buf (Elt F) ((c : Thread nD τ).loc main_v2_0)) (tt : Fin 512) (d : Fin 128) (bb : Fin 4) (hb : bb.val = t.val) :
    ((cfg0.win 5).blk t).view.read (Elt F) A (ix3 0 tt d) = A (ix3 bb tt d) := by
  have hI := idx0 t
  rw [View.read_apply]
  refine congrArg A ?_
  funext a
  apply Fin.ext
  match a with
  | ⟨0, _⟩ => show win0_5.index t (0 : Fin 3) * 1 + 1 * 0 = bb.val; omega
  | ⟨1, _⟩ => show win0_5.index t (1 : Fin 3) * 512 + 1 * tt.val = tt.val; omega
  | ⟨2, _⟩ => show win0_5.index t (2 : Fin 3) * 128 + 1 * d.val = d.val; omega

theorem blk0_6_read (c : Dev nD) (t : Fin cfg0.N) (A : Buf (Elt F) ((c : Thread nD τ).loc main_v2_1)) (tt : Fin 512) (d : Fin 128) (bb : Fin 4) (hb : bb.val = t.val) :
    ((cfg0.win 6).blk t).view.read (Elt F) A (ix3 0 d tt) = A (ix3 bb d tt) := by
  have hI := idx0 t
  rw [View.read_apply]
  refine congrArg A ?_
  funext a
  apply Fin.ext
  match a with
  | ⟨0, _⟩ => show win0_6.index t (0 : Fin 3) * 1 + 1 * 0 = bb.val; omega
  | ⟨1, _⟩ => show win0_6.index t (1 : Fin 3) * 128 + 1 * d.val = d.val; omega
  | ⟨2, _⟩ => show win0_6.index t (2 : Fin 3) * 512 + 1 * tt.val = tt.val; omega

theorem blk0_7_read (c : Dev nD) (t : Fin cfg0.N) (A : Buf (Elt F) ((c : Thread nD τ).loc main_v2_2)) (tt : Fin 512) (h : Fin 64) (bb : Fin 4) (hb : bb.val = t.val) :
    ((cfg0.win 7).blk t).view.read (Elt F) A (ix3 0 tt h) = A (ix3 bb tt h) := by
  have hI := idx0 t
  rw [View.read_apply]
  refine congrArg A ?_
  funext a
  apply Fin.ext
  match a with
  | ⟨0, _⟩ => show win0_7.index t (0 : Fin 3) * 1 + 1 * 0 = bb.val; omega
  | ⟨1, _⟩ => show win0_7.index t (1 : Fin 3) * 512 + 1 * tt.val = tt.val; omega
  | ⟨2, _⟩ => show win0_7.index t (2 : Fin 3) * 64 + 1 * h.val = h.val; omega

/-! ## The second region's input blocks -/

theorem iblk1_0_at (c : Dev nD) (t : Fin cfg1.N) (r : Fin 64) (cc : Fin 128) (bb : Fin 4) (ii : Fin 512) (hb : bb.val = t.val / 32) (hi : ii.val = (t.val / 4) % 8 * 64 + r.val) :
    (iblk1 V c 0 t : Vec F S1x64x128 .f32) (ix3 0 r cc) = V c main_v2_0 (ix3 bb ii cc) := by
  have hI := idx1 t
  unfold iblk1
  rw [View.read_apply]
  show V c main_v2_0 _ = _
  congr 1
  funext a
  apply Fin.ext
  match a with
  | ⟨0, _⟩ => show win1_0.index t (0 : Fin 3) * 1 + 1 * 0 = bb.val; omega
  | ⟨1, _⟩ => show win1_0.index t (1 : Fin 3) * 64 + 1 * r.val = ii.val; omega
  | ⟨2, _⟩ => show win1_0.index t (2 : Fin 3) * 128 + 1 * cc.val = cc.val; omega

theorem iblk1_1_at (c : Dev nD) (t : Fin cfg1.N) (cc : Fin 128) (k : Fin 128) (bb : Fin 4) (jj : Fin 512) (hb : bb.val = t.val / 32) (hj : jj.val = t.val % 4 * 128 + k.val) :
    (iblk1 V c 1 t : Vec F S1x128x128 .f32) (ix3 0 cc k) = V c main_v2_1 (ix3 bb cc jj) := by
  have hI := idx1 t
  unfold iblk1
  rw [View.read_apply]
  show V c main_v2_1 _ = _
  congr 1
  funext a
  apply Fin.ext
  match a with
  | ⟨0, _⟩ => show win1_1.index t (0 : Fin 3) * 1 + 1 * 0 = bb.val; omega
  | ⟨1, _⟩ => show win1_1.index t (1 : Fin 3) * 128 + 1 * cc.val = cc.val; omega
  | ⟨2, _⟩ => show win1_1.index t (2 : Fin 3) * 128 + 1 * k.val = jj.val; omega

theorem iblk1_2_at (c : Dev nD) (t : Fin cfg1.N) (k : Fin 128) (h : Fin 64) (bb : Fin 4) (jj : Fin 512) (hb : bb.val = t.val / 32) (hj : jj.val = t.val % 4 * 128 + k.val) :
    (iblk1 V c 2 t : Vec F S1x128x64 .f32) (ix3 0 k h) = V c main_v2_2 (ix3 bb jj h) := by
  have hI := idx1 t
  unfold iblk1
  rw [View.read_apply]
  show V c main_v2_2 _ = _
  congr 1
  funext a
  apply Fin.ext
  match a with
  | ⟨0, _⟩ => show win1_2.index t (0 : Fin 3) * 1 + 1 * 0 = bb.val; omega
  | ⟨1, _⟩ => show win1_2.index t (1 : Fin 3) * 128 + 1 * k.val = jj.val; omega
  | ⟨2, _⟩ => show win1_2.index t (2 : Fin 3) * 64 + 1 * h.val = h.val; omega

theorem iblk1_3_at (c : Dev nD) (t : Fin cfg1.N) (cc : Fin 128)  :
    (iblk1 V c 3 t : Vec F S1x128 .f32) (ix2 0 cc) = V c main_v3 (ix2 0 cc) := by
  have hI := idx1 t
  unfold iblk1
  rw [View.read_apply]
  show V c main_v3 _ = _
  congr 1
  funext a
  apply Fin.ext
  match a with
  | ⟨0, _⟩ => show win1_3.index t (0 : Fin 2) * 1 + 1 * 0 = 0; omega
  | ⟨1, _⟩ => show win1_3.index t (1 : Fin 2) * 128 + 1 * cc.val = cc.val; omega

theorem iblk1_4_at (c : Dev nD) (t : Fin cfg1.N) (cc : Fin 128)  :
    (iblk1 V c 4 t : Vec F S1x128 .f32) (ix2 0 cc) = V c main_v5 (ix2 0 cc) := by
  have hI := idx1 t
  unfold iblk1
  rw [View.read_apply]
  show V c main_v5 _ = _
  congr 1
  funext a
  apply Fin.ext
  match a with
  | ⟨0, _⟩ => show win1_4.index t (0 : Fin 2) * 1 + 1 * 0 = 0; omega
  | ⟨1, _⟩ => show win1_4.index t (1 : Fin 2) * 128 + 1 * cc.val = cc.val; omega

theorem iblk1_5_at (c : Dev nD) (t : Fin cfg1.N)   :
    (iblk1 V c 5 t : Vec F S1x1 .f32) (ix2 0 0) = V c main_v6 (ix2 0 0) := by
  have hI := idx1 t
  unfold iblk1
  rw [View.read_apply]
  show V c main_v6 _ = _
  congr 1
  funext a
  apply Fin.ext
  match a with
  | ⟨0, _⟩ => show win1_5.index t (0 : Fin 2) * 1 + 1 * 0 = 0; omega
  | ⟨1, _⟩ => show win1_5.index t (1 : Fin 2) * 1 + 1 * 0 = 0; omega

/-! ## The second region's output block of any array -/

theorem blk1_6_read (c : Dev nD) (t : Fin cfg1.N) (A : Buf (Elt F) ((c : Thread nD τ).loc main_v7)) (r : Fin 64) (h : Fin 64) (bb : Fin 4) (ii : Fin 512) (hb : bb.val = t.val / 32) (hi : ii.val = (t.val / 4) % 8 * 64 + r.val) :
    ((cfg1.win 6).blk t).view.read (Elt F) A (ix3 0 r h) = A (ix3 bb ii h) := by
  have hI := idx1 t
  rw [View.read_apply]
  refine congrArg A ?_
  funext a
  apply Fin.ext
  match a with
  | ⟨0, _⟩ => show win1_6.index t (0 : Fin 3) * 1 + 1 * 0 = bb.val; omega
  | ⟨1, _⟩ => show win1_6.index t (1 : Fin 3) * 64 + 1 * r.val = ii.val; omega
  | ⟨2, _⟩ => show win1_6.index t (2 : Fin 3) * 64 + 1 * h.val = h.val; omega

end Cert.KernelIdeal.Gen

end
-- ==== Proof.PieceVals.lean ====
/-
  What the found pieces of the second region's body are, as values: at a first key tile the scratch ends at the reset
  state advanced by the tile; at a key tile that meets the triangle at the previous state advanced by the tile; the
  output block is numerator / denominator. The first region's three output blocks are its three projections.
-/
import proofs.«152301_j13073880449825_2_alg».proof.Proof.Gen.KernelIdeal.Launch
import proofs.«152301_j13073880449825_2_alg».proof.Proof.Gen.KernelIdeal.Skeleton
import proofs.«152301_j13073880449825_2_alg».proof.Proof.Gen.KernelIdeal.Points
import proofs.«152301_j13073880449825_2_alg».proof.Proof.RegionPre
import proofs.«152301_j13073880449825_2_alg».proof.Proof.RegionAttnState
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first region's blocks -/

theorem out0_5_eq (x0 : Vec F S1x512x128 .f32) (x1 : Vec F S512x128 .f32) (x2 : Vec F S128x128 .f32) :
    out0_5 x0 x1 x2 = k0_pay3 x0 x1 x2 := by
  unfold out0_5
  rw [View.canon_unit_zero hz3]
  simp only [View.ld_unit_zero (S := S1x512x128) hz3, View.ld_unit_zero (S := S512x128) hz2, View.ld_unit_zero (S := S128x128) hz2]
theorem out0_6_eq (x0 : Vec F S1x512x128 .f32) (x1 : Vec F S512x128 .f32) (x3 : Vec F S128x128 .f32) :
    out0_6 x0 x1 x3 = k0_pay4 x0 x1 x3 := by
  unfold out0_6
  rw [View.canon_unit_zero hz3]
  simp only [View.ld_unit_zero (S := S1x512x128) hz3, View.ld_unit_zero (S := S512x128) hz2, View.ld_unit_zero (S := S128x128) hz2]
theorem out0_7_eq (x0 : Vec F S1x512x128 .f32) (x4 : Vec F S128x64 .f32) :
    out0_7 x0 x4 = k0_pay5 x0 x4 := by
  unfold out0_7
  rw [View.canon_unit_zero hz3]
  simp only [View.ld_unit_zero (S := S1x512x128) hz3, View.ld_unit_zero (S := S128x64) hz2]

/-! ## The second region's pieces -/

theorem val1_A_LS0_eq (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) :
    val1_A_LS0 c i arg3 harg3 arg4 harg4 arg5 harg5 arg6 harg6 arg7 harg7 arg8 harg8 arg9 harg9 arg10 harg10 arg11 harg11 arg12 harg12 hc0 hc1 hc2 x0 x1 x2 x3 x4 x5 = k1_pay9 (k1_pay11 (BitVec.ofNat 32 (i 1).val) (BitVec.ofNat 32 (i 2).val) x0 x1 x3 x4 x5) k1_pay1 := by
  unfold val1_A_LS0
  rw [View.read_writes_eq_canon _ _ _ (cover1_A_LS0 c i arg3 harg3 arg4 harg4 arg5 harg5 arg6 harg6 arg7 harg7 arg8 harg8 arg9 harg9 arg10 harg10 arg11 harg11 arg12 harg12 hc0 hc1 hc2 x0 x1 x2 x3 x4 x5)]
  unfold kernelRun1_A
  dsimp only
  (try sl_unfold_words)
  first
    | rw [View.canon_unit_zero hz2]
    | rw [View.canon_cons_unit_zero (S := S64x1) hz2]
  simp only [View.readAt_eq_ld, View.readCov_unit_zero (S := S64x1) _ hz2, View.readCov_unit_zero (S := S64x64) _ hz2,
    harg3.read_unread, harg4.read_unread, harg5.read_unread, harg6.read_unread, harg7.read_unread, harg8.read_unread,
    harg10.read_unread, harg11.read_unread, harg12.read_unread,
    View.ld_unit_zero (S := S1x64x128) hz3, View.ld_unit_zero (S := S1x128x128) hz3, View.ld_unit_zero (S := S1x128x64) hz3,
    View.ld_unit_zero (S := S1x128) hz2, View.ld_unit_zero (S := S1x1) hz2, View.ld_unit_zero (S := S64x1) hz2,
    View.ld_unit_zero (S := S64x64) hz2, View.ld_unit_zero (S := S1x64x64) hz3]

theorem val1_A_LS1_eq (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) :
    val1_A_LS1 c i arg3 harg3 arg4 harg4 arg5 harg5 arg6 harg6 arg7 harg7 arg8 harg8 arg9 harg9 arg10 harg10 arg11 harg11 arg12 harg12 hc0 hc1 hc2 x0 x1 x2 x3 x4 x5 = k1_pay7 (k1_pay11 (BitVec.ofNat 32 (i 1).val) (BitVec.ofNat 32 (i 2).val) x0 x1 x3 x4 x5) k1_pay1 k1_pay2 := by
  unfold val1_A_LS1
  rw [View.read_writes_eq_canon _ _ _ (cover1_A_LS1 c i arg3 harg3 arg4 harg4 arg5 harg5 arg6 harg6 arg7 harg7 arg8 harg8 arg9 harg9 arg10 harg10 arg11 harg11 arg12 harg12 hc0 hc1 hc2 x0 x1 x2 x3 x4 x5)]
  unfold kernelRun1_A
  dsimp only
  (try sl_unfold_words)
  first
    | rw [View.canon_unit_zero hz2]
    | rw [View.canon_cons_unit_zero (S := S64x1) hz2]
  simp only [View.readAt_eq_ld, View.readCov_unit_zero (S := S64x1) _ hz2, View.readCov_unit_zero (S := S64x64) _ hz2,
    harg3.read_unread, harg4.read_unread, harg5.read_unread, harg6.read_unread, harg7.read_unread, harg8.read_unread,
    harg10.read_unread, harg11.read_unread, harg12.read_unread,
    View.ld_unit_zero (S := S1x64x128) hz3, View.ld_unit_zero (S := S1x128x128) hz3, View.ld_unit_zero (S := S1x128x64) hz3,
    View.ld_unit_zero (S := S1x128) hz2, View.ld_unit_zero (S := S1x1) hz2, View.ld_unit_zero (S := S64x1) hz2,
    View.ld_unit_zero (S := S64x64) hz2, View.ld_unit_zero (S := S1x64x64) hz3]

theorem val1_A_LS2_eq (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) :
    val1_A_LS2 c i arg3 harg3 arg4 harg4 arg5 harg5 arg6 harg6 arg7 harg7 arg8 harg8 arg9 harg9 arg10 harg10 arg11 harg11 arg12 harg12 hc0 hc1 hc2 x0 x1 x2 x3 x4 x5 = k1_pay8 (k1_pay11 (BitVec.ofNat 32 (i 1).val) (BitVec.ofNat 32 (i 2).val) x0 x1 x3 x4 x5) k1_pay1 x2 k1_pay3 := by
  unfold val1_A_LS2
  rw [View.read_writes_eq_canon _ _ _ (cover1_A_LS2 c i arg3 harg3 arg4 harg4 arg5 harg5 arg6 harg6 arg7 harg7 arg8 harg8 arg9 harg9 arg10 harg10 arg11 harg11 arg12 harg12 hc0 hc1 hc2 x0 x1 x2 x3 x4 x5)]
  unfold kernelRun1_A
  dsimp only
  (try sl_unfold_words)
  first
    | rw [View.canon_unit_zero hz2]
    | rw [View.canon_cons_unit_zero (S := S64x64) hz2]
  simp only [View.readAt_eq_ld, View.readCov_unit_zero (S := S64x1) _ hz2, View.readCov_unit_zero (S := S64x64) _ hz2,
    harg3.read_unread, harg4.read_unread, harg5.read_unread, harg6.read_unread, harg7.read_unread, harg8.read_unread,
    harg10.read_unread, harg11.read_unread, harg12.read_unread,
    View.ld_unit_zero (S := S1x64x128) hz3, View.ld_unit_zero (S := S1x128x128) hz3, View.ld_unit_zero (S := S1x128x64) hz3,
    View.ld_unit_zero (S := S1x128) hz2, View.ld_unit_zero (S := S1x1) hz2, View.ld_unit_zero (S := S64x1) hz2,
    View.ld_unit_zero (S := S64x64) hz2, View.ld_unit_zero (S := S1x64x64) hz3]

theorem val1_B_LS0_eq (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) :
    val1_B_LS0 c i arg3 harg3 arg4 harg4 arg5 harg5 arg6 harg6 arg7 harg7 arg8 harg8 arg9 harg9 arg10 harg10 arg11 harg11 arg12 harg12 hc0 hc1 hc2 x0 x1 x2 x3 x4 x5 xs0 xs1 xs2 = k1_pay9 (k1_pay11 (BitVec.ofNat 32 (i 1).val) (BitVec.ofNat 32 (i 2).val) x0 x1 x3 x4 x5) xs0 := by
  unfold val1_B_LS0
  rw [View.read_writes_eq_canon _ _ _ (cover1_B_LS0 c i arg3 harg3 arg4 harg4 arg5 harg5 arg6 harg6 arg7 harg7 arg8 harg8 arg9 harg9 arg10 harg10 arg11 harg11 arg12 harg12 hc0 hc1 hc2 x0 x1 x2 x3 x4 x5 xs0 xs1 xs2)]
  unfold kernelRun1_B
  dsimp only
  (try sl_unfold_words)
  first
    | rw [View.canon_unit_zero hz2]
    | rw [View.canon_cons_unit_zero (S := S64x1) hz2]
  simp only [View.readAt_eq_ld, View.readCov_unit_zero (S := S64x1) _ hz2, View.readCov_unit_zero (S := S64x64) _ hz2,
    harg3.read_unread, harg4.read_unread, harg5.read_unread, harg6.read_unread, harg7.read_unread, harg8.read_unread,
    harg10.read_unread, harg11.read_unread, harg12.read_unread,
    View.ld_unit_zero (S := S1x64x128) hz3, View.ld_unit_zero (S := S1x128x128) hz3, View.ld_unit_zero (S := S1x128x64) hz3,
    View.ld_unit_zero (S := S1x128) hz2, View.ld_unit_zero (S := S1x1) hz2, View.ld_unit_zero (S := S64x1) hz2,
    View.ld_unit_zero (S := S64x64) hz2, View.ld_unit_zero (S := S1x64x64) hz3]

theorem val1_B_LS1_eq (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) :
    val1_B_LS1 c i arg3 harg3 arg4 harg4 arg5 harg5 arg6 harg6 arg7 harg7 arg8 harg8 arg9 harg9 arg10 harg10 arg11 harg11 arg12 harg12 hc0 hc1 hc2 x0 x1 x2 x3 x4 x5 xs0 xs1 xs2 = k1_pay7 (k1_pay11 (BitVec.ofNat 32 (i 1).val) (BitVec.ofNat 32 (i 2).val) x0 x1 x3 x4 x5) xs0 xs1 := by
  unfold val1_B_LS1
  rw [View.read_writes_eq_canon _ _ _ (cover1_B_LS1 c i arg3 harg3 arg4 harg4 arg5 harg5 arg6 harg6 arg7 harg7 arg8 harg8 arg9 harg9 arg10 harg10 arg11 harg11 arg12 harg12 hc0 hc1 hc2 x0 x1 x2 x3 x4 x5 xs0 xs1 xs2)]
  unfold kernelRun1_B
  dsimp only
  (try sl_unfold_words)
  first
    | rw [View.canon_unit_zero hz2]
    | rw [View.canon_cons_unit_zero (S := S64x1) hz2]
  simp only [View.readAt_eq_ld, View.readCov_unit_zero (S := S64x1) _ hz2, View.readCov_unit_zero (S := S64x64) _ hz2,
    harg3.read_unread, harg4.read_unread, harg5.read_unread, harg6.read_unread, harg7.read_unread, harg8.read_unread,
    harg10.read_unread, harg11.read_unread, harg12.read_unread,
    View.ld_unit_zero (S := S1x64x128) hz3, View.ld_unit_zero (S := S1x128x128) hz3, View.ld_unit_zero (S := S1x128x64) hz3,
    View.ld_unit_zero (S := S1x128) hz2, View.ld_unit_zero (S := S1x1) hz2, View.ld_unit_zero (S := S64x1) hz2,
    View.ld_unit_zero (S := S64x64) hz2, View.ld_unit_zero (S := S1x64x64) hz3]

theorem val1_B_LS2_eq (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : ¬cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) :
    val1_B_LS2 c i arg3 harg3 arg4 harg4 arg5 harg5 arg6 harg6 arg7 harg7 arg8 harg8 arg9 harg9 arg10 harg10 arg11 harg11 arg12 harg12 hc0 hc1 hc2 x0 x1 x2 x3 x4 x5 xs0 xs1 xs2 = k1_pay8 (k1_pay11 (BitVec.ofNat 32 (i 1).val) (BitVec.ofNat 32 (i 2).val) x0 x1 x3 x4 x5) xs0 x2 xs2 := by
  unfold val1_B_LS2
  rw [View.read_writes_eq_canon _ _ _ (cover1_B_LS2 c i arg3 harg3 arg4 harg4 arg5 harg5 arg6 harg6 arg7 harg7 arg8 harg8 arg9 harg9 arg10 harg10 arg11 harg11 arg12 harg12 hc0 hc1 hc2 x0 x1 x2 x3 x4 x5 xs0 xs1 xs2)]
  unfold kernelRun1_B
  dsimp only
  (try sl_unfold_words)
  first
    | rw [View.canon_unit_zero hz2]
    | rw [View.canon_cons_unit_zero (S := S64x64) hz2]
  simp only [View.readAt_eq_ld, View.readCov_unit_zero (S := S64x1) _ hz2, View.readCov_unit_zero (S := S64x64) _ hz2,
    harg3.read_unread, harg4.read_unread, harg5.read_unread, harg6.read_unread, harg7.read_unread, harg8.read_unread,
    harg10.read_unread, harg11.read_unread, harg12.read_unread,
    View.ld_unit_zero (S := S1x64x128) hz3, View.ld_unit_zero (S := S1x128x128) hz3, View.ld_unit_zero (S := S1x128x64) hz3,
    View.ld_unit_zero (S := S1x128) hz2, View.ld_unit_zero (S := S1x1) hz2, View.ld_unit_zero (S := S64x1) hz2,
    View.ld_unit_zero (S := S64x64) hz2, View.ld_unit_zero (S := S1x64x64) hz3]

theorem val1_D_LS0_eq (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) :
    val1_D_LS0 c i arg3 harg3 arg4 harg4 arg5 harg5 arg6 harg6 arg7 harg7 arg8 harg8 arg9 harg9 arg10 harg10 arg11 harg11 arg12 harg12 hc0 hc1 hc2 x0 x1 x2 x3 x4 x5 xs0 xs1 xs2 = k1_pay9 (k1_pay11 (BitVec.ofNat 32 (i 1).val) (BitVec.ofNat 32 (i 2).val) x0 x1 x3 x4 x5) xs0 := by
  unfold val1_D_LS0
  rw [View.read_writes_eq_canon _ _ _ (cover1_D_LS0 c i arg3 harg3 arg4 harg4 arg5 harg5 arg6 harg6 arg7 harg7 arg8 harg8 arg9 harg9 arg10 harg10 arg11 harg11 arg12 harg12 hc0 hc1 hc2 x0 x1 x2 x3 x4 x5 xs0 xs1 xs2)]
  unfold kernelRun1_D
  dsimp only
  (try sl_unfold_words)
  first
    | rw [View.canon_unit_zero hz2]
    | rw [View.canon_cons_unit_zero (S := S64x1) hz2]
  simp only [View.readAt_eq_ld, View.readCov_unit_zero (S := S64x1) _ hz2, View.readCov_unit_zero (S := S64x64) _ hz2,
    harg3.read_unread, harg4.read_unread, harg5.read_unread, harg6.read_unread, harg7.read_unread, harg8.read_unread,
    harg10.read_unread, harg11.read_unread, harg12.read_unread,
    View.ld_unit_zero (S := S1x64x128) hz3, View.ld_unit_zero (S := S1x128x128) hz3, View.ld_unit_zero (S := S1x128x64) hz3,
    View.ld_unit_zero (S := S1x128) hz2, View.ld_unit_zero (S := S1x1) hz2, View.ld_unit_zero (S := S64x1) hz2,
    View.ld_unit_zero (S := S64x64) hz2, View.ld_unit_zero (S := S1x64x64) hz3]

theorem val1_D_LS1_eq (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) :
    val1_D_LS1 c i arg3 harg3 arg4 harg4 arg5 harg5 arg6 harg6 arg7 harg7 arg8 harg8 arg9 harg9 arg10 harg10 arg11 harg11 arg12 harg12 hc0 hc1 hc2 x0 x1 x2 x3 x4 x5 xs0 xs1 xs2 = k1_pay7 (k1_pay11 (BitVec.ofNat 32 (i 1).val) (BitVec.ofNat 32 (i 2).val) x0 x1 x3 x4 x5) xs0 xs1 := by
  unfold val1_D_LS1
  rw [View.read_writes_eq_canon _ _ _ (cover1_D_LS1 c i arg3 harg3 arg4 harg4 arg5 harg5 arg6 harg6 arg7 harg7 arg8 harg8 arg9 harg9 arg10 harg10 arg11 harg11 arg12 harg12 hc0 hc1 hc2 x0 x1 x2 x3 x4 x5 xs0 xs1 xs2)]
  unfold kernelRun1_D
  dsimp only
  (try sl_unfold_words)
  first
    | rw [View.canon_unit_zero hz2]
    | rw [View.canon_cons_unit_zero (S := S64x1) hz2]
  simp only [View.readAt_eq_ld, View.readCov_unit_zero (S := S64x1) _ hz2, View.readCov_unit_zero (S := S64x64) _ hz2,
    harg3.read_unread, harg4.read_unread, harg5.read_unread, harg6.read_unread, harg7.read_unread, harg8.read_unread,
    harg10.read_unread, harg11.read_unread, harg12.read_unread,
    View.ld_unit_zero (S := S1x64x128) hz3, View.ld_unit_zero (S := S1x128x128) hz3, View.ld_unit_zero (S := S1x128x64) hz3,
    View.ld_unit_zero (S := S1x128) hz2, View.ld_unit_zero (S := S1x1) hz2, View.ld_unit_zero (S := S64x1) hz2,
    View.ld_unit_zero (S := S64x64) hz2, View.ld_unit_zero (S := S1x64x64) hz3]

theorem val1_D_LS2_eq (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) :
    val1_D_LS2 c i arg3 harg3 arg4 harg4 arg5 harg5 arg6 harg6 arg7 harg7 arg8 harg8 arg9 harg9 arg10 harg10 arg11 harg11 arg12 harg12 hc0 hc1 hc2 x0 x1 x2 x3 x4 x5 xs0 xs1 xs2 = k1_pay8 (k1_pay11 (BitVec.ofNat 32 (i 1).val) (BitVec.ofNat 32 (i 2).val) x0 x1 x3 x4 x5) xs0 x2 xs2 := by
  unfold val1_D_LS2
  rw [View.read_writes_eq_canon _ _ _ (cover1_D_LS2 c i arg3 harg3 arg4 harg4 arg5 harg5 arg6 harg6 arg7 harg7 arg8 harg8 arg9 harg9 arg10 harg10 arg11 harg11 arg12 harg12 hc0 hc1 hc2 x0 x1 x2 x3 x4 x5 xs0 xs1 xs2)]
  unfold kernelRun1_D
  dsimp only
  (try sl_unfold_words)
  first
    | rw [View.canon_unit_zero hz2]
    | rw [View.canon_cons_unit_zero (S := S64x64) hz2]
  simp only [View.readAt_eq_ld, View.readCov_unit_zero (S := S64x1) _ hz2, View.readCov_unit_zero (S := S64x64) _ hz2,
    harg3.read_unread, harg4.read_unread, harg5.read_unread, harg6.read_unread, harg7.read_unread, harg8.read_unread,
    harg10.read_unread, harg11.read_unread, harg12.read_unread,
    View.ld_unit_zero (S := S1x64x128) hz3, View.ld_unit_zero (S := S1x128x128) hz3, View.ld_unit_zero (S := S1x128x64) hz3,
    View.ld_unit_zero (S := S1x128) hz2, View.ld_unit_zero (S := S1x1) hz2, View.ld_unit_zero (S := S64x1) hz2,
    View.ld_unit_zero (S := S64x64) hz2, View.ld_unit_zero (S := S1x64x64) hz3]

theorem val1_D_L6_eq (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) :
    val1_D_L6 c i arg3 harg3 arg4 harg4 arg5 harg5 arg6 harg6 arg7 harg7 arg8 harg8 arg9 harg9 arg10 harg10 arg11 harg11 arg12 harg12 hc0 hc1 hc2 x0 x1 x2 x3 x4 x5 xs0 xs1 xs2 = k1_pay10 (k1_pay8 (k1_pay11 (BitVec.ofNat 32 (i 1).val) (BitVec.ofNat 32 (i 2).val) x0 x1 x3 x4 x5) xs0 x2 xs2) (k1_pay7 (k1_pay11 (BitVec.ofNat 32 (i 1).val) (BitVec.ofNat 32 (i 2).val) x0 x1 x3 x4 x5) xs0 xs1) := by
  unfold val1_D_L6
  rw [View.read_writes_eq_canon _ _ _ (cover1_D_L6 c i arg3 harg3 arg4 harg4 arg5 harg5 arg6 harg6 arg7 harg7 arg8 harg8 arg9 harg9 arg10 harg10 arg11 harg11 arg12 harg12 hc0 hc1 hc2 x0 x1 x2 x3 x4 x5 xs0 xs1 xs2)]
  unfold kernelRun1_D
  dsimp only
  (try sl_unfold_words)
  first
    | rw [View.canon_unit_zero hz3]
    | rw [View.canon_cons_unit_zero (S := S1x64x64) hz3]
  simp only [View.readAt_eq_ld, View.readCov_unit_zero (S := S64x1) _ hz2, View.readCov_unit_zero (S := S64x64) _ hz2,
    harg3.read_unread, harg4.read_unread, harg5.read_unread, harg6.read_unread, harg7.read_unread, harg8.read_unread,
    harg10.read_unread, harg11.read_unread, harg12.read_unread,
    View.ld_unit_zero (S := S1x64x128) hz3, View.ld_unit_zero (S := S1x128x128) hz3, View.ld_unit_zero (S := S1x128x64) hz3,
    View.ld_unit_zero (S := S1x128) hz2, View.ld_unit_zero (S := S1x1) hz2, View.ld_unit_zero (S := S64x1) hz2,
    View.ld_unit_zero (S := S64x64) hz2, View.ld_unit_zero (S := S1x64x64) hz3]

theorem val1_E_L6_eq (c : Dev nD) (i : grid1.Coords) (arg3 : Memref sig .tc .vmem S1x64x128 .f32) (harg3 : arg3.IsWhole) (arg4 : Memref sig .tc .vmem S1x128x128 .f32) (harg4 : arg4.IsWhole) (arg5 : Memref sig .tc .vmem S1x128x64 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64x64 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x64 .f32) (harg12 : arg12.IsWhole) (hc0 : ¬cond1_0 i) (hc1 : ¬cond1_1 i) (hc2 : cond1_2 i)
    (x0 : Vec F S1x64x128 .f32) (x1 : Vec F S1x128x128 .f32) (x2 : Vec F S1x128x64 .f32) (x3 : Vec F S1x128 .f32) (x4 : Vec F S1x128 .f32) (x5 : Vec F S1x1 .f32) (xs0 : Vec F S64x1 .f32) (xs1 : Vec F S64x1 .f32) (xs2 : Vec F S64x64 .f32) :
    val1_E_L6 c i arg3 harg3 arg4 harg4 arg5 harg5 arg6 harg6 arg7 harg7 arg8 harg8 arg9 harg9 arg10 harg10 arg11 harg11 arg12 harg12 hc0 hc1 hc2 x0 x1 x2 x3 x4 x5 xs0 xs1 xs2 = k1_pay10 xs2 xs1 := by
  unfold val1_E_L6
  rw [View.read_writes_eq_canon _ _ _ (cover1_E_L6 c i arg3 harg3 arg4 harg4 arg5 harg5 arg6 harg6 arg7 harg7 arg8 harg8 arg9 harg9 arg10 harg10 arg11 harg11 arg12 harg12 hc0 hc1 hc2 x0 x1 x2 x3 x4 x5 xs0 xs1 xs2)]
  unfold kernelRun1_E
  dsimp only
  (try sl_unfold_words)
  first
    | rw [View.canon_unit_zero hz3]
    | rw [View.canon_cons_unit_zero (S := S1x64x64) hz3]
  simp only [View.readAt_eq_ld, View.readCov_unit_zero (S := S64x1) _ hz2, View.readCov_unit_zero (S := S64x64) _ hz2,
    harg3.read_unread, harg4.read_unread, harg5.read_unread, harg6.read_unread, harg7.read_unread, harg8.read_unread,
    harg10.read_unread, harg11.read_unread, harg12.read_unread,
    View.ld_unit_zero (S := S1x64x128) hz3, View.ld_unit_zero (S := S1x128x128) hz3, View.ld_unit_zero (S := S1x128x64) hz3,
    View.ld_unit_zero (S := S1x128) hz2, View.ld_unit_zero (S := S1x1) hz2, View.ld_unit_zero (S := S64x1) hz2,
    View.ld_unit_zero (S := S64x64) hz2, View.ld_unit_zero (S := S1x64x64) hz3]

end Cert.KernelIdeal.Gen

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.PayloadPre.lean ====
/- The first kernel's stored values read at an index, over the extended reals: the two first-layer
   products of the input plus the position embedding (one stored transposed) and the value projection,
   each as the plain sum over the contracted coordinate. -/
import proofs.«152301_j13073880449825_2_alg».proof.Proof.Gen.KernelIdeal.Skeleton
import proofs.«152301_j13073880449825_2_alg».proof.Proof.LibPlainDot
import Idealize.ShloMosaic.Lib.ValueLayout
import Idealize.ShloMosaic.Lib.Pipeline.Value
import Idealize.ShloMosaic.Lib.ValueIdx

noncomputable section

open scoped BigOperators

namespace Cert.KernelIdeal.PayloadAt

open Cert.KernelIdeal Cert.KernelIdeal.Gen Idealize.ShloMosaic Idealize.ShloMosaic.ValueIdx

/-- The input block without its leading unit axis. -/
theorem k0_pay1_at (v0 : Vec Ideal S1x512x128 .f32) (t : Fin 512) (c : Fin 128) :
    k0_pay1 (F := Ideal) v0 (ix2 t c) = v0 (ix3 0 t c) := by
  unfold k0_pay1
  exact shapeCast_1ab_ab_apply v0 _ t c

/-- The input plus the position embedding (the narrowing of the format is the identity). -/
theorem k0_pay2_at (v0 : Vec Ideal S1x512x128 .f32) (v2 : Vec Ideal S512x128 .f32) (t : Fin 512) (c : Fin 128) :
    k0_pay2 (F := Ideal) v0 v2 (ix2 t c) = v0 (ix3 0 t c) + v2 (ix2 t c) := by
  have h : k0_pay2 (F := Ideal) v0 v2 (ix2 t c) = k0_pay1 (F := Ideal) v0 (ix2 t c) + v2 (ix2 t c) := rfl
  rw [h, k0_pay1_at]

/-- The query part of the first layer, as stored. -/
theorem k0_pay3_at (v0 : Vec Ideal S1x512x128 .f32) (v2 : Vec Ideal S512x128 .f32) (v5 : Vec Ideal S128x128 .f32)
    (t : Fin 512) (d : Fin 128) :
    k0_pay3 (F := Ideal) v0 v2 v5 (ix3 0 t d) = ∑ c : Fin 128, (v0 (ix3 0 t c) + v2 (ix2 t c)) * v5 (ix2 c d) := by
  unfold k0_pay3
  refine (shapeCast_ab_1ab_apply _ _ (0 : Fin 1) t d).trans ?_
  refine (Cert.LibPlainDot.matmul_zero_apply (R := 512) (K := 128) (C := 128) _ none _ _ t d).trans ?_
  refine Finset.sum_congr rfl fun c _ => ?_
  rw [k0_pay2_at]
  exact congrArg (_ * ·) (congrFun (shapeCast_self v5 _) (ix2 c d))

/-- The key part of the first layer, as stored: transposed. -/
theorem k0_pay4_at (v0 : Vec Ideal S1x512x128 .f32) (v2 : Vec Ideal S512x128 .f32) (v8 : Vec Ideal S128x128 .f32)
    (t : Fin 512) (d : Fin 128) :
    k0_pay4 (F := Ideal) v0 v2 v8 (ix3 0 d t) = ∑ c : Fin 128, (v0 (ix3 0 t c) + v2 (ix2 t c)) * v8 (ix2 c d) := by
  unfold k0_pay4
  refine (shapeCast_ab_1ab_apply _ _ (0 : Fin 1) d t).trans ?_
  refine (transpose_ix2_apply _ _ d t).trans ?_
  refine (Cert.LibPlainDot.matmul_zero_apply (R := 512) (K := 128) (C := 128) _ none _ _ t d).trans ?_
  refine Finset.sum_congr rfl fun c _ => ?_
  rw [k0_pay2_at]
  exact congrArg (_ * ·) (congrFun (shapeCast_self v8 _) (ix2 c d))

/-- The value projection, as stored. -/
theorem k0_pay5_at (v0 : Vec Ideal S1x512x128 .f32) (v11 : Vec Ideal S128x64 .f32) (t : Fin 512) (h : Fin 64) :
    k0_pay5 (F := Ideal) v0 v11 (ix3 0 t h) = ∑ c : Fin 128, v0 (ix3 0 t c) * v11 (ix2 c h) := by
  unfold k0_pay5
  refine (shapeCast_ab_1ab_apply _ _ (0 : Fin 1) t h).trans ?_
  refine (Cert.LibPlainDot.matmul_zero_apply (R := 512) (K := 128) (C := 64) _ none _ _ t h).trans ?_
  refine Finset.sum_congr rfl fun c _ => ?_
  exact congrArg (· * _) (k0_pay1_at v0 t c)

end Cert.KernelIdeal.PayloadAt

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«152301_j13073880449825_2_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.LibOnlineSoftmax.lean ====
import Idealize.ShloMosaic.PureOps.Ideal

/-!
# The online-softmax algebra over the extended reals

A running triple `(m, l, a)` summarises a finite set `J` of keys with real scores `s` and real
values `v`: `m` is the maximum score (`⊥` when `J` is empty), `l = Σ exp (s i - m)` and
`a = Σ exp (s i - m) · v i`.  Absorbing a further block of keys rescales the old `l` and `a` by
`exp (m - m')`, where `m'` is the new maximum, and adds the block's own terms; after all keys
`a / l` is the softmax-weighted sum of `v`.  All algebra is carried out in `ℝ` and coerced, since
multiplication on `EReal` does not distribute over addition at the infinities.
-/

namespace OnlineSoftmax
open Idealize.ShloMosaic

variable {ι : Type*} [DecidableEq ι]

/-- The coercion `ℝ → EReal` commutes with finite sums. -/
theorem coe_sum {α : Type*} (J : Finset α) (f : α → ℝ) :
    ((∑ i ∈ J, f i : ℝ) : EReal) = ∑ i ∈ J, (f i : EReal) := by
  classical
  induction J using Finset.induction_on with
  | empty => simp
  | insert a J ha ih => rw [Finset.sum_insert ha, Finset.sum_insert ha, EReal.coe_add, ih]

/-- The supremum of finitely many real numbers over a nonempty index set, taken in `EReal`,
    is (the coercion of) a real number: it is attained. -/
theorem sup_coe_real {α : Type*} (s : α → ℝ) (J : Finset α) (hJ : J.Nonempty) :
    ∃ r : ℝ, (J.sup fun i => (s i : EReal)) = (r : EReal) := by
  obtain ⟨i, _, hi⟩ := Finset.exists_mem_eq_sup J hJ (fun i => (s i : EReal))
  exact ⟨s i, hi⟩

/-- `exp (x - y)` for real `x`, `y` is the coercion of the real exponential. -/
theorem exp_sub_coe (x y : ℝ) :
    Ideal.exp ((x : EReal) - (y : EReal)) = ((Real.exp (x - y) : ℝ) : EReal) := by
  rw [← EReal.coe_sub, Ideal.exp_coe]

/-- Rescaling: if `m` is the maximum of the scores in `J` and `r'` is any real, then
    `exp (m - r') · Σ_{i ∈ J} exp (s i - m) · w i = Σ_{i ∈ J} exp (s i - r') · w i`.
    For empty `J` both sides are `0`; otherwise `m` is real and this is
    `exp (m - r') · exp (s i - m) = exp (s i - r')` summed in `ℝ`. -/
theorem rescale {α : Type*} (s w : α → ℝ) (J : Finset α) (m : EReal) (r' : ℝ)
    (hm : m = J.sup fun i => (s i : EReal)) :
    Ideal.exp (m - (r' : EReal)) * ∑ i ∈ J, Ideal.exp ((s i : EReal) - m) * (w i : EReal)
      = ∑ i ∈ J, Ideal.exp ((s i : EReal) - (r' : EReal)) * (w i : EReal) := by
  rcases J.eq_empty_or_nonempty with hJ | hJ
  · subst hJ; simp
  · obtain ⟨r, hr⟩ := sup_coe_real s J hJ
    rw [hm, hr]
    simp only [exp_sub_coe, ← EReal.coe_mul, ← coe_sum]
    rw [Finset.mul_sum]
    congr 1
    refine Finset.sum_congr rfl fun i _ => ?_
    rw [← mul_assoc, ← Real.exp_add]
    congr 2
    ring

/-- The same rescaling for the normaliser (weights `1`). -/
theorem rescale_one {α : Type*} (s : α → ℝ) (J : Finset α) (m : EReal) (r' : ℝ)
    (hm : m = J.sup fun i => (s i : EReal)) :
    Ideal.exp (m - (r' : EReal)) * ∑ i ∈ J, Ideal.exp ((s i : EReal) - m)
      = ∑ i ∈ J, Ideal.exp ((s i : EReal) - (r' : EReal)) := by
  have h := rescale s (fun _ => (1 : ℝ)) J m r' hm
  simpa using h

/-- (m, l, a) summarise the keys in J: m their maximum (⊥ for no key), l = Σ exp(s - m),
    a = Σ exp(s - m)·v. -/
structure Summ (s v : ι → ℝ) (J : Finset ι) (m l a : EReal) : Prop where
  hm : m = J.sup fun i => (s i : EReal)
  hl : l = ∑ i ∈ J, Ideal.exp ((s i : EReal) - m)
  ha : a = ∑ i ∈ J, Ideal.exp ((s i : EReal) - m) * (v i : EReal)

/-- No keys: the maximum is `⊥` and both sums are empty. -/
theorem summ_empty (s v : ι → ℝ) : Summ s v ∅ ⊥ 0 0 :=
  ⟨by simp, by simp, by simp⟩

/-- One block step.  If `(m, l, a)` summarise `J` and a nonempty block of new keys `e k`
    (pairwise distinct, none in `J`) has maximum score `b`, then with `m' = max m b` the triple
    `(m', exp (m - m') · l + Σ_k exp (s (e k) - m'),
      exp (m - m') · a + Σ_k exp (s (e k) - m') · v (e k))`
    summarises `J` together with the block. -/
theorem summ_step {κ : Type*} [Fintype κ] [Nonempty κ] (s v : ι → ℝ) (J : Finset ι) (e : κ → ι)
    (he : Function.Injective e) (hdisj : ∀ k, e k ∉ J) {m l a : EReal} (h : Summ s v J m l a) :
    Summ s v (J ∪ Finset.univ.image e)
      (max m (Finset.univ.sup fun k => (s (e k) : EReal)))
      (Ideal.exp (m - max m (Finset.univ.sup fun k => (s (e k) : EReal))) * l
        + ∑ k, Ideal.exp ((s (e k) : EReal) - max m (Finset.univ.sup fun k => (s (e k) : EReal))))
      (Ideal.exp (m - max m (Finset.univ.sup fun k => (s (e k) : EReal))) * a
        + ∑ k, Ideal.exp ((s (e k) : EReal) - max m (Finset.univ.sup fun k => (s (e k) : EReal)))
            * (v (e k) : EReal)) := by
  classical
  obtain ⟨hm, hl, ha⟩ := h
  -- the block maximum is real, hence so is the new maximum
  obtain ⟨rb, hrb⟩ := sup_coe_real (fun k => s (e k)) Finset.univ Finset.univ_nonempty
  obtain ⟨r', hr'⟩ : ∃ r' : ℝ, max m (Finset.univ.sup fun k => (s (e k) : EReal)) = (r' : EReal) := by
    rw [hrb]
    rcases J.eq_empty_or_nonempty with hJ | hJ
    · subst hJ
      refine ⟨rb, ?_⟩
      rw [hm, Finset.sup_empty]
      exact max_eq_right bot_le
    · obtain ⟨r, hr⟩ := sup_coe_real s J hJ
      refine ⟨max r rb, ?_⟩
      rw [hm, hr]
      exact (EReal.coe_strictMono.monotone.map_max).symm
  have hd : Disjoint J (Finset.univ.image e) := by
    rw [Finset.disjoint_left]
    intro i hi hi'
    obtain ⟨k, _, rfl⟩ := Finset.mem_image.mp hi'
    exact hdisj k hi
  have hinj : Set.InjOn e (Finset.univ : Finset κ) := he.injOn
  rw [hr']
  refine ⟨?_, ?_, ?_⟩
  · rw [← hr', Finset.sup_union, Finset.sup_image, hm]
    rfl
  · rw [Finset.sum_union hd, Finset.sum_image hinj, hl, rescale_one s J m r' hm]
  · rw [Finset.sum_union hd, Finset.sum_image hinj, ha, rescale s v J m r' hm]

/-- Final step.  If `(m, l, a)` summarise all keys of a nonempty index type, then `a / l` is the
    softmax-weighted sum `Σ_i (exp (s i - m) / Σ_k exp (s k - m)) · v i`: `m` is real, `l` is the
    coercion of a positive real, so both divisions are multiplications by the real `1 / l` and the
    identity is `(Σ_i x i · v i) · c = Σ_i x i · c · v i` in `ℝ`. -/
theorem summ_final [Fintype ι] [Nonempty ι] (s v : ι → ℝ) {m l a : EReal}
    (h : Summ s v Finset.univ m l a) :
    Ideal.div a l = ∑ i, Ideal.div (Ideal.exp ((s i : EReal) - m))
      (∑ k, Ideal.exp ((s k : EReal) - m)) * (v i : EReal) := by
  classical
  obtain ⟨hm, hl, ha⟩ := h
  obtain ⟨r, hr⟩ := sup_coe_real s Finset.univ Finset.univ_nonempty
  rw [hr] at hm
  subst hm
  have hpos : 0 < ∑ k, Real.exp (s k - r) :=
    Finset.sum_pos (fun k _ => Real.exp_pos _) Finset.univ_nonempty
  have hne : (∑ k, Real.exp (s k - r)) ≠ 0 := ne_of_gt hpos
  have hL : (∑ k, Ideal.exp ((s k : EReal) - (r : EReal)))
      = ((∑ k, Real.exp (s k - r) : ℝ) : EReal) := by
    simp only [exp_sub_coe, ← coe_sum]
  rw [hl, ha, hL]
  simp only [Ideal.div_coe hne, exp_sub_coe, ← EReal.coe_mul, ← coe_sum]
  congr 1
  rw [Finset.sum_mul]
  refine Finset.sum_congr rfl fun i _ => ?_
  ring

end OnlineSoftmax
-- ==== Proof.Spec.lean ====
/- The specification: the attention output as one function of the seven argument arrays,
   index by index over the literal shapes, at the extended reals. It mentions no program. -/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- An array of rank 3 over the extended reals. -/
abbrev A3 (a b c : Nat) : Type := (⟨3, ![a, b, c]⟩ : Shape).Idx → EReal
/-- An array of rank 2 over the extended reals. -/
abbrev A2 (a b : Nat) : Type := (⟨2, ![a, b]⟩ : Shape).Idx → EReal
/-- An array of rank 1 over the extended reals. -/
abbrev A1 (a : Nat) : Type := (⟨1, ![a]⟩ : Shape).Idx → EReal

/-- The score scale 128^(-1/2) as the f32 word the program carries; never evaluated. -/
def lit : EReal := Ideal.ofBits .f32 0x3DB504F3#32

/-- Row `c` of the first half of the first layer's weight (the key part). -/
def lo (c : Fin 128) : Fin 256 := ⟨c.val, by omega⟩
/-- Row `128 + c` of the first layer's weight (the query part). -/
def hi (c : Fin 128) : Fin 256 := ⟨128 + c.val, by omega⟩

section
variable (x : A3 4 512 128) (pos : A2 512 128) (W1 : A2 256 128) (b1 : A1 128) (W2 : A2 128 1) (b2 : A1 1)
  (Wv : A2 128 64)

/-- The input with the position embedding added. -/
def x1 (b : Fin 4) (t : Fin 512) (c : Fin 128) : EReal := pos (ix2 t c) + x (ix3 b t c)

/-- The key position's contribution to the hidden layer. -/
def Ak (b : Fin 4) (j : Fin 512) (d : Fin 128) : EReal := ∑ c : Fin 128, x1 x pos b j c * W1 (ix2 (lo c) d)

/-- The query position's contribution to the hidden layer. -/
def Aq (b : Fin 4) (i : Fin 512) (d : Fin 128) : EReal := ∑ c : Fin 128, x1 x pos b i c * W1 (ix2 (hi c) d)

/-- The hidden layer of the pair (query `i`, key `j`), after the rectifier. -/
def hid (b : Fin 4) (i j : Fin 512) (c : Fin 128) : EReal :=
  max (Aq x pos W1 b i c + Ak x pos W1 b j c + b1 (ix1 c)) 0

/-- The scaled score of the pair. -/
def s (b : Fin 4) (i j : Fin 512) : EReal :=
  ((∑ c : Fin 128, hid x pos W1 b1 b i j c * W2 (ix2 c 0)) + b2 (ix1 0)) * lit

/-- The causally masked score: the score at or below the diagonal, `-∞` above it. -/
def w (b : Fin 4) (i j : Fin 512) : EReal := if j ≤ i then s x pos W1 b1 W2 b2 b i j else ⊥

/-- The row maximum of the masked scores. -/
def M (b : Fin 4) (i : Fin 512) : EReal :=
  (Finset.univ : Finset (Fin 512)).fold max ⊥ (fun j => w x pos W1 b1 W2 b2 b i j)

/-- The exponentials of the masked scores less the row maximum. -/
def e (b : Fin 4) (i j : Fin 512) : EReal := Ideal.exp (w x pos W1 b1 W2 b2 b i j - M x pos W1 b1 W2 b2 b i)

/-- The row sum of the exponentials. -/
def Z (b : Fin 4) (i : Fin 512) : EReal := ∑ j : Fin 512, e x pos W1 b1 W2 b2 b i j

/-- The value projection. -/
def v (b : Fin 4) (j : Fin 512) (h : Fin 64) : EReal := ∑ c : Fin 128, x (ix3 b j c) * Wv (ix2 c h)

/-- The output at its three coordinates: the softmax weights against the values. -/
def out3 (b : Fin 4) (i : Fin 512) (h : Fin 64) : EReal :=
  ∑ j : Fin 512, Ideal.div (e x pos W1 b1 W2 b2 b i j) (Z x pos W1 b1 W2 b2 b i) * v x Wv b j h

/-- The output array. -/
def out : A3 4 512 64 := fun o => out3 x pos W1 b1 W2 b2 Wv (o 0) (o 1) (o 2)

theorem out_ix3 (b : Fin 4) (i : Fin 512) (h : Fin 64) :
    out x pos W1 b1 W2 b2 Wv (ix3 b i h) = out3 x pos W1 b1 W2 b2 Wv b i h := rfl

end

end Cert.Spec

end
-- ==== Proof.OnlineMasked.lean ====
/- The running softmax with masked scores. A score is `⊥` (masked) or a real; a masked key
   contributes `exp ⊥ = 0` whatever the running maximum is, so the running triple (maximum, normaliser,
   weighted sum) of a set of keys is the triple of its unmasked keys. All algebra is carried out in `ℝ`
   and coerced: multiplication on the extended reals does not distribute at the infinities. -/
import Idealize.ShloMosaic.PureOps.Ideal
import proofs.«152301_j13073880449825_2_alg».proof.Proof.LibOnlineSoftmax
import proofs.«152301_j13073880449825_2_alg».proof.Proof.Spec

open scoped BigOperators

namespace OnlineMasked

open Idealize.ShloMosaic OnlineSoftmax

/-! ## One exponential, as a real -/

/-- The real number `exp (w - r)` is, for a masked or real `w`: `0` when masked. -/
noncomputable def ex (w : EReal) (r : ℝ) : ℝ := (Ideal.exp (w - (r : EReal))).toReal

/-- A masked score's exponential is `0` against any maximum. -/
theorem exp_bot_sub (m : EReal) : Ideal.exp (⊥ - m) = 0 := by
  rw [EReal.bot_sub, Ideal.exp_bot]

theorem exp_sub_eq {w : EReal} (hw : w = ⊥ ∨ ∃ s : ℝ, w = (s : EReal)) (r : ℝ) :
    Ideal.exp (w - (r : EReal)) = ((ex w r : ℝ) : EReal) := by
  unfold ex
  rcases hw with rfl | ⟨s, rfl⟩
  · rw [exp_bot_sub]; simp
  · rw [← EReal.coe_sub, Ideal.exp_coe, EReal.toReal_coe]

/-- Changing the reference point from `r` to `r'` multiplies by `exp (r - r')`. -/
theorem ex_rescale {w : EReal} (hw : w = ⊥ ∨ ∃ s : ℝ, w = (s : EReal)) (r r' : ℝ) :
    ex w r' = Real.exp (r - r') * ex w r := by
  unfold ex
  rcases hw with rfl | ⟨s, rfl⟩
  · rw [exp_bot_sub, exp_bot_sub]; simp
  · rw [← EReal.coe_sub, ← EReal.coe_sub, Ideal.exp_coe, Ideal.exp_coe, EReal.toReal_coe, EReal.toReal_coe,
      ← Real.exp_add]
    congr 1; ring

theorem ex_nonneg {w : EReal} (hw : w = ⊥ ∨ ∃ s : ℝ, w = (s : EReal)) (r : ℝ) : 0 ≤ ex w r := by
  unfold ex
  rcases hw with rfl | ⟨s, rfl⟩
  · rw [exp_bot_sub]; simp
  · rw [← EReal.coe_sub, Ideal.exp_coe, EReal.toReal_coe]; exact (Real.exp_pos _).le

theorem ex_self (r : ℝ) : ex (r : EReal) r = 1 := by
  unfold ex
  rw [← EReal.coe_sub, Ideal.exp_coe, EReal.toReal_coe, sub_self, Real.exp_zero]

/-- A real in the extended reals is the coercion of its real part. -/
theorem coe_toReal_of_real {v : EReal} (hv : ∃ r : ℝ, v = (r : EReal)) : v = ((v.toReal : ℝ) : EReal) := by
  obtain ⟨r, rfl⟩ := hv
  rw [EReal.toReal_coe]

/-! ## Maxima of masked-or-real scores -/

/-- The supremum of finitely many masked-or-real scores is masked or real. -/
theorem sup_bot_or_real {α : Type*} (w : α → EReal) (hw : ∀ j, w j = ⊥ ∨ ∃ r : ℝ, w j = (r : EReal))
    (J : Finset α) : J.sup w = ⊥ ∨ ∃ r : ℝ, J.sup w = (r : EReal) := by
  rcases J.eq_empty_or_nonempty with rfl | hJ
  · left; simp
  · obtain ⟨j, _, hj⟩ := Finset.exists_mem_eq_sup J hJ w
    rw [hj]; exact hw j

/-- With at least one real score among them, the supremum is real. -/
theorem sup_real_of_mem {α : Type*} (w : α → EReal) (hw : ∀ j, w j = ⊥ ∨ ∃ r : ℝ, w j = (r : EReal))
    (J : Finset α) {j : α} (hj : j ∈ J) (hr : ∃ r : ℝ, w j = (r : EReal)) : ∃ r : ℝ, J.sup w = (r : EReal) := by
  rcases sup_bot_or_real w hw J with h | h
  · exfalso
    obtain ⟨r, hr⟩ := hr
    have hle : w j ≤ J.sup w := Finset.le_sup hj
    rw [h, hr] at hle
    exact absurd (le_bot_iff.mp hle) (EReal.coe_ne_bot r)
  · exact h

/-- The maximum of a real and a masked-or-real score is real. -/
theorem max_real_left (r : ℝ) {b : EReal} (hb : b = ⊥ ∨ ∃ s : ℝ, b = (s : EReal)) :
    ∃ t : ℝ, max (r : EReal) b = (t : EReal) := by
  rcases hb with rfl | ⟨s, rfl⟩
  · exact ⟨r, max_eq_left bot_le⟩
  · exact ⟨max r s, (EReal.coe_strictMono.monotone.map_max).symm⟩

/-- The maximum of a masked-or-real score and a real is real. -/
theorem max_real_right {m : EReal} (hm : m = ⊥ ∨ ∃ s : ℝ, m = (s : EReal)) (r : ℝ) :
    ∃ t : ℝ, max m (r : EReal) = (t : EReal) := by
  rw [max_comm]; exact max_real_left r hm

/-- A fold of `max` from `⊥` is the supremum. -/
theorem fold_max_eq_sup {α : Type*} (J : Finset α) (w : α → EReal) : J.fold max ⊥ w = J.sup w := by
  classical
  induction J using Finset.induction_on with
  | empty => simp
  | insert a J ha ih => rw [Finset.fold_insert ha, Finset.sup_insert, ih]

/-! ## Rescaling -/

/-- Rescaling: if `m` is the maximum of the scores in `J` and `r'` is any real, multiplying the weighted sum
    taken against `m` by `exp (m - r')` gives the weighted sum taken against `r'`. When every score in `J` is
    masked both sides are `0`; otherwise `m` is real and the identity is summed in `ℝ`. -/
theorem rescaleE {α : Type*} (w v : α → EReal) (hw : ∀ j, w j = ⊥ ∨ ∃ r : ℝ, w j = (r : EReal))
    (hv : ∀ j, ∃ r : ℝ, v j = (r : EReal)) (J : Finset α) (m : EReal) (r' : ℝ) (hm : m = J.sup w) :
    Ideal.exp (m - (r' : EReal)) * ∑ j ∈ J, Ideal.exp (w j - m) * v j
      = ∑ j ∈ J, Ideal.exp (w j - (r' : EReal)) * v j := by
  rcases sup_bot_or_real w hw J with hb | ⟨r, hr⟩
  · have hall : ∀ j ∈ J, w j = ⊥ := fun j hj => le_bot_iff.mp (by rw [← hb]; exact Finset.le_sup hj)
    rw [hm, hb, exp_bot_sub, zero_mul]
    symm
    refine Finset.sum_eq_zero fun j hj => ?_
    rw [hall j hj, exp_bot_sub, zero_mul]
  · rw [hm, hr]
    have e1 : ∀ j ∈ J, Ideal.exp (w j - (r : EReal)) * v j = ((ex (w j) r * (v j).toReal : ℝ) : EReal) :=
      fun j _ => by rw [exp_sub_eq (hw j) r, EReal.coe_mul, ← coe_toReal_of_real (hv j)]
    have e2 : ∀ j ∈ J, Ideal.exp (w j - (r' : EReal)) * v j = ((ex (w j) r' * (v j).toReal : ℝ) : EReal) :=
      fun j _ => by rw [exp_sub_eq (hw j) r', EReal.coe_mul, ← coe_toReal_of_real (hv j)]
    rw [Finset.sum_congr rfl e1, Finset.sum_congr rfl e2, ← coe_sum, ← coe_sum, exp_sub_coe, ← EReal.coe_mul]
    congr 1
    rw [Finset.mul_sum]
    refine Finset.sum_congr rfl fun j _ => ?_
    rw [ex_rescale (hw j) r r']
    ring

/-- The same for the normaliser (weights `1`). -/
theorem rescale_oneE {α : Type*} (w : α → EReal) (hw : ∀ j, w j = ⊥ ∨ ∃ r : ℝ, w j = (r : EReal))
    (J : Finset α) (m : EReal) (r' : ℝ) (hm : m = J.sup w) :
    Ideal.exp (m - (r' : EReal)) * ∑ j ∈ J, Ideal.exp (w j - m) = ∑ j ∈ J, Ideal.exp (w j - (r' : EReal)) := by
  have h := rescaleE w (fun _ => (1 : EReal)) hw (fun _ => ⟨1, by simp⟩) J m r' hm
  simpa using h

/-! ## The running triple -/

variable {ι : Type*} [DecidableEq ι]

/-- `(m, l, a)` summarise the keys in `J`: `m` their maximum score (`⊥` for no key or only masked keys),
    `l = Σ exp (w - m)`, `a = Σ exp (w - m) · v`. -/
structure SummE (w v : ι → EReal) (J : Finset ι) (m l a : EReal) : Prop where
  hm : m = J.sup w
  hl : l = ∑ j ∈ J, Ideal.exp (w j - m)
  ha : a = ∑ j ∈ J, Ideal.exp (w j - m) * v j

/-- No keys: the maximum is `⊥` and both sums are empty. -/
theorem summE_empty (w v : ι → EReal) : SummE w v ∅ ⊥ 0 0 :=
  ⟨by simp, by simp, by simp⟩

/-- One block step. If `(m, l, a)` summarise `J` and a block of new keys `e k` (pairwise distinct, none in `J`)
    has maximum score `b`, and the new maximum `max m b` is real, then the triple
    `(max m b, exp (m - max m b) · l + Σ_k exp (w (e k) - max m b),
      exp (m - max m b) · a + Σ_k exp (w (e k) - max m b) · v (e k))` summarises `J` together with the block. -/
theorem summE_step {κ : Type*} [Fintype κ] (w v : ι → EReal)
    (hw : ∀ j, w j = ⊥ ∨ ∃ r : ℝ, w j = (r : EReal)) (hv : ∀ j, ∃ r : ℝ, v j = (r : EReal))
    (J : Finset ι) (e : κ → ι) (he : Function.Injective e) (hdisj : ∀ k, e k ∉ J) {m l a : EReal}
    (h : SummE w v J m l a)
    (hreal : ∃ r : ℝ, max m (Finset.univ.sup fun k => w (e k)) = (r : EReal)) :
    SummE w v (J ∪ Finset.univ.image e)
      (max m (Finset.univ.sup fun k => w (e k)))
      (Ideal.exp (m - max m (Finset.univ.sup fun k => w (e k))) * l
        + ∑ k, Ideal.exp (w (e k) - max m (Finset.univ.sup fun k => w (e k))))
      (Ideal.exp (m - max m (Finset.univ.sup fun k => w (e k))) * a
        + ∑ k, Ideal.exp (w (e k) - max m (Finset.univ.sup fun k => w (e k))) * v (e k)) := by
  classical
  obtain ⟨hm, hl, ha⟩ := h
  obtain ⟨r', hr'⟩ := hreal
  have hd : Disjoint J (Finset.univ.image e) := by
    rw [Finset.disjoint_left]
    intro i hi hi'
    obtain ⟨k, _, rfl⟩ := Finset.mem_image.mp hi'
    exact hdisj k hi
  have hinj : Set.InjOn e (Finset.univ : Finset κ) := he.injOn
  rw [hr']
  refine ⟨?_, ?_, ?_⟩
  · rw [← hr', Finset.sup_union, Finset.sup_image, hm]
    rfl
  · rw [Finset.sum_union hd, Finset.sum_image hinj, hl, rescale_oneE w hw J m r' hm]
  · rw [Finset.sum_union hd, Finset.sum_image hinj, ha, rescaleE w v hw hv J m r' hm]

/-- Keys never visited that are all masked change nothing: the triple of `J` is the triple of all keys. -/
theorem summE_univ [Fintype ι] (w v : ι → EReal) (J : Finset ι) {m l a : EReal} (h : SummE w v J m l a)
    (hout : ∀ j, j ∉ J → w j = ⊥) : SummE w v Finset.univ m l a := by
  obtain ⟨hm, hl, ha⟩ := h
  have hsup : (Finset.univ : Finset ι).sup w = J.sup w := by
    apply le_antisymm
    · refine Finset.sup_le fun j _ => ?_
      by_cases hj : j ∈ J
      · exact Finset.le_sup hj
      · rw [hout j hj]; exact bot_le
    · exact Finset.sup_mono (Finset.subset_univ J)
  refine ⟨hm.trans hsup.symm, ?_, ?_⟩
  · rw [hl]
    exact Finset.sum_subset (Finset.subset_univ J) (fun j _ hj => by rw [hout j hj, exp_bot_sub])
  · rw [ha]
    exact Finset.sum_subset (Finset.subset_univ J) (fun j _ hj => by rw [hout j hj, exp_bot_sub, zero_mul])

/-- Final step over all keys. If `(m, l, a)` summarise all keys and `m` is real, then `a / l` is the
    softmax-weighted sum: `l` is the coercion of a real that is at least `1` (the maximum is attained), so both
    divisions are multiplications by the real `1 / l` and the identity is
    `(Σ_i x i · v i) · c = Σ_i x i · c · v i` in `ℝ`. -/
theorem summE_final [Fintype ι] (w v : ι → EReal) (hw : ∀ j, w j = ⊥ ∨ ∃ r : ℝ, w j = (r : EReal))
    (hv : ∀ j, ∃ r : ℝ, v j = (r : EReal)) {m l a : EReal} (h : SummE w v Finset.univ m l a)
    (hmr : ∃ r : ℝ, m = (r : EReal)) :
    Ideal.div a l = ∑ i, Ideal.div (Ideal.exp (w i - m)) (∑ k, Ideal.exp (w k - m)) * v i := by
  classical
  obtain ⟨hm, hl, ha⟩ := h
  obtain ⟨r, rfl⟩ := hmr
  have hne : (Finset.univ : Finset ι).Nonempty := by
    by_contra hcon
    rw [Finset.not_nonempty_iff_eq_empty] at hcon
    rw [hcon, Finset.sup_empty] at hm
    exact absurd hm (EReal.coe_ne_bot r)
  obtain ⟨j0, _, hj0⟩ := Finset.exists_mem_eq_sup _ hne w
  have hw0 : w j0 = (r : EReal) := by rw [← hj0, ← hm]
  have hpos : 0 < ∑ k, ex (w k) r := by
    refine Finset.sum_pos' (fun k _ => ex_nonneg (hw k) r) ⟨j0, Finset.mem_univ _, ?_⟩
    rw [hw0, ex_self]; exact one_pos
  have hne' : (∑ k, ex (w k) r) ≠ 0 := ne_of_gt hpos
  have hL : (∑ k, Ideal.exp (w k - (r : EReal))) = ((∑ k, ex (w k) r : ℝ) : EReal) := by
    rw [coe_sum]; exact Finset.sum_congr rfl fun k _ => exp_sub_eq (hw k) r
  have hA : (∑ k, Ideal.exp (w k - (r : EReal)) * v k) = ((∑ k, ex (w k) r * (v k).toReal : ℝ) : EReal) := by
    rw [coe_sum]
    exact Finset.sum_congr rfl fun k _ => by rw [exp_sub_eq (hw k) r, EReal.coe_mul, ← coe_toReal_of_real (hv k)]
  have hterm : ∀ i, Ideal.div (Ideal.exp (w i - (r : EReal))) ((∑ k, ex (w k) r : ℝ) : EReal) * v i
      = ((ex (w i) r * (1 / ∑ k, ex (w k) r) * (v i).toReal : ℝ) : EReal) := fun i => by
    rw [exp_sub_eq (hw i) r, Ideal.div_coe hne', EReal.coe_mul, EReal.coe_mul, ← coe_toReal_of_real (hv i)]
  rw [hl, ha, hL, hA, Ideal.div_coe hne', Finset.sum_congr rfl (fun i _ => hterm i), ← coe_sum, ← EReal.coe_mul]
  congr 1
  rw [Finset.sum_mul]
  refine Finset.sum_congr rfl fun i _ => ?_
  ring

/-- The same from a triple of a subset `J` whose complement is all masked, with the maximum written as the fold
    of `max` from `⊥` over all keys. -/
theorem summE_final_univ [Fintype ι] (w v : ι → EReal) (hw : ∀ j, w j = ⊥ ∨ ∃ r : ℝ, w j = (r : EReal))
    (hv : ∀ j, ∃ r : ℝ, v j = (r : EReal)) (J : Finset ι) {m l a : EReal} (h : SummE w v J m l a)
    (hmr : ∃ r : ℝ, m = (r : EReal)) (hout : ∀ j, j ∉ J → w j = ⊥) :
    Ideal.div a l = ∑ i, Ideal.div (Ideal.exp (w i - (Finset.univ : Finset ι).fold max ⊥ w))
      (∑ k, Ideal.exp (w k - (Finset.univ : Finset ι).fold max ⊥ w)) * v i := by
  have hU := summE_univ w v J h hout
  rw [fold_max_eq_sup, ← hU.hm]
  exact summE_final w v hw hv hU hmr

end OnlineMasked

namespace Cert.Spec

open Idealize.ShloMosaic OnlineMasked

/-- The running triple of one output row and column, once every unvisited key is masked and the maximum is
    real, divides to the specification's output there. -/
theorem div_eq_out3 (x : A3 4 512 128) (pos : A2 512 128) (W1 : A2 256 128) (b1 : A1 128) (W2 : A2 128 1)
    (b2 : A1 1) (Wv : A2 128 64) (b : Fin 4) (i : Fin 512) (h : Fin 64) (J : Finset (Fin 512)) {m l a : EReal}
    (hS : SummE (fun j => w x pos W1 b1 W2 b2 b i j) (fun j => v x Wv b j h) J m l a)
    (hw : ∀ j, w x pos W1 b1 W2 b2 b i j = ⊥ ∨ ∃ r : ℝ, w x pos W1 b1 W2 b2 b i j = (r : EReal))
    (hv : ∀ j, ∃ r : ℝ, v x Wv b j h = (r : EReal))
    (hmr : ∃ r : ℝ, m = (r : EReal)) (hout : ∀ j, j ∉ J → w x pos W1 b1 W2 b2 b i j = ⊥) :
    Ideal.div a l = out3 x pos W1 b1 W2 b2 Wv b i h := by
  rw [summE_final_univ _ _ hw hv J hS hmr hout]
  rfl

end Cert.Spec
-- ==== Proof.PayloadAttn.lean ====
/- The attention kernel's running-softmax values read at an index, over the extended reals: the initial
   triple, the new row maximum, the rescaling factor, the tile's exponentials, the updated normaliser and
   weighted sum, and the final quotient. -/
import proofs.«152301_j13073880449825_2_alg».proof.Proof.Gen.KernelIdeal.Skeleton
import proofs.«152301_j13073880449825_2_alg».proof.Proof.LibPlainDot
import proofs.«152301_j13073880449825_2_alg».proof.Proof.LibRowReduce
import proofs.«152301_j13073880449825_2_alg».proof.Proof.LibColumn
import proofs.«152301_j13073880449825_2_alg».proof.Proof.OnlineMasked
import Idealize.ShloMosaic.Lib.ValueLayout
import Idealize.ShloMosaic.Lib.Pipeline.Value
import Idealize.ShloMosaic.Lib.ValueIdx

noncomputable section

open scoped BigOperators

namespace Cert.KernelIdeal.PayloadAt

open Cert.KernelIdeal Cert.KernelIdeal.Gen Idealize.ShloMosaic Idealize.ShloMosaic.ValueIdx

/-- The f32 word of `-∞` is the bottom of the extended reals. -/
theorem ofBits_neg_inf : Ideal.ofBits .f32 0xFF800000#32 = ⊥ := by simp [Ideal.ofBits, Ideal.ieee]

/-- The running maximum starts at `-∞`. -/
theorem k1_pay1_at (r : Fin 64) : k1_pay1 (F := Ideal) (ix2 r (0 : Fin 1)) = ⊥ := by
  unfold k1_pay1
  refine (congrFun (shapeCast_self _ _) _).trans ?_
  exact ofBits_neg_inf

/-- The running normaliser starts at `0`. -/
theorem k1_pay2_at (r : Fin 64) : k1_pay2 (F := Ideal) (ix2 r (0 : Fin 1)) = 0 := by
  unfold k1_pay2
  refine (congrFun (shapeCast_self _ _) _).trans ?_
  exact Ideal.ofBits_zero_f32

/-- The running weighted sum starts at `0`. -/
theorem k1_pay3_at (r : Fin 64) (h : Fin 64) : k1_pay3 (F := Ideal) (ix2 r h) = 0 := by
  unfold k1_pay3
  refine (congrFun (shapeCast_self _ _) _).trans ?_
  exact Ideal.ofBits_zero_f32

/-- The new row maximum: the old one against the tile's row maximum. -/
theorem k1_pay4_at (S : FVec Ideal S64x128 .f32) (mm : Vec Ideal S64x1 .f32) (r : Fin 64) :
    k1_pay4 (F := Ideal) S mm (ix2 r (0 : Fin 1))
      = max (mm (ix2 r (0 : Fin 1))) ((Finset.univ : Finset (Fin 128)).sup fun k => S (ix2 r k)) := by
  unfold k1_pay4
  refine congrArg (max (mm (ix2 r (0 : Fin 1))) ·) ?_
  refine (Cert.LibColumn.shapeCast_a_a1_apply _ _ r 0).trans ?_
  refine (Cert.LibRowReduce.rowMax_apply S _ _ _ _ r).trans ?_
  rw [Ideal.ofBits_def, ofBits_neg_inf]
  exact OnlineMasked.fold_max_eq_sup _ _

/-- The stored maximum is the new row maximum. -/
theorem k1_pay9_at (S : FVec Ideal S64x128 .f32) (mm : Vec Ideal S64x1 .f32) (r : Fin 64) :
    k1_pay9 (F := Ideal) S mm (ix2 r (0 : Fin 1)) = k1_pay4 (F := Ideal) S mm (ix2 r (0 : Fin 1)) := by
  unfold k1_pay9
  exact congrFun (shapeCast_self _ _) _

/-- The rescaling factor: the exponential of the old maximum less the new one. -/
theorem k1_pay5_at (S : FVec Ideal S64x128 .f32) (mm : Vec Ideal S64x1 .f32) (r : Fin 64) :
    k1_pay5 (F := Ideal) S mm (ix2 r (0 : Fin 1))
      = Ideal.exp (mm (ix2 r (0 : Fin 1)) - k1_pay4 (F := Ideal) S mm (ix2 r (0 : Fin 1))) := rfl

/-- The tile's exponentials: each score less the new row maximum. -/
theorem k1_pay6_at (S : FVec Ideal S64x128 .f32) (mm : Vec Ideal S64x1 .f32) (r : Fin 64) (k : Fin 128) :
    k1_pay6 (F := Ideal) S mm (ix2 r k) = Ideal.exp (S (ix2 r k) - k1_pay4 (F := Ideal) S mm (ix2 r (0 : Fin 1))) := by
  have h : k1_pay6 (F := Ideal) S mm (ix2 r k)
      = Ideal.exp (S (ix2 r k) - broadcastTo S64x128 (k1_pay4 (F := Ideal) S mm) broadcasts_S64x1_S64x128 (ix2 r k)) := rfl
  rw [h, Cert.LibColumn.broadcastTo_a1_ab_apply]

/-- The updated normaliser: the old one rescaled plus the tile's row sum of exponentials. -/
theorem k1_pay7_at (S : FVec Ideal S64x128 .f32) (mm ll : Vec Ideal S64x1 .f32) (r : Fin 64) :
    k1_pay7 (F := Ideal) S mm ll (ix2 r (0 : Fin 1))
      = k1_pay5 (F := Ideal) S mm (ix2 r (0 : Fin 1)) * ll (ix2 r (0 : Fin 1))
        + ∑ k : Fin 128, k1_pay6 (F := Ideal) S mm (ix2 r k) := by
  unfold k1_pay7
  refine (congrFun (shapeCast_self _ _) _).trans ?_
  refine congrArg (k1_pay5 (F := Ideal) S mm (ix2 r (0 : Fin 1)) * ll (ix2 r (0 : Fin 1)) + ·) ?_
  refine (Cert.LibColumn.shapeCast_a_a1_apply _ _ r 0).trans ?_
  exact Cert.LibRowReduce.rowSum_apply (k1_pay6 (F := Ideal) S mm) _ _ _ _ r

/-- The updated weighted sum: the old one rescaled plus the tile's exponentials against the values. -/
theorem k1_pay8_at (S : FVec Ideal S64x128 .f32) (mm : Vec Ideal S64x1 .f32) (xv : Vec Ideal S1x128x64 .f32)
    (acc : Vec Ideal S64x64 .f32) (r : Fin 64) (h : Fin 64) :
    k1_pay8 (F := Ideal) S mm xv acc (ix2 r h)
      = k1_pay5 (F := Ideal) S mm (ix2 r (0 : Fin 1)) * acc (ix2 r h)
        + ∑ k : Fin 128, k1_pay6 (F := Ideal) S mm (ix2 r k) * xv (ix3 0 k h) := by
  unfold k1_pay8
  refine (congrFun (shapeCast_self _ _) _).trans ?_
  have hb : broadcastTo S64x64 (k1_pay5 (F := Ideal) S mm) broadcasts_S64x1_S64x64 (ix2 r h)
      = k1_pay5 (F := Ideal) S mm (ix2 r (0 : Fin 1)) := Cert.LibColumn.broadcastTo_a1_ab_apply _ _ r h
  refine Eq.trans (b := broadcastTo S64x64 (k1_pay5 (F := Ideal) S mm) broadcasts_S64x1_S64x64 (ix2 r h) * acc (ix2 r h)
      + ∑ k : Fin 128, k1_pay6 (F := Ideal) S mm (ix2 r k) * xv (ix3 0 k h)) ?_ (by rw [hb])
  refine congrArg (broadcastTo S64x64 (k1_pay5 (F := Ideal) S mm) broadcasts_S64x1_S64x64 (ix2 r h) * acc (ix2 r h) + ·) ?_
  refine (Cert.LibPlainDot.matmul_zero_apply (R := 64) (K := 128) (C := 64) _ none _ _ r h).trans ?_
  refine Finset.sum_congr rfl fun k _ => ?_
  exact congrArg (k1_pay6 (F := Ideal) S mm (ix2 r k) * ·) (shapeCast_1ab_ab_apply xv _ k h)

/-- The output block: the weighted sum over the normaliser. -/
theorem k1_pay10_at (acc : Vec Ideal S64x64 .f32) (ll : Vec Ideal S64x1 .f32) (r : Fin 64) (h : Fin 64) :
    k1_pay10 (F := Ideal) acc ll (ix3 0 r h) = Ideal.div (acc (ix2 r h)) (ll (ix2 r (0 : Fin 1))) := by
  unfold k1_pay10
  refine (shapeCast_ab_1ab_apply _ _ (0 : Fin 1) r h).trans ?_
  exact congrArg (Ideal.div (acc (ix2 r h))) (Cert.LibColumn.broadcastTo_a1_ab_apply ll _ r h)

end Cert.KernelIdeal.PayloadAt

end
-- ==== Proof.LibAxisSum.lean ====
/-
  Lane sums of f32 arrays along an inner axis, read at an index over the extended reals, for any extents: the sum along
  the third of four axes at (p, q, r) is the plain sum over k of src (p, q, k, r); the sum along the second of three axes
  at (p, r) is the plain sum over k of src (p, k, r).  The side condition on the initial word is spelt as the equation
  between the two literal zero words, the form a printed reduction carries.  Names no program.
-/
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibAxisSum

open Idealize.ShloMosaic Idealize.ShloMosaic.ValueIdx

variable {a b c d : ℕ}

/-- Result index (p, q, r) of a reduction along the third of four axes, with the dropped coordinate k put back, is (p, q, k, r). -/
theorem lift_4_2 (h : (⟨4, ![a, b, c, d]⟩ : Shape).Reduces [(2 : Fin 4)] ⟨3, ![a, b, d]⟩) (p : Fin a) (q : Fin b) (r : Fin d) (k : Fin c) :
    h.lift (ix3 p q r) k = ix4 p q k r := by
  funext x
  apply Fin.ext
  match x with
  | ⟨0, _⟩ => rfl
  | ⟨1, _⟩ => rfl
  | ⟨2, _⟩ => rfl
  | ⟨3, _⟩ => rfl

/-- The sum along the third of four axes at (p, q, r), from the zero word. -/
theorem sum_4_2_f32 (src : FVec Ideal ⟨4, ![a, b, c, d]⟩ .f32)
    (h : (⟨4, ![a, b, c, d]⟩ : Shape).Reduces [(2 : Fin 4)] ⟨3, ![a, b, d]⟩) (hφ : FKind.Formats .f32)
    (hacc : (0x00000000#32 : BitVec 32) = 0x00000000#32) (p : Fin a) (q : Fin b) (r : Fin d) :
    multiReduction .add [(2 : Fin 4)] ⟨3, ![a, b, d]⟩ src 0x00000000#32 h hφ hacc (ix3 p q r) = ∑ k : Fin c, src (ix4 p q k r) :=
  (Ideal.multiReduction_add_single src 0x00000000#32 h hφ hacc (ix3 p q r)).trans
    (Finset.sum_congr rfl fun k _ => congrArg src (lift_4_2 h p q r k))

/-- Result index (p, r) of a reduction along the second of three axes, with the dropped coordinate k put back, is (p, k, r). -/
theorem lift_3_1 (h : (⟨3, ![a, b, c]⟩ : Shape).Reduces [(1 : Fin 3)] ⟨2, ![a, c]⟩) (p : Fin a) (r : Fin c) (k : Fin b) :
    h.lift (ix2 p r) k = ix3 p k r := by
  funext x
  apply Fin.ext
  match x with
  | ⟨0, _⟩ => rfl
  | ⟨1, _⟩ => rfl
  | ⟨2, _⟩ => rfl

/-- The sum along the second of three axes at (p, r), from the zero word. -/
theorem sum_3_1_f32 (src : FVec Ideal ⟨3, ![a, b, c]⟩ .f32)
    (h : (⟨3, ![a, b, c]⟩ : Shape).Reduces [(1 : Fin 3)] ⟨2, ![a, c]⟩) (hφ : FKind.Formats .f32)
    (hacc : (0x00000000#32 : BitVec 32) = 0x00000000#32) (p : Fin a) (r : Fin c) :
    multiReduction .add [(1 : Fin 3)] ⟨2, ![a, c]⟩ src 0x00000000#32 h hφ hacc (ix2 p r) = ∑ k : Fin b, src (ix3 p k r) :=
  (Ideal.multiReduction_add_single src 0x00000000#32 h hφ hacc (ix2 p r)).trans
    (Finset.sum_congr rfl fun k _ => congrArg src (lift_3_1 h p r k))

end Cert.LibAxisSum

end
-- ==== Proof.PayloadScore.lean ====
/- The attention kernel's score tile read at an index, over the extended reals: at row `r` of query tile
   `qi` and column `k` of key tile `kj` it is the scaled score of the pair when the key is at or before the
   query, and the mask value `-∞` otherwise. -/
import proofs.«152301_j13073880449825_2_alg».proof.Proof.Gen.KernelIdeal.Skeleton
import proofs.«152301_j13073880449825_2_alg».proof.Proof.LibRowReduce
import proofs.«152301_j13073880449825_2_alg».proof.Proof.LibColumn
import proofs.«152301_j13073880449825_2_alg».proof.Proof.LibAxisSum
import proofs.«152301_j13073880449825_2_alg».proof.Proof.Spec
import Idealize.ShloMosaic.PureOps.IdealRules
import Idealize.ShloMosaic.Lib.ValueLayout
import Idealize.ShloMosaic.Lib.Pipeline.Value
import Idealize.ShloMosaic.Lib.ValueIdx

noncomputable section

open scoped BigOperators

namespace Cert.KernelIdeal.PayloadAt

open Cert.KernelIdeal Cert.KernelIdeal.Gen Idealize.ShloMosaic Idealize.ShloMosaic.ValueIdx

variable {α : Type}

/-! ## Layout operations of the tile, read at an index -/

/-- A `[64,128,1]` array repeated along its last axis. -/
theorem bc_ab1 (v : S64x128x1.Idx → α) (h : S64x128x1.Broadcasts S64x128x128) (r : Fin 64) (c k : Fin 128) :
    broadcastTo S64x128x128 v h (ix3 r c k) = v (ix3 r c (0 : Fin 1)) :=
  broadcastTo_apply v h (ix3 r c k) (ix3 r c (0 : Fin 1)) fun a =>
    match a with | ⟨0, _⟩ => rfl | ⟨1, _⟩ => rfl | ⟨2, _⟩ => rfl

/-- A `[1,128,128]` array repeated along its first axis. -/
theorem bc_1bc (v : S1x128x128.Idx → α) (h : S1x128x128.Broadcasts S64x128x128) (r : Fin 64) (c k : Fin 128) :
    broadcastTo S64x128x128 v h (ix3 r c k) = v (ix3 (0 : Fin 1) c k) :=
  broadcastTo_apply v h (ix3 r c k) (ix3 (0 : Fin 1) c k) fun a =>
    match a with | ⟨0, _⟩ => rfl | ⟨1, _⟩ => rfl | ⟨2, _⟩ => rfl

/-- A `[1,128,1]` array repeated along its first and last axes. -/
theorem bc_1b1 (v : S1x128x1.Idx → α) (h : S1x128x1.Broadcasts S64x128x128) (r : Fin 64) (c k : Fin 128) :
    broadcastTo S64x128x128 v h (ix3 r c k) = v (ix3 (0 : Fin 1) c (0 : Fin 1)) :=
  broadcastTo_apply v h (ix3 r c k) (ix3 (0 : Fin 1) c (0 : Fin 1)) fun a =>
    match a with | ⟨0, _⟩ => rfl | ⟨1, _⟩ => rfl | ⟨2, _⟩ => rfl

/-- A `[64,128]` array given a trailing unit axis. -/
theorem sc_ab_ab1 (v : S64x128.Idx → α) (h : S64x128.ShapeCasts S64x128x1) (r : Fin 64) (c : Fin 128) :
    shapeCast S64x128x1 v h (ix3 r c (0 : Fin 1)) = v (ix2 r c) :=
  shapeCast_apply v h _ _ (by
    rw [Shape.rowMajor_val_three, Shape.rowMajor_val_two]
    show r.val * 128 + c.val = (r.val * 128 + c.val) * 1 + 0
    omega)

/-- A `[128]` vector set between two unit axes. -/
theorem sc_b_1b1 (v : S128.Idx → α) (h : S128.ShapeCasts S1x128x1) (c : Fin 128) :
    shapeCast S1x128x1 v h (ix3 (0 : Fin 1) c (0 : Fin 1)) = v (ix1 c) :=
  shapeCast_apply v h _ _ (by
    rw [Shape.rowMajor_val_three, Shape.rowMajor_val_one]
    show c.val = (0 * 128 + c.val) * 1 + 0
    omega)

/-! ## The mask's words -/

/-- On numbers below `2^31` the signed comparison `a ≥ b` of the 32-bit words is the comparison of the numbers. -/
theorem sge_bit (a b : Nat) (ha : a < 2 ^ 31) (hb : b < 2 ^ 31) :
    IntOp.cmpi .sge (BitVec.ofNat 32 a) (BitVec.ofNat 32 b) = if b ≤ a then 1#1 else 0#1 := by
  unfold IntOp.cmpi
  have h : (BitVec.ofNat 32 b).sle (BitVec.ofNat 32 a) = decide (b ≤ a) := by
    rw [BitVec.sle, BitVec.toInt_eq_toNat_cond, BitVec.toInt_eq_toNat_cond]
    simp only [BitVec.toNat_ofNat]
    have e1 : a % 2 ^ 32 = a := Nat.mod_eq_of_lt (by omega)
    have e2 : b % 2 ^ 32 = b := Nat.mod_eq_of_lt (by omega)
    rw [e1, e2, if_pos (by omega), if_pos (by omega)]
    simp
  show BitVec.ofBool ((BitVec.ofNat 32 b).sle (BitVec.ofNat 32 a)) = _
  rw [h]
  by_cases hle : b ≤ a
  · simp [hle]
  · simp [hle]

/-- The word of `x + q · s` for small numbers. -/
theorem word_affine (x q s : Nat) (hx : x < 2 ^ 16) (hq : q < 2 ^ 8) (hs : s < 2 ^ 8) :
    IntOp.addi (BitVec.ofNat 32 x) (Scalar.muli (BitVec.ofNat 32 q) (BitVec.ofNat 32 s)) = BitVec.ofNat 32 (q * s + x) := by
  apply BitVec.eq_of_toNat_eq
  have hqs : q * s < 2 ^ 16 := by
    calc q * s < 2 ^ 8 * 2 ^ 8 := Nat.mul_lt_mul'' hq hs
      _ = 2 ^ 16 := by norm_num
  show ((BitVec.ofNat 32 x) + (BitVec.ofNat 32 q) * (BitVec.ofNat 32 s)).toNat = _
  simp only [BitVec.toNat_add, BitVec.toNat_mul, BitVec.toNat_ofNat]
  have e1 : x % 2 ^ 32 = x := Nat.mod_eq_of_lt (by omega)
  have e2 : q % 2 ^ 32 = q := Nat.mod_eq_of_lt (by omega)
  have e3 : s % 2 ^ 32 = s := Nat.mod_eq_of_lt (by omega)
  have e4 : q * s % 2 ^ 32 = q * s := Nat.mod_eq_of_lt (by omega)
  rw [e1, e2, e3, e4]
  rw [Nat.mod_eq_of_lt (by omega), Nat.mod_eq_of_lt (by omega)]
  omega

/-- The mask value: the named constant is `-∞` at the extended reals. -/
theorem neg_big : Named.named (F := Ideal) Cert.KernelIdeal.κ "neg_big" (φ := .f32) 0xFF333332#32 = (⊥ : EReal) :=
  IdealRules.named_const.ideal_named_scalar _ _ _ _ rfl

/-- An integer comparison at an index compares the words. -/
theorem cmpi_at {s : Shape} {w : Nat} (p : CmpIPredicate) (a b : IVec s w) (i : s.Idx) :
    cmpi p a b i = IntOp.cmpi p (a i) (b i) := rfl
/-- An integer sum at an index adds the words. -/
theorem addi_at {s : Shape} {w : Nat} (a b : IVec s w) (i : s.Idx) : addi a b i = IntOp.addi (a i) (b i) := rfl

/-! ## The tile -/

set_option maxHeartbeats 1000000 in
/-- THE SCORE TILE AT `(r, k)`. -/
theorem k1_pay11_at (qi kj : Nat) (hq : qi < 8) (hk : kj < 4) (v12 : Vec Ideal S1x64x128 .f32)
    (v14 : Vec Ideal S1x128x128 .f32) (v16 v18 : Vec Ideal S1x128 .f32) (v36 : Vec Ideal S1x1 .f32)
    (r : Fin 64) (k : Fin 128) :
    k1_pay11 (F := Ideal) (BitVec.ofNat 32 qi) (BitVec.ofNat 32 kj) v12 v14 v16 v18 v36 (ix2 r k)
      = if kj * 128 + k.val ≤ qi * 64 + r.val then
          ((∑ c : Fin 128, max (v12 (ix3 0 r c) + v14 (ix3 0 c k) + v16 (ix2 0 c)) 0 * v18 (ix2 0 c))
            + v36 (ix2 0 0)) * Cert.Spec.lit
        else ⊥ := by
  unfold k1_pay11
  simp only [select_apply, mulf_apply, addf_apply, maximumf_apply, broadcast_apply, cmpi_at, addi_at]
  have key : ∀ (src : FVec Ideal S64x128x128 .f32) (h1 : S64x128x128.Reduces [1] S64x128) (h2 : FKind.Formats .f32)
      (h3 : (0x00000000#32 : BitVec 32) = 0x00000000#32),
      multiReduction .add [1] S64x128 src 0x00000000#32 h1 h2 h3 (ix2 r k) = ∑ c : Fin 128, src (ix3 r c k) :=
    fun src h1 h2 h3 => Cert.LibAxisSum.sum_3_1_f32 src h1 h2 h3 r k
  have hi0 : ∀ h, iota .tc S64x128 32 [0] h (ix2 r k) = BitVec.ofNat 32 r.val :=
    fun h => iota_single_apply .tc S64x128 32 0 h (ix2 r k)
  have hi1 : ∀ h, iota .tc S64x128 32 [1] h (ix2 r k) = BitVec.ofNat 32 k.val :=
    fun h => iota_single_apply .tc S64x128 32 1 h (ix2 r k)
  simp only [key, hi0, hi1, mulf_apply, maximumf_apply, addf_apply, broadcast_apply, bc_ab1, bc_1bc, bc_1b1,
    sc_ab_ab1, sc_b_1b1, shapeCast_1a_a_apply, shapeCast_1ab_ab_apply, shapeCast_ab_1ab_apply, shapeCast_self,
    Cert.LibRowReduce.broadcastTo_11_ab_apply, neg_big, Ideal.ofBits_def, Ideal.ofBits_zero_f32]
  rw [word_affine r.val qi 64 (by have := r.isLt; omega) (by omega) (by norm_num),
    word_affine k.val kj 128 (by have := k.isLt; omega) (by omega) (by norm_num),
    sge_bit _ _ (by have := r.isLt; omega) (by have := k.isLt; omega)]
  by_cases hle : kj * 128 + k.val ≤ qi * 64 + r.val
  · rw [if_pos hle, if_pos hle, select_one]
    rfl
  · rw [if_neg hle, if_neg hle, select_zero]

end Cert.KernelIdeal.PayloadAt

end
-- ==== Proof.PayloadAt.lean ====
/- The two kernels' stored values read at an index, over the extended reals: the first kernel's three
   products, the attention kernel's running-softmax values and its score tile. -/
import proofs.«152301_j13073880449825_2_alg».proof.Proof.PayloadPre
import proofs.«152301_j13073880449825_2_alg».proof.Proof.PayloadAttn
import proofs.«152301_j13073880449825_2_alg».proof.Proof.PayloadScore
-- ==== Proof.AttnStep.lean ====
/-
  One key tile's step of the running softmax, read at a row: if the scratch holds, at row r and column h, the summary
  (maximum, denominator, numerator) of the keys of a set J for the row's masked scores w and the column's values v,
  and the tile's scores and values are w and v at 128 further keys, then what the body stores is the summary of J with
  those keys added. Also the sets of keys seen after each key tile: a prefix of whole tiles.
-/
import proofs.«152301_j13073880449825_2_alg».proof.Proof.PayloadAt
import proofs.«152301_j13073880449825_2_alg».proof.Proof.OnlineMasked

noncomputable section

open scoped BigOperators

namespace Cert.KernelIdeal.Attn

open Cert.KernelIdeal Cert.KernelIdeal.Gen Idealize.ShloMosaic Idealize.ShloMosaic.ValueIdx OnlineMasked

/-- The summary after a tile, from the summary before it. -/
theorem step_summ (w v : Fin 512 → EReal) (hw : ∀ j, w j = ⊥ ∨ ∃ x : ℝ, w j = (x : EReal)) (hv : ∀ j, ∃ x : ℝ, v j = (x : EReal))
    (J : Finset (Fin 512)) (e : Fin 128 → Fin 512) (he : Function.Injective e) (hdisj : ∀ k, e k ∉ J)
    (S : FVec Ideal S64x128 .f32) (mm ll : Vec Ideal S64x1 .f32) (acc : Vec Ideal S64x64 .f32) (xv : Vec Ideal S1x128x64 .f32)
    (r : Fin 64) (h : Fin 64)
    (hS : ∀ k, S (ix2 r k) = w (e k)) (hxv : ∀ k, xv (ix3 0 k h) = v (e k))
    (hprev : SummE w v J (mm (ix2 r (0 : Fin 1))) (ll (ix2 r (0 : Fin 1))) (acc (ix2 r h)))
    (hreal : ∃ x : ℝ, max (mm (ix2 r (0 : Fin 1))) (Finset.univ.sup fun k => w (e k)) = (x : EReal)) :
    SummE w v (J ∪ Finset.univ.image e) (k1_pay9 (F := Ideal) S mm (ix2 r (0 : Fin 1))) (k1_pay7 (F := Ideal) S mm ll (ix2 r (0 : Fin 1)))
        (k1_pay8 (F := Ideal) S mm xv acc (ix2 r h))
      ∧ ∃ x : ℝ, k1_pay9 (F := Ideal) S mm (ix2 r (0 : Fin 1)) = (x : EReal) := by
  have h4 : k1_pay4 (F := Ideal) S mm (ix2 r (0 : Fin 1)) = max (mm (ix2 r (0 : Fin 1))) (Finset.univ.sup fun k => w (e k)) := by
    rw [PayloadAt.k1_pay4_at]; simp only [hS]
  have hstep := summE_step w v hw hv J e he hdisj hprev hreal
  refine ⟨?_, ?_⟩
  · rw [PayloadAt.k1_pay9_at, PayloadAt.k1_pay7_at, PayloadAt.k1_pay8_at, PayloadAt.k1_pay5_at]
    simp only [PayloadAt.k1_pay6_at, h4, hS, hxv]
    exact hstep
  · rw [PayloadAt.k1_pay9_at, h4]; exact hreal

/-- The keys of the first `n` tiles. -/
def firstTiles (n : ℕ) : Finset (Fin 512) := Finset.univ.filter fun j => j.val < 128 * n

/-- Key `k` of tile `kj`. -/
def kcol (kj : ℕ) (hk : kj < 4) (k : Fin 128) : Fin 512 := ⟨kj * 128 + k.val, by have := k.isLt; omega⟩

theorem kcol_inj (kj : ℕ) (hk : kj < 4) : Function.Injective (kcol kj hk) := by
  intro a b hab
  have : (kcol kj hk a).val = (kcol kj hk b).val := congrArg Fin.val hab
  apply Fin.ext
  simp only [kcol] at this
  omega

theorem kcol_notMem (kj : ℕ) (hk : kj < 4) (k : Fin 128) : kcol kj hk k ∉ firstTiles kj := by
  simp only [firstTiles, Finset.mem_filter, Finset.mem_univ, true_and, kcol]
  omega

theorem firstTiles_succ (kj : ℕ) (hk : kj < 4) : firstTiles kj ∪ Finset.univ.image (kcol kj hk) = firstTiles (kj + 1) := by
  ext j
  simp only [firstTiles, Finset.mem_union, Finset.mem_filter, Finset.mem_univ, true_and, Finset.mem_image, kcol]
  constructor
  · rintro (hj | ⟨k, rfl⟩)
    · omega
    · have := k.isLt; show kj * 128 + k.val < 128 * (kj + 1); omega
  · intro hj
    by_cases hlt : j.val < 128 * kj
    · exact Or.inl hlt
    · refine Or.inr ⟨⟨j.val - kj * 128, by omega⟩, ?_⟩
      apply Fin.ext
      show kj * 128 + (j.val - kj * 128) = j.val
      omega

theorem firstTiles_zero : firstTiles 0 = ∅ := by
  ext j; simp [firstTiles]

end Cert.KernelIdeal.Attn

end
-- ==== Proof.AttnInv.lean ====
/-
  The running state of the second region is the running softmax. For a point (batch b, query tile qi, key tile kj) and
  a row r of the query tile — query i = 64 qi + r — the three scratch buffers hold at row r the maximum, the sum of
  exponentials and the exponential-weighted sum of values over the keys of the key tiles seen so far: tiles 0 … kj
  while they meet the causal triangle, all of those that do afterwards. The tile of scores the body computes is the
  reference's masked score at (i, 128 kj + k). By induction on the point.
-/
import proofs.«152301_j13073880449825_2_alg».proof.Proof.MainRun
import proofs.«152301_j13073880449825_2_alg».proof.Proof.BlockReads
import proofs.«152301_j13073880449825_2_alg».proof.Proof.PieceVals
import proofs.«152301_j13073880449825_2_alg».proof.Proof.AttnStep

set_option maxRecDepth 16384

noncomputable section

open scoped BigOperators

namespace Cert.KernelIdeal.Attn

open Cert.KernelIdeal Cert.KernelIdeal.Gen Cert.KernelIdeal.Run Idealize.ShloMosaic Idealize.ShloMosaic.TcCoe Idealize.ShloMosaic.ValueIdx OnlineMasked
open Idealize.SL.Sem
open Idealize.ShloMosaic.Pipeline (Dat)

variable (m : (ℓ : Loc nD τ sig) → Buf (Elt Ideal) ℓ) (c : Dev nD)

/-- The seven argument arrays as launched. -/
abbrev g0 : Spec.A3 4 512 128 := m ((c : Thread nD τ).loc main_arg0)
abbrev g1 : Spec.A2 512 128 := m ((c : Thread nD τ).loc main_arg1)
abbrev g2 : Spec.A2 256 128 := m ((c : Thread nD τ).loc main_arg2)
abbrev g3 : Spec.A1 128 := m ((c : Thread nD τ).loc main_arg3)
abbrev g4 : Spec.A2 128 1 := m ((c : Thread nD τ).loc main_arg4)
abbrev g5 : Spec.A1 1 := m ((c : Thread nD τ).loc main_arg5)
abbrev g6 : Spec.A2 128 64 := m ((c : Thread nD τ).loc main_arg6)

/-- The masked scores of query (b, i) against every key, and column h of the values. -/
abbrev wrow (b : Fin 4) (i : Fin 512) : Fin 512 → EReal := fun j => Spec.w (g0 m c) (g1 m c) (g2 m c) (g3 m c) (g4 m c) (g5 m c) b i j
abbrev vcol (b : Fin 4) (h : Fin 64) : Fin 512 → EReal := fun j => Spec.v (g0 m c) (g6 m c) b j h

/-- What the second region finds in its operand arrays: the first region's three projections and the reshaped
    bias, second-layer weight and second-layer bias. -/
structure Entry : Prop where
  aq : ∀ (b : Fin 4) (t : Fin 512) (d : Fin 128), V3 m c main_v2_0 (ix3 b t d) = Spec.Aq (g0 m c) (g1 m c) (g2 m c) b t d
  akT : ∀ (b : Fin 4) (d : Fin 128) (t : Fin 512), V3 m c main_v2_1 (ix3 b d t) = Spec.Ak (g0 m c) (g1 m c) (g2 m c) b t d
  vv : ∀ (b : Fin 4) (t : Fin 512) (h : Fin 64), V3 m c main_v2_2 (ix3 b t h) = Spec.v (g0 m c) (g6 m c) b t h
  b1 : ∀ cc : Fin 128, V3 m c main_v3 (ix2 0 cc) = g3 m c (ix1 cc)
  w2 : ∀ cc : Fin 128, V3 m c main_v5 (ix2 0 cc) = g4 m c (ix2 cc 0)
  b2 : V3 m c main_v6 (ix2 0 0) = g5 m c (ix1 0)

/-- The scores are real where unmasked, the values real, and key 0 is never masked. -/
structure Reals : Prop where
  hw : ∀ (b : Fin 4) (i j : Fin 512), wrow m c b i j = ⊥ ∨ ∃ x : ℝ, wrow m c b i j = (x : EReal)
  hv : ∀ (b : Fin 4) (h : Fin 64) (j : Fin 512), ∃ x : ℝ, vcol m c b h j = (x : EReal)
  h0 : ∀ (b : Fin 4) (i : Fin 512), ∃ x : ℝ, wrow m c b i 0 = (x : EReal)

/-- The tile of scores the body computes at point `t`. -/
abbrev tile (t : Fin cfg1.N) : FVec Ideal S64x128 .f32 :=
  k1_pay11 (F := Ideal) (BitVec.ofNat 32 ((grid1.coords t) 1).val) (BitVec.ofNat 32 ((grid1.coords t) 2).val)
    (iblk1 (V3 m) c 0 t) (iblk1 (V3 m) c 1 t) (iblk1 (V3 m) c 3 t) (iblk1 (V3 m) c 4 t) (iblk1 (V3 m) c 5 t)

/-- It is the reference's masked score of query 64 qi + r against key 128 kj + k. -/
theorem tile_at (E : Entry m c) (t : Fin cfg1.N) (r : Fin 64) (k : Fin 128) (bb : Fin 4) (ii jj : Fin 512)
    (hb : bb.val = t.val / 32) (hi : ii.val = (t.val / 4) % 8 * 64 + r.val) (hj : jj.val = t.val % 4 * 128 + k.val) :
    tile m c t (ix2 r k) = wrow m c bb ii jj := by
  have hI := idx1 t
  have hq : ((grid1.coords t) 1).val = (t.val / 4) % 8 := hI.2.2.2.2.2.2.2.2.2.2.2.2.2.2.2.2.2.2.1
  have hk : ((grid1.coords t) 2).val = t.val % 4 := hI.2.2.2.2.2.2.2.2.2.2.2.2.2.2.2.2.2.2.2.1
  have hN : t.val < 128 := hI.2.2.2.2.2.2.2.2.2.2.2.2.2.2.2.2.2.2.2.2
  show k1_pay11 (F := Ideal) (BitVec.ofNat 32 ((grid1.coords t) 1).val) (BitVec.ofNat 32 ((grid1.coords t) 2).val) _ _ _ _ _ (ix2 r k) = _
  rw [hq, hk, PayloadAt.k1_pay11_at ((t.val / 4) % 8) (t.val % 4) (by omega) (by omega)]
  simp only [fun cc => iblk1_0_at (V3 m) c t r cc bb ii hb hi, fun cc => iblk1_1_at (V3 m) c t cc k bb jj hb hj,
    iblk1_3_at (V3 m) c t, iblk1_4_at (V3 m) c t, iblk1_5_at (V3 m) c t, E.aq, E.akT, E.b1, E.w2, E.b2]
  show _ = Spec.w (g0 m c) (g1 m c) (g2 m c) (g3 m c) (g4 m c) (g5 m c) bb ii jj
  unfold Spec.w Spec.s Spec.hid
  have hle : (t.val % 4 * 128 + k.val ≤ (t.val / 4) % 8 * 64 + r.val) ↔ jj ≤ ii := by
    rw [Fin.le_def, hi, hj]
  by_cases hc : jj ≤ ii
  · rw [if_pos (hle.mpr hc), if_pos hc]
  · rw [if_neg (fun h => hc (hle.mp h)), if_neg hc]

/-! ## The state after each kind of point, in terms of the body's arithmetic -/

theorem sA_eq (t : Fin cfg1.N) (h0 : cond1_0 (grid1.coords t)) (h1 : cond1_1 (grid1.coords t)) (h2 : ¬cond1_2 (grid1.coords t)) :
    sA (V3 m) c t h0 h1 h2 = (k1_pay9 (tile m c t) (k1_pay1 (F := Ideal)), k1_pay7 (tile m c t) (k1_pay1 (F := Ideal)) (k1_pay2 (F := Ideal)),
      k1_pay8 (tile m c t) (k1_pay1 (F := Ideal)) (iblk1 (V3 m) c 2 t) (k1_pay3 (F := Ideal))) := by
  unfold sA; rw [val1_A_LS0_eq, val1_A_LS1_eq, val1_A_LS2_eq]

theorem sB_eq (t : Fin cfg1.N) (h0 : ¬cond1_0 (grid1.coords t)) (h1 : cond1_1 (grid1.coords t)) (h2 : ¬cond1_2 (grid1.coords t)) (s : St Ideal) :
    sB (V3 m) c t h0 h1 h2 s = (k1_pay9 (tile m c t) s.1, k1_pay7 (tile m c t) s.1 s.2.1,
      k1_pay8 (tile m c t) s.1 (iblk1 (V3 m) c 2 t) s.2.2) := by
  unfold sB; rw [val1_B_LS0_eq, val1_B_LS1_eq, val1_B_LS2_eq]

theorem sD_eq (t : Fin cfg1.N) (h0 : ¬cond1_0 (grid1.coords t)) (h1 : cond1_1 (grid1.coords t)) (h2 : cond1_2 (grid1.coords t)) (s : St Ideal) :
    sD (V3 m) c t h0 h1 h2 s = (k1_pay9 (tile m c t) s.1, k1_pay7 (tile m c t) s.1 s.2.1,
      k1_pay8 (tile m c t) s.1 (iblk1 (V3 m) c 2 t) s.2.2) := by
  unfold sD; rw [val1_D_LS0_eq, val1_D_LS1_eq, val1_D_LS2_eq]

theorem oD_eq (t : Fin cfg1.N) (h0 : ¬cond1_0 (grid1.coords t)) (h1 : cond1_1 (grid1.coords t)) (h2 : cond1_2 (grid1.coords t)) (s : St Ideal) :
    oD (V3 m) c t h0 h1 h2 s = k1_pay10 (sD (V3 m) c t h0 h1 h2 s).2.2 (sD (V3 m) c t h0 h1 h2 s).2.1 := by
  rw [sD_eq]; unfold oD; rw [val1_D_L6_eq]

theorem oE_eq (t : Fin cfg1.N) (h0 : ¬cond1_0 (grid1.coords t)) (h1 : ¬cond1_1 (grid1.coords t)) (h2 : cond1_2 (grid1.coords t)) (s : St Ideal) :
    oE (V3 m) c t h0 h1 h2 s = k1_pay10 s.2.2 s.2.1 := by
  unfold oE; rw [val1_E_L6_eq]

/-! ## One tile's step at a point -/

/-- If the scratch holds the summary of the first kj tiles, after the body's step at a point of key tile kj it holds
    the summary of the first kj + 1. -/
theorem tile_step (E : Entry m c) (R : Reals m c) (t : Fin cfg1.N) (mm ll : Vec Ideal S64x1 .f32) (acc : Vec Ideal S64x64 .f32)
    (r h : Fin 64) (bb : Fin 4) (ii : Fin 512) (hb : bb.val = t.val / 32) (hi : ii.val = (t.val / 4) % 8 * 64 + r.val)
    (hprev : SummE (wrow m c bb ii) (vcol m c bb h) (firstTiles (t.val % 4)) (mm (ix2 r (0 : Fin 1))) (ll (ix2 r (0 : Fin 1))) (acc (ix2 r h)))
    (hreal : ∃ x : ℝ, max (mm (ix2 r (0 : Fin 1))) (Finset.univ.sup fun k => wrow m c bb ii (kcol (t.val % 4) (Nat.mod_lt _ (by omega)) k)) = (x : EReal)) :
    SummE (wrow m c bb ii) (vcol m c bb h) (firstTiles (t.val % 4 + 1)) (k1_pay9 (F := Ideal) (tile m c t) mm (ix2 r (0 : Fin 1)))
        (k1_pay7 (F := Ideal) (tile m c t) mm ll (ix2 r (0 : Fin 1))) (k1_pay8 (F := Ideal) (tile m c t) mm (iblk1 (V3 m) c 2 t) acc (ix2 r h))
      ∧ ∃ x : ℝ, k1_pay9 (F := Ideal) (tile m c t) mm (ix2 r (0 : Fin 1)) = (x : EReal) := by
  have hk : t.val % 4 < 4 := Nat.mod_lt _ (by omega)
  rw [← firstTiles_succ (t.val % 4) hk]
  refine step_summ (wrow m c bb ii) (vcol m c bb h) (R.hw bb ii) (R.hv bb h) (firstTiles (t.val % 4)) (kcol (t.val % 4) hk)
    (kcol_inj _ hk) (kcol_notMem _ hk) (tile m c t) mm ll acc (iblk1 (V3 m) c 2 t) r h ?_ ?_ hprev hreal
  · intro k
    exact tile_at m c E t r k bb ii (kcol (t.val % 4) hk k) hb hi rfl
  · intro k
    exact (iblk1_2_at (V3 m) c t k h bb (kcol (t.val % 4) hk k) hb rfl).trans (E.vv bb _ h)

/-! ## The invariant -/

/-- The number of key tiles seen after the point at position `n`. -/
def seen (n : ℕ) : ℕ := min (n % 4 + 1) (((n / 4) % 8 + 2) / 2)

/-- After the point at position `n` the scratch holds, row by row, the summary of the tiles seen, and the maximum is real. -/
def Inv (n : ℕ) (s : St Ideal) : Prop :=
  ∀ (r h : Fin 64) (bb : Fin 4) (ii : Fin 512), bb.val = n / 32 → ii.val = (n / 4) % 8 * 64 + r.val →
    SummE (wrow m c bb ii) (vcol m c bb h) (firstTiles (seen n)) (s.1 (ix2 r (0 : Fin 1))) (s.2.1 (ix2 r (0 : Fin 1))) (s.2.2 (ix2 r h))
      ∧ ∃ x : ℝ, s.1 (ix2 r (0 : Fin 1)) = (x : EReal)

theorem kcol_zero : kcol 0 (by omega) (0 : Fin 128) = (0 : Fin 512) := Fin.ext rfl

theorem inv (E : Entry m c) (R : Reals m c) : ∀ (n : ℕ) (hn : n < cfg1.N), Inv m c n (stAt (V3 m) c n hn) := by
  intro n
  induction n with
  | zero =>
    intro hn r h bb ii hb hi
    have e := stAt_A (V3 m) c ⟨0, hn⟩ (Nat.zero_mod _) ((hcond1_1 ⟨0, hn⟩).mpr (by show (0 % 4) * 2 < (0 / 4) % 8 + 1; decide))
      (fun hh => absurd ((hcond1_2 ⟨0, hn⟩).mp hh) (by show ¬ (0 % 4 = 3); decide))
    rw [show stAt (V3 m) c 0 hn = _ from e, sA_eq]
    have hst := tile_step m c E R ⟨0, hn⟩ (k1_pay1 (F := Ideal)) (k1_pay2 (F := Ideal)) (k1_pay3 (F := Ideal)) r h bb ii hb hi
      (by rw [PayloadAt.k1_pay1_at, PayloadAt.k1_pay2_at, PayloadAt.k1_pay3_at]; show SummE _ _ (firstTiles 0) _ _ _; rw [firstTiles_zero]; exact summE_empty _ _)
      (by
        rw [PayloadAt.k1_pay1_at]
        obtain ⟨x, hx⟩ := sup_real_of_mem (fun k => wrow m c bb ii (kcol ((⟨0, hn⟩ : Fin cfg1.N).val % 4) (Nat.mod_lt _ (by omega)) k)) (fun k => R.hw bb ii _) Finset.univ
          (Finset.mem_univ (0 : Fin 128)) (by show ∃ x : ℝ, wrow m c bb ii (kcol 0 _ 0) = x; rw [kcol_zero]; exact R.h0 bb ii)
        exact ⟨x, by rw [hx]; exact max_eq_right bot_le⟩)
    exact hst
  | succ k ih =>
    intro hn r h bb ii hb hi
    have hN : k + 1 < 128 := lt_of_lt_of_eq hn N_1
    have ih' := ih (Nat.lt_of_succ_lt hn)
    by_cases h0 : (k + 1) % 4 = 0
    · have h1 : ((k + 1) % 4) * 2 < ((k + 1) / 4) % 8 + 1 := by omega
      have h2 : ¬(k + 1) % 4 = 3 := by omega
      have e := stAt_A (V3 m) c ⟨k + 1, hn⟩ h0 ((hcond1_1 ⟨k + 1, hn⟩).mpr h1) (fun hh => h2 ((hcond1_2 ⟨k + 1, hn⟩).mp hh))
      rw [show stAt (V3 m) c (k + 1) hn = _ from e, sA_eq]
      have hs : seen (k + 1) = (k + 1) % 4 + 1 := by unfold seen; omega
      rw [hs]
      refine tile_step m c E R ⟨k + 1, hn⟩ (k1_pay1 (F := Ideal)) (k1_pay2 (F := Ideal)) (k1_pay3 (F := Ideal)) r h bb ii hb hi ?_ ?_
      · rw [PayloadAt.k1_pay1_at, PayloadAt.k1_pay2_at, PayloadAt.k1_pay3_at]
        show SummE _ _ (firstTiles ((k + 1) % 4)) _ _ _
        rw [h0, firstTiles_zero]; exact summE_empty _ _
      · rw [PayloadAt.k1_pay1_at]
        have hk0 : ((⟨k + 1, hn⟩ : Fin cfg1.N).val % 4) = 0 := h0
        obtain ⟨x, hx⟩ := sup_real_of_mem (fun kk => wrow m c bb ii (kcol ((⟨k + 1, hn⟩ : Fin cfg1.N).val % 4) (Nat.mod_lt _ (by omega)) kk)) (fun kk => R.hw bb ii _) Finset.univ
          (Finset.mem_univ (0 : Fin 128)) (by
            have : kcol ((⟨k + 1, hn⟩ : Fin cfg1.N).val % 4) (Nat.mod_lt _ (by omega)) (0 : Fin 128) = (0 : Fin 512) := by
              apply Fin.ext; show (k + 1) % 4 * 128 + 0 = 0; omega
            show ∃ x : ℝ, wrow m c bb ii (kcol _ _ 0) = x
            rw [this]; exact R.h0 bb ii)
        exact ⟨x, by rw [hx]; exact max_eq_right bot_le⟩
    · have hbk : bb.val = k / 32 := by omega
      have hik : ii.val = (k / 4) % 8 * 64 + r.val := by omega
      obtain ⟨hS, x, hx⟩ := ih' r h bb ii hbk hik
      by_cases h1 : ((k + 1) % 4) * 2 < ((k + 1) / 4) % 8 + 1
      · have hsk : seen k = (k + 1) % 4 := by unfold seen; omega
        have hs : seen (k + 1) = (k + 1) % 4 + 1 := by unfold seen; omega
        rw [hsk] at hS
        have hreal : ∃ y : ℝ, max ((stAt (V3 m) c k (Nat.lt_of_succ_lt hn)).1 (ix2 r (0 : Fin 1)))
            (Finset.univ.sup fun kk => wrow m c bb ii (kcol ((⟨k + 1, hn⟩ : Fin cfg1.N).val % 4) (Nat.mod_lt _ (by omega)) kk)) = (y : EReal) := by
          rw [hx]; exact max_real_left x (sup_bot_or_real _ (fun kk => R.hw bb ii _) Finset.univ)
        by_cases h2 : (k + 1) % 4 = 3
        · have e := stAt_D (V3 m) c ⟨k + 1, hn⟩ h0 h1 h2
          rw [show stAt (V3 m) c (k + 1) hn = _ from e, sD_eq, hs]
          exact tile_step m c E R ⟨k + 1, hn⟩ _ _ _ r h bb ii hb hi hS hreal
        · have e := stAt_B (V3 m) c ⟨k + 1, hn⟩ h0 h1 h2
          rw [show stAt (V3 m) c (k + 1) hn = _ from e, sB_eq, hs]
          exact tile_step m c E R ⟨k + 1, hn⟩ _ _ _ r h bb ii hb hi hS hreal
      · have e := stAt_keep (V3 m) c ⟨k + 1, hn⟩ h0 h1
        rw [show stAt (V3 m) c (k + 1) hn = _ from e]
        have hs : seen (k + 1) = seen k := by unfold seen; omega
        rw [hs]
        exact ⟨hS, x, hx⟩

end Cert.KernelIdeal.Attn

end
-- ==== Proof.AttnFinal.lean ====
/-
  The result array. At the last key tile of each (batch, query tile) the body writes numerator / denominator of the
  running state, which by then summarises every key tile that meets the causal triangle; the keys of the other tiles
  are all masked for the rows of this query tile, so the quotient is the reference's softmax-weighted sum of values.
  The 32 written blocks tile the result array.
-/
import proofs.«152301_j13073880449825_2_alg».proof.Proof.AttnInv
import proofs.«152301_j13073880449825_2_alg».proof.Proof.RegionAttn

set_option maxRecDepth 16384

noncomputable section

open scoped BigOperators

namespace Cert.KernelIdeal.Attn

open Cert.KernelIdeal Cert.KernelIdeal.Gen Cert.KernelIdeal.Run Idealize.ShloMosaic Idealize.ShloMosaic.TcCoe Idealize.ShloMosaic.ValueIdx OnlineMasked
open Idealize.SL.Sem
open Idealize.ShloMosaic.Pipeline (Dat)

variable (m : (ℓ : Loc nD τ sig) → Buf (Elt Ideal) ℓ) (c : Dev nD)

/-- The specification's output of the launched arguments, as contents of the result buffer. -/
abbrev G : Buf (Elt Ideal) ((c : Thread nD τ).loc main_v7) :=
  Spec.out (g0 m c) (g1 m c) (g2 m c) (g3 m c) (g4 m c) (g5 m c) (g6 m c)

/-- At a last key tile the output block is numerator / denominator of the state after the point. -/
theorem outAt_eq (t : Fin cfg1.N) (h2 : t.val % 4 = 3) :
    outAt (V3 m) c t.val t.isLt = k1_pay10 (stAt (V3 m) c t.val t.isLt).2.2 (stAt (V3 m) c t.val t.isLt).2.1 := by
  have h0 : ¬t.val % 4 = 0 := by omega
  have hc0 : ¬cond1_0 (grid1.coords t) := fun hh => h0 ((hcond1_0 t).mp hh)
  by_cases h1 : (t.val % 4) * 2 < (t.val / 4) % 8 + 1
  · rw [outAt_D (V3 m) c t hc0 h1 h2, stAt_D (V3 m) c t h0 h1 h2, oD_eq]
  · rw [outAt_E (V3 m) c t hc0 h1 h2, stAt_keep (V3 m) c t h0 h1, oE_eq]

/-- What a last key tile's point writes back is its block of the specification's output. -/
theorem flushed6 (E : Entry m c) (R : Reals m c) (t : Fin cfg1.N) (hf : (cfg1.win 6).flush t = true) :
    (dat1 (V3 m) c).flushed 6 t = ((cfg1.win 6).blk t).view.read (Elt Ideal) (G m c) := by
  have h2 : t.val % 4 = 3 := (flush1_6 t).mp hf
  have hN : t.val < 128 := lt_of_lt_of_eq t.isLt N_1
  show (cfg1.win 6).cut (grid1.coords t) ((dat1 (V3 m) c).after 6 t) = _
  rw [after1_6, outAt_eq m c t h2]
  funext y
  obtain ⟨r, h, rfl⟩ : ∃ (r : Fin 64) (h : Fin 64), y = ix3 (0 : Fin 1) r h :=
    ⟨y 1, y 2, by
      funext a
      match a with
      | ⟨0, _⟩ => exact Fin.ext (by have h0 : (y 0).val < 1 := (y 0).isLt; show (y 0).val = 0; omega)
      | ⟨1, _⟩ => rfl
      | ⟨2, _⟩ => rfl⟩
  have hbb : t.val / 32 < 4 := by omega
  have hii : (t.val / 4) % 8 * 64 + r.val < 512 := by have := r.isLt; omega
  let bb : Fin 4 := ⟨t.val / 32, hbb⟩
  let ii : Fin 512 := ⟨(t.val / 4) % 8 * 64 + r.val, hii⟩
  rw [blk1_6_read c t (G m c) r h bb ii rfl rfl]
  show k1_pay10 (F := Ideal) _ _ (ix3 (0 : Fin 1) r h) = Spec.out3 (g0 m c) (g1 m c) (g2 m c) (g3 m c) (g4 m c) (g5 m c) (g6 m c) bb ii h
  rw [PayloadAt.k1_pay10_at]
  obtain ⟨hS, hmr⟩ := inv m c E R t.val t.isLt r h bb ii rfl rfl
  refine Spec.div_eq_out3 (g0 m c) (g1 m c) (g2 m c) (g3 m c) (g4 m c) (g5 m c) (g6 m c) bb ii h (firstTiles (seen t.val)) hS
    (R.hw bb ii) (R.hv bb h) hmr ?_
  intro j hj
  have hj' : ¬ j.val < 128 * seen t.val := by
    simpa [firstTiles] using hj
  have hlt : ii < j := by
    rw [Fin.lt_def]
    show (t.val / 4) % 8 * 64 + r.val < j.val
    have := r.isLt
    unfold seen at hj'
    omega
  show Spec.w _ _ _ _ _ _ bb ii j = ⊥
  unfold Spec.w
  exact if_neg (not_le.mpr hlt)

/-- An entry of the result array is in a point's block iff each coordinate is in the block's range. -/
theorem mem_blk6 (t : Fin cfg1.N) (i : S4x512x64.Idx) :
    i ∈ ((cfg1.win 6).blk t).view.set ↔ ∀ a : Fin 3, win1_6.index t a * S1x64x64.size a ≤ (i a).val ∧ (i a).val < win1_6.index t a * S1x64x64.size a + S1x64x64.size a := by
  show i ∈ ((View.whole main_v7).slice (win1_6.rect t)).set ↔ _
  rw [View.set_slice_whole, Rect.mem_set_unit]
  exact Iff.rfl

/-- THE RESULT ARRAY after the second region: the specification's output of the launched arguments. -/
theorem final6 (E : Entry m c) (R : Reals m c) : (dat1 (V3 m) c).arrAt 6 cfg1.N = G m c :=
  (dat1 (V3 m) c).arrAt_eq_of_cover 6 (G m c) (flushed6 m c E R) fun i => by
    have h0 : (i 0).val < 4 := (i 0).isLt
    have h1 : (i 1).val < 512 := (i 1).isLt
    have h2 : (i 2).val < 64 := (i 2).isLt
    have hN : cfg1.N = 128 := N_1
    let t : Fin cfg1.N := ⟨((i 0).val * 8 + (i 1).val / 64) * 4 + 3, by rw [hN]; omega⟩
    have hI := idx1 t
    refine ⟨t, (flush1_6 t).mpr (by show (((i 0).val * 8 + (i 1).val / 64) * 4 + 3) % 4 = 3; omega), ?_⟩
    rw [mem_blk6]
    obtain ⟨-, -, -, -, -, -, -, -, -, -, -, -, -, -, -, e0, e1, e2, -⟩ := hI
    have tv : t.val = ((i 0).val * 8 + (i 1).val / 64) * 4 + 3 := rfl
    intro a
    match a with
    | ⟨0, _⟩ => show win1_6.index t (0 : Fin 3) * 1 ≤ (i 0).val ∧ (i 0).val < win1_6.index t (0 : Fin 3) * 1 + 1; rw [e0, tv]; omega
    | ⟨1, _⟩ => show win1_6.index t (1 : Fin 3) * 64 ≤ (i 1).val ∧ (i 1).val < win1_6.index t (1 : Fin 3) * 64 + 64; rw [e1, tv]; omega
    | ⟨2, _⟩ => show win1_6.index t (2 : Fin 3) * 64 ≤ (i 2).val ∧ (i 2).val < win1_6.index t (2 : Fin 3) * 64 + 64; rw [e2]; omega

/-- THE KERNEL'S RUN, READ: the result buffer ends at the specification's output of the launched arguments, the seven
    arguments as launched. -/
theorem run_spec (E : ∀ c, Entry m c) (R : ∀ c, Reals m c) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (final6 m c (E c) (R c)), (h c).2⟩) (run_value (F := Ideal) m ρ)

end Cert.KernelIdeal.Attn

end
-- ==== Proof.KernelArraysA.lean ====
/- The arrays the first kernel region finds: the input, the position embedding and the value weight as
   launched (no host operation before the region writes them), and the two halves of the first-layer weight,
   each a slice of the launched weight, read at an index. -/
import proofs.«152301_j13073880449825_2_alg».proof.Proof.MainRun
import proofs.«152301_j13073880449825_2_alg».proof.Proof.Spec
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.Value

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (c : Dev nD)

/-- The seven argument arrays of the launch memory on core `c`. -/
abbrev a0 : Buf (Elt Ideal) ((c : Thread nD τ).loc main_arg0) := m ((c : Thread nD τ).loc main_arg0)
abbrev a1 : Buf (Elt Ideal) ((c : Thread nD τ).loc main_arg1) := m ((c : Thread nD τ).loc main_arg1)
abbrev a2 : Buf (Elt Ideal) ((c : Thread nD τ).loc main_arg2) := m ((c : Thread nD τ).loc main_arg2)
abbrev a3 : Buf (Elt Ideal) ((c : Thread nD τ).loc main_arg3) := m ((c : Thread nD τ).loc main_arg3)
abbrev a4 : Buf (Elt Ideal) ((c : Thread nD τ).loc main_arg4) := m ((c : Thread nD τ).loc main_arg4)
abbrev a5 : Buf (Elt Ideal) ((c : Thread nD τ).loc main_arg5) := m ((c : Thread nD τ).loc main_arg5)
abbrev a6 : Buf (Elt Ideal) ((c : Thread nD τ).loc main_arg6) := m ((c : Thread nD τ).loc main_arg6)

/-- The input is as launched when the first region is entered. -/
theorem V1_arg0 : Run.V1 m c main_arg0 = a0 m c :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-- The position embedding is as launched when the first region is entered. -/
theorem V1_arg1 : Run.V1 m c main_arg1 = a1 m c :=
  StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-- The value weight is as launched when the first region is entered. -/
theorem V1_arg6 : Run.V1 m c main_arg6 = a6 m c :=
  StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-- The query half of the first-layer weight is the slice of the launched weight from row 128. -/
theorem V1_v1_eq : (Run.V1 m c main_v1 : S128x128.Idx → EReal)
    = extractStridedSlice S128x128 ![128, 0] (a2 m c) slices_S256x128_S128x128_128_0 := by
  show StableHlo.after hostOps0 (fun b => m ((c : Dev nD), b)) (Proc.devRef .tc main_v1) = _
  after_results

/-- The key half of the first-layer weight is the slice of the launched weight from row 0. -/
theorem V1_v0_eq : (Run.V1 m c main_v0 : S128x128.Idx → EReal)
    = extractStridedSlice S128x128 ![0, 0] (a2 m c) slices_S256x128_S128x128_0_0 := by
  show StableHlo.after hostOps0 (fun b => m ((c : Dev nD), b)) (Proc.devRef .tc main_v0) = _
  after_results

/-- The query half at an index. -/
theorem V1_v1 (cc d : Fin 128) : Run.V1 m c main_v1 (ix2 cc d) = a2 m c (ix2 (Spec.hi cc) d) := by
  have h := congrFun (V1_v1_eq m c) (ix2 cc d)
  refine h.trans ?_
  exact extractStridedSlice_apply ![128, 0] (a2 m c) slices_S256x128_S128x128_128_0 (ix2 cc d) (ix2 (Spec.hi cc) d)
    (fun a => match a with
      | ⟨0, _⟩ => rfl
      | ⟨1, _⟩ => (Nat.zero_add _).symm)

/-- The key half at an index. -/
theorem V1_v0 (cc d : Fin 128) : Run.V1 m c main_v0 (ix2 cc d) = a2 m c (ix2 (Spec.lo cc) d) := by
  have h := congrFun (V1_v0_eq m c) (ix2 cc d)
  refine h.trans ?_
  exact extractStridedSlice_apply ![0, 0] (a2 m c) slices_S256x128_S128x128_0_0 (ix2 cc d) (ix2 (Spec.lo cc) d)
    (fun a => match a with
      | ⟨0, _⟩ => (Nat.zero_add _).symm
      | ⟨1, _⟩ => (Nat.zero_add _).symm)

end Cert.KernelIdeal.Value

end
-- ==== Proof.KernelArraysB.lean ====
/- The first kernel region's three result arrays after the region: the query and key parts of the first
   layer (the key part stored transposed) and the value projection, each the specification's function of the
   launched arguments. Every grid point writes back one batch entry's block, and the four blocks tile each
   array. -/
import proofs.«152301_j13073880449825_2_alg».proof.Proof.MainRun
import proofs.«152301_j13073880449825_2_alg».proof.Proof.PieceVals
import proofs.«152301_j13073880449825_2_alg».proof.Proof.BlockReads
import proofs.«152301_j13073880449825_2_alg».proof.Proof.PayloadAt
import proofs.«152301_j13073880449825_2_alg».proof.Proof.Spec
import proofs.«152301_j13073880449825_2_alg».proof.Proof.KernelArraysA
import Idealize.ShloMosaic.Lib.Pipeline.Value
import Idealize.ShloMosaic.Lib.ValueIdx

set_option maxRecDepth 16384

noncomputable section

open scoped BigOperators

namespace Cert.KernelIdeal.Value

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (c : Dev nD)

/-- The query part of the first layer as an array over the batch. -/
def G5 : Buf (Elt Ideal) ((c : Thread nD τ).loc main_v2_0) :=
  fun i => Spec.Aq (a0 m c) (a1 m c) (a2 m c) (i 0) (i 1) (i 2)
/-- The key part of the first layer, transposed, as an array over the batch. -/
def G6 : Buf (Elt Ideal) ((c : Thread nD τ).loc main_v2_1) :=
  fun i => Spec.Ak (a0 m c) (a1 m c) (a2 m c) (i 0) (i 2) (i 1)
/-- The value projection as an array over the batch. -/
def G7 : Buf (Elt Ideal) ((c : Thread nD τ).loc main_v2_2) :=
  fun i => Spec.v (a0 m c) (a6 m c) (i 0) (i 1) (i 2)

/-- The batch entry a grid point of the first region works on. -/
def batchOf (t : Fin cfg0.N) : Fin 4 := ⟨t.val, by have h := idx0 t; omega⟩

theorem batchOf_val (t : Fin cfg0.N) : (batchOf t).val = t.val := rfl

/-- What point `t` writes back into the query array is block `t` of the query part. -/
theorem flushed5_eq (t : Fin cfg0.N) :
    (dat0 (Run.V1 m) c).flushed 5 t = ((cfg0.win 5).blk t).view.read (Elt Ideal) (G5 m c) := by
  show (cfg0.win 5).cut (grid0.coords t) ((dat0 (Run.V1 m) c).after 5 t) = _
  rw [after0_5, out0_5_eq]
  funext j
  obtain ⟨u, tt, d, rfl⟩ : ∃ (u : Fin 1) (tt : Fin 512) (d : Fin 128), j = ix3 u tt d := ⟨j 0, j 1, j 2, eq_ix3 j⟩
  obtain rfl : u = 0 := Subsingleton.elim _ _
  rw [blk0_5_read c t (G5 m c) tt d (batchOf t) (batchOf_val t)]
  show k0_pay3 (F := Ideal) (iblk0 (Run.V1 m) c 0 t) (iblk0 (Run.V1 m) c 1 t) (iblk0 (Run.V1 m) c 2 t) (ix3 0 tt d)
    = Spec.Aq (a0 m c) (a1 m c) (a2 m c) (batchOf t) tt d
  refine (PayloadAt.k0_pay3_at _ _ _ tt d).trans ?_
  unfold Spec.Aq Spec.x1
  refine Finset.sum_congr rfl fun cc _ => ?_
  rw [iblk0_0_at (Run.V1 m) c t tt cc (batchOf t) (batchOf_val t), iblk0_1_at (Run.V1 m) c t tt cc, iblk0_2_at (Run.V1 m) c t cc d,
    V1_arg0, V1_arg1, V1_v1, add_comm]

/-- What point `t` writes back into the transposed key array is block `t` of the key part. -/
theorem flushed6_eq (t : Fin cfg0.N) :
    (dat0 (Run.V1 m) c).flushed 6 t = ((cfg0.win 6).blk t).view.read (Elt Ideal) (G6 m c) := by
  show (cfg0.win 6).cut (grid0.coords t) ((dat0 (Run.V1 m) c).after 6 t) = _
  rw [after0_6, out0_6_eq]
  funext j
  obtain ⟨u, d, tt, rfl⟩ : ∃ (u : Fin 1) (d : Fin 128) (tt : Fin 512), j = ix3 u d tt := ⟨j 0, j 1, j 2, eq_ix3 j⟩
  obtain rfl : u = 0 := Subsingleton.elim _ _
  rw [blk0_6_read c t (G6 m c) tt d (batchOf t) (batchOf_val t)]
  show k0_pay4 (F := Ideal) (iblk0 (Run.V1 m) c 0 t) (iblk0 (Run.V1 m) c 1 t) (iblk0 (Run.V1 m) c 3 t) (ix3 0 d tt)
    = Spec.Ak (a0 m c) (a1 m c) (a2 m c) (batchOf t) tt d
  refine (PayloadAt.k0_pay4_at _ _ _ tt d).trans ?_
  unfold Spec.Ak Spec.x1
  refine Finset.sum_congr rfl fun cc _ => ?_
  rw [iblk0_0_at (Run.V1 m) c t tt cc (batchOf t) (batchOf_val t), iblk0_1_at (Run.V1 m) c t tt cc, iblk0_3_at (Run.V1 m) c t cc d,
    V1_arg0, V1_arg1, V1_v0, add_comm]

/-- What point `t` writes back into the value array is block `t` of the value projection. -/
theorem flushed7_eq (t : Fin cfg0.N) :
    (dat0 (Run.V1 m) c).flushed 7 t = ((cfg0.win 7).blk t).view.read (Elt Ideal) (G7 m c) := by
  show (cfg0.win 7).cut (grid0.coords t) ((dat0 (Run.V1 m) c).after 7 t) = _
  rw [after0_7, out0_7_eq]
  funext j
  obtain ⟨u, tt, h, rfl⟩ : ∃ (u : Fin 1) (tt : Fin 512) (h : Fin 64), j = ix3 u tt h := ⟨j 0, j 1, j 2, eq_ix3 j⟩
  obtain rfl : u = 0 := Subsingleton.elim _ _
  rw [blk0_7_read c t (G7 m c) tt h (batchOf t) (batchOf_val t)]
  show k0_pay5 (F := Ideal) (iblk0 (Run.V1 m) c 0 t) (iblk0 (Run.V1 m) c 4 t) (ix3 0 tt h)
    = Spec.v (a0 m c) (a6 m c) (batchOf t) tt h
  refine (PayloadAt.k0_pay5_at _ _ tt h).trans ?_
  unfold Spec.v
  refine Finset.sum_congr rfl fun cc _ => ?_
  rw [iblk0_0_at (Run.V1 m) c t tt cc (batchOf t) (batchOf_val t), iblk0_4_at (Run.V1 m) c t cc h, V1_arg0, V1_arg6]

/-! ## The four blocks tile each array -/

theorem mem_blk5 (t : Fin cfg0.N) (i : S4x512x128.Idx) :
    i ∈ ((cfg0.win 5).blk t).view.set ↔ ∀ a : Fin 3, win0_5.index t a * S1x512x128.size a ≤ (i a).val
      ∧ (i a).val < win0_5.index t a * S1x512x128.size a + S1x512x128.size a := by
  show i ∈ ((View.whole main_v2_0).slice (win0_5.rect t)).set ↔ _
  rw [View.set_slice_whole, Rect.mem_set_unit]
  exact Iff.rfl

theorem mem_blk6 (t : Fin cfg0.N) (i : S4x128x512.Idx) :
    i ∈ ((cfg0.win 6).blk t).view.set ↔ ∀ a : Fin 3, win0_6.index t a * S1x128x512.size a ≤ (i a).val
      ∧ (i a).val < win0_6.index t a * S1x128x512.size a + S1x128x512.size a := by
  show i ∈ ((View.whole main_v2_1).slice (win0_6.rect t)).set ↔ _
  rw [View.set_slice_whole, Rect.mem_set_unit]
  exact Iff.rfl

theorem mem_blk7 (t : Fin cfg0.N) (i : S4x512x64.Idx) :
    i ∈ ((cfg0.win 7).blk t).view.set ↔ ∀ a : Fin 3, win0_7.index t a * S1x512x64.size a ≤ (i a).val
      ∧ (i a).val < win0_7.index t a * S1x512x64.size a + S1x512x64.size a := by
  show i ∈ ((View.whole main_v2_2).slice (win0_7.rect t)).set ↔ _
  rw [View.set_slice_whole, Rect.mem_set_unit]
  exact Iff.rfl

/-- Every index of the query array lies in the block of the point of its batch entry. -/
theorem cover5 (i : S4x512x128.Idx) :
    ∃ t : Fin cfg0.N, (cfg0.win 5).flush t = true ∧ i ∈ ((cfg0.win 5).blk t).view.set := by
  have hN : cfg0.N = 4 := N_0
  have h0 : (i 0).val < 4 := (i 0).isLt
  have h1 : (i 1).val < 512 := (i 1).isLt
  have h2 : (i 2).val < 128 := (i 2).isLt
  obtain ⟨t, ht⟩ : ∃ t : Fin cfg0.N, t.val = (i 0).val := ⟨⟨(i 0).val, by omega⟩, rfl⟩
  have hI := idx0 t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 128 ≤ (i 2).val ∧ (i 2).val < win0_5.index t (2 : Fin 3) * 128 + 128; omega

/-- Every index of the transposed key array lies in the block of the point of its batch entry. -/
theorem cover6 (i : S4x128x512.Idx) :
    ∃ t : Fin cfg0.N, (cfg0.win 6).flush t = true ∧ i ∈ ((cfg0.win 6).blk t).view.set := by
  have hN : cfg0.N = 4 := N_0
  have h0 : (i 0).val < 4 := (i 0).isLt
  have h1 : (i 1).val < 128 := (i 1).isLt
  have h2 : (i 2).val < 512 := (i 2).isLt
  obtain ⟨t, ht⟩ : ∃ t : Fin cfg0.N, t.val = (i 0).val := ⟨⟨(i 0).val, by omega⟩, rfl⟩
  have hI := idx0 t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 128 ≤ (i 1).val ∧ (i 1).val < win0_6.index t (1 : Fin 3) * 128 + 128; omega
  | ⟨2, _⟩ => show win0_6.index t (2 : Fin 3) * 512 ≤ (i 2).val ∧ (i 2).val < win0_6.index t (2 : Fin 3) * 512 + 512; omega

/-- Every index of the value array lies in the block of the point of its batch entry. -/
theorem cover7 (i : S4x512x64.Idx) :
    ∃ t : Fin cfg0.N, (cfg0.win 7).flush t = true ∧ i ∈ ((cfg0.win 7).blk t).view.set := by
  have hN : cfg0.N = 4 := N_0
  have h0 : (i 0).val < 4 := (i 0).isLt
  have h1 : (i 1).val < 512 := (i 1).isLt
  have h2 : (i 2).val < 64 := (i 2).isLt
  obtain ⟨t, ht⟩ : ∃ t : Fin cfg0.N, t.val = (i 0).val := ⟨⟨(i 0).val, by omega⟩, rfl⟩
  have hI := idx0 t
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 64 ≤ (i 2).val ∧ (i 2).val < win0_7.index t (2 : Fin 3) * 64 + 64; omega

/-! ## The arrays after the first region -/

theorem arr5 : (dat0 (Run.V1 m) c).arrAt 5 cfg0.N = G5 m c :=
  (dat0 (Run.V1 m) c).arrAt_eq_of_cover 5 (G5 m c) (fun t _ => flushed5_eq m c t) cover5
theorem arr6 : (dat0 (Run.V1 m) c).arrAt 6 cfg0.N = G6 m c :=
  (dat0 (Run.V1 m) c).arrAt_eq_of_cover 6 (G6 m c) (fun t _ => flushed6_eq m c t) cover6
theorem arr7 : (dat0 (Run.V1 m) c).arrAt 7 cfg0.N = G7 m c :=
  (dat0 (Run.V1 m) c).arrAt_eq_of_cover 7 (G7 m c) (fun t _ => flushed7_eq m c t) cover7

/-- The query part of the first layer, after the first region. -/
theorem arr5_at (b : Fin 4) (t : Fin 512) (d : Fin 128) :
    (dat0 (Run.V1 m) c).arrAt 5 cfg0.N (ix3 b t d) = Spec.Aq (a0 m c) (a1 m c) (a2 m c) b t d := by
  rw [arr5]; rfl
/-- The key part of the first layer, stored transposed, after the first region. -/
theorem arr6_at (b : Fin 4) (d : Fin 128) (t : Fin 512) :
    (dat0 (Run.V1 m) c).arrAt 6 cfg0.N (ix3 b d t) = Spec.Ak (a0 m c) (a1 m c) (a2 m c) b t d := by
  rw [arr6]; rfl
/-- The value projection, after the first region. -/
theorem arr7_at (b : Fin 4) (t : Fin 512) (h : Fin 64) :
    (dat0 (Run.V1 m) c).arrAt 7 cfg0.N (ix3 b t h) = Spec.v (a0 m c) (a6 m c) b t h := by
  rw [arr7]; rfl

end Cert.KernelIdeal.Value

end
-- ==== Proof.KernelArraysC.lean ====
/- The arrays the second kernel region finds: the first region's three result arrays, and the first-layer
   bias, the second-layer weight and its bias, each the launched argument under a change of shape, read at an
   index. -/
import proofs.«152301_j13073880449825_2_alg».proof.Proof.MainRun
import proofs.«152301_j13073880449825_2_alg».proof.Proof.Spec
import proofs.«152301_j13073880449825_2_alg».proof.Proof.KernelArraysA
import proofs.«152301_j13073880449825_2_alg».proof.Proof.KernelArraysB
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

open scoped BigOperators

namespace Cert.KernelIdeal.Value

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (c : Dev nD)

/-! ## What the first region and the first host stretch leave of the arguments -/

theorem W2_arg3 : Run.W2 m c (Proc.devRef .tc main_arg3) = a3 m c :=
  (Run.W2_of_ne m c main_arg3 (by decide)).trans
    (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

theorem W2_arg4 : Run.W2 m c (Proc.devRef .tc main_arg4) = a4 m c :=
  (Run.W2_of_ne m c main_arg4 (by decide)).trans
    (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

theorem W2_arg5 : Run.W2 m c (Proc.devRef .tc main_arg5) = a5 m c :=
  (Run.W2_of_ne m c main_arg5 (by decide)).trans
    (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The first region's result arrays, untouched by the second host stretch -/

theorem V3_v2_0 : Run.V3 m c main_v2_0 = (dat0 (Run.V1 m) c).arrAt 5 cfg0.N :=
  (StableHlo.after_of_forall_not_mem (b := Proc.devRef .tc main_v2_0) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))).trans (Run.W2_arr m c 5)

theorem V3_v2_1 : Run.V3 m c main_v2_1 = (dat0 (Run.V1 m) c).arrAt 6 cfg0.N :=
  (StableHlo.after_of_forall_not_mem (b := Proc.devRef .tc main_v2_1) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))).trans (Run.W2_arr m c 6)

theorem V3_v2_2 : Run.V3 m c main_v2_2 = (dat0 (Run.V1 m) c).arrAt 7 cfg0.N :=
  (StableHlo.after_of_forall_not_mem (b := Proc.devRef .tc main_v2_2) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))).trans (Run.W2_arr m c 7)

/-- The query part of the first layer, as the second region finds it. -/
theorem V3_aq (b : Fin 4) (t : Fin 512) (d : Fin 128) :
    Run.V3 m c main_v2_0 (ix3 b t d) = Spec.Aq (a0 m c) (a1 m c) (a2 m c) b t d :=
  (congrFun (V3_v2_0 m c) (ix3 b t d)).trans (arr5_at m c b t d)

/-- The key part of the first layer, transposed, as the second region finds it. -/
theorem V3_akT (b : Fin 4) (d : Fin 128) (t : Fin 512) :
    Run.V3 m c main_v2_1 (ix3 b d t) = Spec.Ak (a0 m c) (a1 m c) (a2 m c) b t d :=
  (congrFun (V3_v2_1 m c) (ix3 b d t)).trans (arr6_at m c b d t)

/-- The value projection, as the second region finds it. -/
theorem V3_v (b : Fin 4) (t : Fin 512) (h : Fin 64) :
    Run.V3 m c main_v2_2 (ix3 b t h) = Spec.v (a0 m c) (a6 m c) b t h :=
  (congrFun (V3_v2_2 m c) (ix3 b t h)).trans (arr7_at m c b t h)

/-! ## The reshaped arguments -/

/-- A `[128, 1]` column cast to a vector reads, at `cc`, the column's entry `(cc, 0)`. -/
theorem shapeCast_a1_a_apply {α : Type} (v : S128x1.Idx → α) (h : S128x1.ShapeCasts S128) (cc : Fin 128) :
    shapeCast S128 v h (ix1 cc) = v (ix2 cc (0 : Fin 1)) :=
  shapeCast_apply v h _ _ (by
    rw [Shape.rowMajor_val_two, Shape.rowMajor_val_one]
    show cc.val * 1 + 0 = cc.val
    omega)

theorem V3_v3_eq : (Run.V3 m c main_v3 : S1x128.Idx → EReal)
    = shapeCast S1x128 (Run.W2 m c (Proc.devRef .tc main_arg3)) shapeCasts_S128_S1x128 := by
  show StableHlo.after hostOps1 (Run.W2 m c) (Proc.devRef .tc main_v3) = _
  after_results
  all_goals rfl

theorem V3_v5_eq : (Run.V3 m c main_v5 : S1x128.Idx → EReal)
    = shapeCast S1x128 (shapeCast S128 (Run.W2 m c (Proc.devRef .tc main_arg4)) shapeCasts_S128x1_S128)
        shapeCasts_S128_S1x128 := by
  show StableHlo.after hostOps1 (Run.W2 m c) (Proc.devRef .tc main_v5) = _
  after_results
  all_goals rfl

theorem V3_v6_eq : (Run.V3 m c main_v6 : S1x1.Idx → EReal)
    = shapeCast S1x1 (Run.W2 m c (Proc.devRef .tc main_arg5)) shapeCasts_S1_S1x1 := by
  show StableHlo.after hostOps1 (Run.W2 m c) (Proc.devRef .tc main_v6) = _
  after_results
  all_goals rfl

/-- The first-layer bias as a row. -/
theorem V3_b1 (cc : Fin 128) : Run.V3 m c main_v3 (ix2 0 cc) = a3 m c (ix1 cc) := by
  refine (congrFun (V3_v3_eq m c) (ix2 0 cc)).trans ?_
  rw [W2_arg3]
  exact shapeCast_a_1a_apply (a3 m c) _ 0 cc

/-- The second-layer weight as a row. -/
theorem V3_w2 (cc : Fin 128) : Run.V3 m c main_v5 (ix2 0 cc) = a4 m c (ix2 cc 0) := by
  refine (congrFun (V3_v5_eq m c) (ix2 0 cc)).trans ?_
  rw [W2_arg4]
  refine (shapeCast_a_1a_apply _ _ 0 cc).trans ?_
  exact shapeCast_a1_a_apply (a4 m c) _ cc

/-- The second-layer bias as a one-by-one array. -/
theorem V3_b2 : Run.V3 m c main_v6 (ix2 0 0) = a5 m c (ix1 0) := by
  refine (congrFun (V3_v6_eq m c) (ix2 0 0)).trans ?_
  rw [W2_arg5]
  exact shapeCast_a_1a_apply (a5 m c) _ 0 0

end Cert.KernelIdeal.Value

end
-- ==== Proof.KernelArrays.lean ====
/- The arrays the two kernel regions find and leave, as the specification's functions of the launched
   arguments. -/
import proofs.«152301_j13073880449825_2_alg».proof.Proof.KernelArraysA
import proofs.«152301_j13073880449825_2_alg».proof.Proof.KernelArraysB
import proofs.«152301_j13073880449825_2_alg».proof.Proof.KernelArraysC
-- ==== Proof.RefValue.lean ====
/- The reference's value: the result of the reference's run is the specification `Spec.out` of the
   seven argument arrays, index by index. Each stage of the program is read at an index built from
   its coordinates and identified with the specification's intermediate of the same name. -/
import proofs.«152301_j13073880449825_2_alg».proof.Proof.Gen.ReferenceIdeal.Run
import proofs.«152301_j13073880449825_2_alg».proof.Proof.Gen.ReferenceIdeal.Read
import proofs.«152301_j13073880449825_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Two indices of rank 1 with equal coordinates are equal. -/
local macro "idx1" : tactic =>
  `(tactic| (funext a; apply Fin.ext; match a with | ⟨0, _⟩ => rfl))
/-- Two indices of rank 2 with equal coordinates are equal. -/
local macro "idx2" : tactic =>
  `(tactic| (funext a; apply Fin.ext; match a with | ⟨0, _⟩ => rfl | ⟨1, _⟩ => rfl))
/-- Two indices of rank 3 with equal coordinates are equal. -/
local macro "idx3" : tactic =>
  `(tactic| (funext a; apply Fin.ext; match a with | ⟨0, _⟩ => rfl | ⟨1, _⟩ => rfl | ⟨2, _⟩ => rfl))
/-- Two indices of rank 4 with equal coordinates are equal. -/
local macro "idx4" : tactic =>
  `(tactic| (funext a; apply Fin.ext; match a with | ⟨0, _⟩ => rfl | ⟨1, _⟩ => rfl | ⟨2, _⟩ => rfl | ⟨3, _⟩ => rfl))

/-- The f32 word of `-∞` is the bottom of the extended reals. -/
theorem neg_inf : Ideal.ofBits .f32 0xFF800000#32 = ⊥ := by simp [Ideal.ofBits, Ideal.ieee]

/-- The lower-triangle bit: on coordinates below 512 the signed comparison `a + 0 ≥ b` of the
    32-bit words is the comparison of the naturals. -/
theorem mask_bit (a b : Nat) (ha : a < 512) (hb : b < 512) :
    IntOp.cmpi .sge (IntOp.addi (BitVec.ofNat 32 a) 0#32) (BitVec.ofNat 32 b) = if b ≤ a then 1#1 else 0#1 := by
  unfold IntOp.cmpi IntOp.addi
  rw [BitVec.add_zero]
  have h : (BitVec.ofNat 32 b).sle (BitVec.ofNat 32 a) = decide (b ≤ a) := by
    rw [BitVec.sle, BitVec.toInt_eq_toNat_cond, BitVec.toInt_eq_toNat_cond]
    simp only [BitVec.toNat_ofNat]
    have e1 : a % 2 ^ 32 = a := Nat.mod_eq_of_lt (by omega)
    have e2 : b % 2 ^ 32 = b := Nat.mod_eq_of_lt (by omega)
    rw [e1, e2, if_pos (by omega), if_pos (by omega)]
    simp
  show BitVec.ofBool ((BitVec.ofNat 32 b).sle (BitVec.ofNat 32 a)) = _
  rw [h]
  by_cases hle : b ≤ a
  · simp [hle]
  · simp [hle]

section
variable (x : Spec.A3 4 512 128) (pos : Spec.A2 512 128) (W1 : Spec.A2 256 128) (b1 : Spec.A1 128)
  (W2 : Spec.A2 128 1) (b2 : Spec.A1 1) (Wv : Spec.A2 128 64)

/-- The input plus the position embedding. -/
theorem v2_at (b : Fin 4) (t : Fin 512) (c : Fin 128) :
    val_main_v2 (F := Ideal) x pos (ix3 b t c) = Spec.x1 x pos b t c := by
  rw [val_main_v2_apply, val_main_v1_apply, val_main_v0_apply]
  have e : idx_main_v0 (idx_main_v1 (ix3 b t c)) = ix2 t c := by idx2
  rw [e]
  rfl

/-- The key part of the first layer. -/
theorem v5_at (b : Fin 4) (j : Fin 512) (d : Fin 128) :
    val_main_v5 (F := Ideal) x pos W1 (ix3 b j d) = Spec.Ak x pos W1 b j d := by
  rw [val_main_v5_apply]
  unfold Spec.Ak
  refine Finset.sum_congr rfl fun k _ => ?_
  have el : lidx_main_v5 (ix3 b j d) k = ix3 b j k := by idx3
  have er : idx_main_v3 (ridx_main_v5 (ix3 b j d) k) = ix2 (Spec.lo k) d := by idx2
  rw [el, v2_at, val_main_v3_apply, er]

/-- The query part of the first layer. -/
theorem v6_at (b : Fin 4) (i : Fin 512) (d : Fin 128) :
    val_main_v6 (F := Ideal) x pos W1 (ix3 b i d) = Spec.Aq x pos W1 b i d := by
  rw [val_main_v6_apply]
  unfold Spec.Aq
  refine Finset.sum_congr rfl fun k _ => ?_
  have el : lidx_main_v6 (ix3 b i d) k = ix3 b i k := by idx3
  have er : idx_main_v4 (ridx_main_v6 (ix3 b i d) k) = ix2 (Spec.hi k) d := by idx2
  rw [el, v2_at, val_main_v4_apply, er]

/-- The hidden layer of a pair after the rectifier. -/
theorem v15_at (b : Fin 4) (i j : Fin 512) (c : Fin 128) :
    val_main_v15 (F := Ideal) x pos W1 b1 (ix4 b i j c) = Spec.hid x pos W1 b1 b i j c := by
  rw [val_main_v15_apply, val_main_v14_apply, val_main_v11_apply, val_main_v9_apply, val_main_v7_apply,
    val_main_v10_apply, val_main_v8_apply, val_main_v13_apply, val_main_v12_apply, val_main_call0_v0_apply,
    val_main_call0_cst_apply]
  have e6 : idx_main_v7 (idx_main_v9 (ix4 b i j c)) = ix3 b i c := by idx3
  have e5 : idx_main_v8 (idx_main_v10 (ix4 b i j c)) = ix3 b j c := by idx3
  have e3 : idx_main_v12 (idx_main_v13 (ix4 b i j c)) = ix1 c := by idx1
  rw [e6, e5, e3, v6_at, v5_at]
  simp only [Ideal.maximumf_def, Ideal.addf_def, Ideal.ofBits_def, Ideal.ofBits_zero_f32]
  rfl

/-- The one-element bias of the second layer, read through its cast to a scalar. -/
theorem v18_at (j : S_.Idx) : val_main_v18 (F := Ideal) b2 j = b2 (ix1 0) := by
  unfold val_main_v18 shapeCast
  exact congrArg b2 ((eq_ix1 _).trans (congrArg ix1 (Subsingleton.elim _ _)))

/-- The scaled score of a pair. -/
theorem v22_at (b : Fin 4) (i j : Fin 512) :
    val_main_v22 (F := Ideal) x pos W1 b1 W2 b2 (ix3 b i j) = Spec.s x pos W1 b1 W2 b2 b i j := by
  have e17 : idx_main_v17 (ix3 b i j) = ix4 b i j 0 := by
    have hb := b.isLt; have hi := i.isLt; have hj := j.isLt
    funext a; apply Fin.ext
    match a with
    | ⟨0, _⟩ => show ((b.val * 512 + i.val) * 512 + j.val) / 262144 = b.val; omega
    | ⟨1, _⟩ => show ((b.val * 512 + i.val) * 512 + j.val) / 512 % 512 = i.val; omega
    | ⟨2, _⟩ => show ((b.val * 512 + i.val) * 512 + j.val) / 1 % 512 = j.val; omega
    | ⟨3, _⟩ => rfl
  have hsum : (∑ k : Fin 128, val_main_v15 (F := Ideal) x pos W1 b1 (lidx_main_v16 (ix4 b i j 0) k)
        * W2 (ridx_main_v16 (ix4 b i j 0) k))
      = ∑ c : Fin 128, Spec.hid x pos W1 b1 b i j c * W2 (ix2 c 0) := by
    refine Finset.sum_congr rfl fun k _ => ?_
    have el : lidx_main_v16 (ix4 b i j 0) k = ix4 b i j k := by idx4
    have er : ridx_main_v16 (ix4 b i j (0 : Fin 1)) k = ix2 k 0 := by idx2
    rw [el, er, v15_at]
  rw [val_main_v22_apply, val_main_v20_apply, val_main_v17_apply, e17, val_main_v16_apply, hsum,
    val_main_v19_apply, v18_at, val_main_v21_apply, val_main_cst_apply]
  simp only [Ideal.mulf_def, Ideal.addf_def, Ideal.ofBits_def]
  rfl

/-- The causally masked score. -/
theorem v25_at (b : Fin 4) (i j : Fin 512) :
    val_main_v25 (F := Ideal) x pos W1 b1 W2 b2 (ix3 b i j) = Spec.w x pos W1 b1 W2 b2 b i j := by
  have em : idx_main_call2_v1 (ix3 b i j) = ix2 i j := by idx2
  rw [val_main_v25_apply, v22_at, val_main_call2_v1_apply, em, val_main_call2_v2_apply,
    val_main_call2_v0_apply, val_main_cst_0_apply]
  simp only [val_main_v24_apply, val_main_call1_v4_apply, val_main_call1_v2_apply, val_main_call1_v0_apply,
    val_main_call1_v1_apply, val_main_call1_c_apply, val_main_call1_v3_apply, val_main_v23_apply,
    val_main_c_apply, val_main_call1_v5_apply, val_main_call1_c_0_apply, Ideal.ofBits_def, neg_inf]
  show Scalar.select (Scalar.select (IntOp.cmpi .sge (IntOp.addi (BitVec.ofNat 32 i.val) 0#32)
    (BitVec.ofNat 32 j.val)) 1#1 0#1) _ _ = _
  rw [mask_bit i.val j.val i.isLt j.isLt]
  unfold Spec.w
  by_cases h : j ≤ i
  · have h' : j.val ≤ i.val := h
    rw [if_pos h', if_pos h, select_one, select_one]
  · have h' : ¬ j.val ≤ i.val := h
    rw [if_neg h', if_neg h, select_zero, select_zero]

/-- A row's index with the key coordinate put back on the reduced axis. -/
theorem lift_at (h : S4x512x512.Reduces [2] S4x512) (b : Fin 4) (i : Fin 512) (k : Fin (S4x512x512.size 2)) :
    h.lift (ix2 b i) k = ix3 b i (⟨k.val, k.isLt⟩ : Fin 512) := by
  funext c; apply Fin.ext
  fin_cases c <;> rfl

/-- The row maximum of the masked scores: the fold from `-∞`, then the maximum with `-∞`. -/
theorem v28_at (b : Fin 4) (i : Fin 512) :
    val_main_v28 (F := Ideal) x pos W1 b1 W2 b2 (ix2 b i) = Spec.M x pos W1 b1 W2 b2 b i := by
  have h : S4x512x512.Reduces [2] S4x512 := by decide
  rw [val_main_v28_apply, val_main_v27_apply, val_main_cst_2_apply]
  unfold val_main_v26
  rw [Host.reduce_eq_fold_single FloatOps.maximumf _ _ reducesTo_S4x512x512_S4x512_d2 h h_S_]
  have hf : (val_main_v25 (F := Ideal) x pos W1 b1 W2 b2 ∘ h.lift (ix2 b i))
      = fun k : Fin 512 => Spec.w x pos W1 b1 W2 b2 b i k :=
    funext fun k => by
      show val_main_v25 (F := Ideal) x pos W1 b1 W2 b2 (h.lift (ix2 b i) k) = _
      rw [lift_at h b i k, v25_at]
      rfl
  have hfold : (Finset.univ : Finset (Fin (S4x512x512.size 2))).fold (FloatOps.maximumf (F := Ideal) (φ := .f32))
        (val_main_cst_1 (F := Ideal) (Shape.Idx.first h_S_)) (val_main_v25 (F := Ideal) x pos W1 b1 W2 b2 ∘ h.lift (ix2 b i))
      = Spec.M x pos W1 b1 W2 b2 b i := by
    rw [hf, val_main_cst_1_apply]
    show (Finset.univ : Finset (Fin 512)).fold max (Ideal.ofBits .f32 0xFF800000#32) _ = _
    rw [neg_inf]
    rfl
  rw [hfold]
  show max (Ideal.ofBits .f32 0xFF800000#32) _ = _
  rw [neg_inf]
  exact max_eq_right bot_le

/-- The exponential of the masked score less the row maximum. -/
theorem v32_at (b : Fin 4) (i j : Fin 512) :
    val_main_v32 (F := Ideal) x pos W1 b1 W2 b2 (ix3 b i j) = Spec.e x pos W1 b1 W2 b2 b i j := by
  have e30 : idx_main_v29 (idx_main_v30 (ix3 b i j)) = ix2 b i := by idx2
  rw [val_main_v32_apply, val_main_v31_apply, v25_at, val_main_v30_apply, val_main_v29_apply, e30, v28_at]
  rfl

/-- The row sum of the exponentials. -/
theorem v33_at (b : Fin 4) (i : Fin 512) :
    val_main_v33 (F := Ideal) x pos W1 b1 W2 b2 (ix2 b i) = Spec.Z x pos W1 b1 W2 b2 b i := by
  rw [val_main_v33_apply, val_main_cst_3_apply]
  unfold Spec.Z
  simp only [Ideal.ofBits_def, Ideal.ofBits_zero_f32, zero_add]
  refine Finset.sum_congr rfl fun k _ => ?_
  have e : idx_main_v33 (ix2 b i) k = ix3 b i k := by idx3
  rw [e, v32_at]

/-- The softmax weight of a pair. -/
theorem v36_at (b : Fin 4) (i j : Fin 512) :
    val_main_v36 (F := Ideal) x pos W1 b1 W2 b2 (ix3 b i j)
      = Ideal.div (Spec.e x pos W1 b1 W2 b2 b i j) (Spec.Z x pos W1 b1 W2 b2 b i) := by
  have e35 : idx_main_v34 (idx_main_v35 (ix3 b i j)) = ix2 b i := by idx2
  rw [val_main_v36_apply, v32_at, val_main_v35_apply, val_main_v34_apply, e35, v33_at]
  rfl

/-- The value projection. -/
theorem v37_at (b : Fin 4) (j : Fin 512) (h : Fin 64) :
    val_main_v37 (F := Ideal) x Wv (ix3 b j h) = Spec.v x Wv b j h := by
  rw [val_main_v37_apply]
  unfold Spec.v
  refine Finset.sum_congr rfl fun k _ => ?_
  have el : lidx_main_v37 (ix3 b j h) k = ix3 b j k := by idx3
  have er : ridx_main_v37 (ix3 b j h) k = ix2 k h := by idx2
  rw [el, er]

/-- The last stage is the specification's output at its three coordinates. -/
theorem v38_at (b : Fin 4) (i : Fin 512) (h : Fin 64) :
    val_main_v38 (F := Ideal) x pos W1 b1 W2 b2 Wv (ix3 b i h) = Spec.out3 x pos W1 b1 W2 b2 Wv b i h := by
  rw [val_main_v38_apply]
  unfold Spec.out3
  refine Finset.sum_congr rfl fun k _ => ?_
  have el : lidx_main_v38 (ix3 b i h) k = ix3 b i k := by idx3
  have er : ridx_main_v38 (ix3 b i h) k = ix3 b k h := by idx3
  rw [el, er, v36_at, v37_at]

/-- The last stage, as an array, is the specification. -/
theorem v38_eq_spec : val_main_v38 (F := Ideal) x pos W1 b1 W2 b2 Wv = Spec.out x pos W1 b1 W2 b2 Wv := by
  funext o
  obtain ⟨b, i, h, rfl⟩ : ∃ (b : Fin 4) (i : Fin 512) (h : Fin 64), o = ix3 b i h := ⟨o 0, o 1, o 2, eq_ix3 o⟩
  rw [v38_at]
  rfl

end

/-- THE REFERENCE IS THE SPECIFICATION: the term the reference's run leaves in its result buffer is `Spec.out` of
    the seven argument arrays of the launch memory. -/
theorem ref_eq_spec (m : (ℓ : Loc nD τ sig) → Buf (Elt Ideal) ℓ) (c : Dev nD) :
    Cert.ReferenceIdeal.Value.res_main_v38 (F := Ideal) m c
      = Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (val_main_v38_eq (F := Ideal) m c).trans (v38_eq_spec _ _ _ _ _ _ _)

end Cert.ReferenceIdeal.RefValue

end
-- ==== Proof.RefRun.lean ====
/- The reference program's frame, and its run with the result buffer stated as the specification of
   the argument arrays. -/
import proofs.«152301_j13073880449825_2_alg».proof.Defs
import proofs.«152301_j13073880449825_2_alg».proof.Proof.Gen.ReferenceIdeal
import proofs.«152301_j13073880449825_2_alg».proof.Proof.Gen.Pre_finite_inputs
import proofs.«152301_j13073880449825_2_alg».proof.Proof.Gen.ReferenceIdeal.Run
import proofs.«152301_j13073880449825_2_alg».proof.Proof.RefValue

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-- The reference runs to the end, faults nowhere and leaves its arguments unchanged: its run with the
    result dropped. -/
theorem frame_ref :
    Cert.frame_ReferenceIdeal (hReferenceIdeal := Cert.ReferenceIdeal.Gen.facts)
      (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The specification of the seven argument arrays of a memory, on device `c`. -/
abbrev specOf (m' : (ℓ : Loc nD τ sig) → Buf (Elt Ideal) ℓ) (c : Dev nD) :
    Buf (Elt Ideal) ((c.tc : Thread nD τ).loc main_v38) :=
  Spec.out (m' ((c.tc : Thread nD τ).loc main_arg0)) (m' ((c.tc : Thread nD τ).loc main_arg1))
    (m' ((c.tc : Thread nD τ).loc main_arg2)) (m' ((c.tc : Thread nD τ).loc main_arg3))
    (m' ((c.tc : Thread nD τ).loc main_arg4)) (m' ((c.tc : Thread nD τ).loc main_arg5))
    (m' ((c.tc : Thread nD τ).loc main_arg6))

/-- From any memory the reference runs to the end with its result buffer the specification of its argument
    arrays and every argument unchanged. -/
theorem run_spec (m' : (ℓ : Loc nD τ sig) → Buf (Elt Ideal) ℓ) (ρ' : Dev nD → PrngReg) :
    θ_run (Cert.ReferenceIdeal.defs (F := Ideal)) (onTc (τ := τ) (Cert.ReferenceIdeal.main (F := Ideal)))
      ⟨m', fun _ => 0, ρ'⟩ (fun r => ∀ c : Dev nD,
        r.2.mem ((c.tc : Thread nD τ).loc main_v38) = specOf m' c
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)
        ∧ r.2.mem ((c.tc : Thread nD τ).loc main_arg5) = m' ((c.tc : Thread nD τ).loc main_arg5)
        ∧ r.2.mem ((c.tc : Thread nD τ).loc main_arg6) = m' ((c.tc : Thread nD τ).loc main_arg6)) :=
  (θ_run Cert.ReferenceIdeal.defs _ _).mono
    (fun _ h c => ⟨(h c).1.trans (ref_eq_spec m' c), (h c).2⟩)
    (Cert.ReferenceIdeal.Value.run (F := Ideal) m' ρ')

/-- The same with the result named: whatever per-device value `v0` is known to be the specification of the
    argument arrays, the reference ends with its result buffer at `v0`. -/
theorem run_spec_as (m' : (ℓ : Loc nD τ sig) → Buf (Elt Ideal) ℓ) (ρ' : Dev nD → PrngReg)
    (v0 : (c : Dev nD) → Buf (Elt Ideal) ((c.tc : Thread nD τ).loc main_v38)) (hv : ∀ c, v0 c = specOf m' c) :
    θ_run (Cert.ReferenceIdeal.defs (F := Ideal)) (onTc (τ := τ) (Cert.ReferenceIdeal.main (F := Ideal)))
      ⟨m', fun _ => 0, ρ'⟩ (fun r => ∀ c : Dev nD,
        r.2.mem ((c.tc : Thread nD τ).loc main_v38) = v0 c
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)
        ∧ r.2.mem ((c.tc : Thread nD τ).loc main_arg5) = m' ((c.tc : Thread nD τ).loc main_arg5)
        ∧ r.2.mem ((c.tc : Thread nD τ).loc main_arg6) = m' ((c.tc : Thread nD τ).loc main_arg6)) :=
  (θ_run Cert.ReferenceIdeal.defs _ _).mono
    (fun _ h c => ⟨(h c).1.trans (hv c).symm, (h c).2⟩)
    (run_spec m' ρ')

end Cert.ReferenceIdeal.RefValue

end
-- ==== Proof.LibFinite.lean ====
import Idealize.ShloMosaic.PureOps.Ideal
import Idealize.ShloMosaic.PureOps.Ideal.Laws
import Idealize.ShloMosaic.Lib.ValueIdx

/-!
  Extended reals that are real numbers, and the operations that keep them so.

  The ideal float values are extended reals. An entry that is the coercion of a real number (neither infinity) stays one
  under sums, products, maxima, finite sums, real powers, gathers, accumulating scatters and selections; and over such
  entries a dot product may be scaled inside the sum.
-/

noncomputable section

namespace Idealize.ShloMosaic.LibFinite

open Idealize.ShloMosaic Idealize.ShloMosaic.ValueIdx
open scoped BigOperators

/-- An extended real that is a real number: the coercion of some `r : ℝ`, so neither infinity. -/
def IsReal (x : EReal) : Prop := ∃ r : ℝ, x = (r : EReal)

/-- Zero is a real number. -/
theorem IsReal.zero : IsReal (0 : EReal) := ⟨0, rfl⟩

/-- The coercion of a real number is one. -/
theorem IsReal.coe (r : ℝ) : IsReal (r : EReal) := ⟨r, rfl⟩

/-- The sum of two real numbers is real. -/
theorem IsReal.add (a b : EReal) : IsReal a → IsReal b → IsReal (a + b) := by
  rintro ⟨x, rfl⟩ ⟨y, rfl⟩; exact ⟨x + y, (EReal.coe_add x y).symm⟩

/-- The product of two real numbers is real. -/
theorem IsReal.mul (a b : EReal) : IsReal a → IsReal b → IsReal (a * b) := by
  rintro ⟨x, rfl⟩ ⟨y, rfl⟩; exact ⟨x * y, (EReal.coe_mul x y).symm⟩

/-- The larger of two real numbers is real. -/
theorem IsReal.max (a b : EReal) : IsReal a → IsReal b → IsReal (Max.max a b) := by
  intro ha hb
  rcases le_total a b with h | h
  · rw [max_eq_right h]; exact hb
  · rw [max_eq_left h]; exact ha

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact IsReal.add _ _ (h a (Finset.mem_insert_self a s)) (ih fun i hi => h i (Finset.mem_insert_of_mem hi))

/-- A binary pattern whose exponent field is not all ones denotes a real number (a zero, a subnormal or a normal). -/
theorem isReal_ieee_of_exponent_ne (e m : ℕ) {w : ℕ} (b : BitVec w) (h : (b.extractLsb' m e).toNat ≠ 2 ^ e - 1) :
    IsReal (Ideal.ieee e m b) := by
  unfold Ideal.ieee
  dsimp only
  rw [if_neg h]
  split <;> exact ⟨_, rfl⟩

/-- The single-precision word of all zero bits denotes a real number (zero). -/
theorem isReal_ofBits_zero : IsReal (Ideal.ofBits .f32 0x00000000#32) := by
  rw [Ideal.ofBits_zero_f32]; exact IsReal.zero

/-- The single-precision word `0x3F800000` (one) denotes a real number. -/
theorem isReal_ofBits_one : IsReal (Ideal.ofBits .f32 0x3F800000#32) := by
  show IsReal (Ideal.ieee 8 23 (0x3F800000#32 : BitVec 32))
  exact isReal_ieee_of_exponent_ne 8 23 (0x3F800000#32 : BitVec 32) (by decide)

/-- The single-precision word `0xBF000000` (minus one half) denotes a real number. -/
theorem isReal_ofBits_neg_half : IsReal (Ideal.ofBits .f32 0xBF000000#32) := by
  show IsReal (Ideal.ieee 8 23 (0xBF000000#32 : BitVec 32))
  exact isReal_ieee_of_exponent_ne 8 23 (0xBF000000#32 : BitVec 32) (by decide)

/-- The power of a real base to a real exponent is real (the real power function). -/
theorem isReal_pow (x y : EReal) : IsReal x → IsReal y → IsReal (Ideal.pow x y) := by
  rintro ⟨a, rfl⟩ ⟨b, rfl⟩; exact ⟨Real.rpow a b, rfl⟩

/-- An accumulating scatter of real updates into a real array is real at every entry: the entry plus a finite sum of
    the updates that land on it. -/
theorem isReal_scatterAdd {s si su : Shape} (d : ScatterDims s si su) {w : Nat} (x : s.Idx → EReal) (idx : IVec si w)
    (u : su.Idx → EReal) (hx : ∀ i, IsReal (x i)) (hu : ∀ j, IsReal (u j)) (i : s.Idx) :
    IsReal (Host.scatterAdd (F := Ideal) (φ := .f32) d x idx u i) := by
  show IsReal (x i + ∑ j ∈ Finset.univ.filter (fun j => d.resultIdx? j idx = some i), u j)
  exact IsReal.add _ _ (hx i) (IsReal.sum _ _ fun j _ => hu j)

/-- A gather of a real array is real at every entry: each entry of the result is an entry of the operand. -/
theorem isReal_gather {s si t : Shape} {w : Nat} (d : GatherDims s si t) (x : s.Idx → EReal) (idx : IVec si w)
    (hx : ∀ i, IsReal (x i)) (j : t.Idx) : IsReal (Host.gather d x idx j) := hx _

/-- A selection between two real entries is real. -/
theorem isReal_select {s : Shape} (c : IVec s 1) (a b : s.Idx → EReal) (i : s.Idx) :
    IsReal (a i) → IsReal (b i) → IsReal (select c a b i) := by
  intro ha hb
  rw [select_apply]
  unfold Scalar.select
  split <;> assumption

/-- Over real entries a dot product scaled by a real number is the dot product of the scaled first factor:
    (∑ₖ aₖ·bₖ)·c = ∑ₖ (aₖ·c)·bₖ. -/
theorem dot_scale {K : ℕ} (a b : Fin K → EReal) (c : EReal) (ha : ∀ k, IsReal (a k)) (hb : ∀ k, IsReal (b k))
    (hc : IsReal c) : (∑ k, a k * b k) * c = ∑ k, (a k * c) * b k := by
  choose a' ha' using ha
  choose b' hb' using hb
  obtain ⟨c', rfl⟩ := hc
  have e1 : ∀ k, a k * b k = ((a' k * b' k : ℝ) : EReal) := fun k => by rw [ha' k, hb' k, EReal.coe_mul]
  have e2 : ∀ k, (a k * (c' : EReal)) * b k = ((a' k * c' * b' k : ℝ) : EReal) := fun k => by
    rw [ha' k, hb' k, EReal.coe_mul, EReal.coe_mul]
  simp only [e1, e2]
  rw [← coe_sum, ← coe_sum, ← EReal.coe_mul, Finset.sum_mul]
  congr 1
  exact Finset.sum_congr rfl fun k _ => by ring

/-- A dot product of real entries is real. -/
theorem isReal_dot {K : ℕ} (a b : Fin K → EReal) : (∀ k, IsReal (a k)) → (∀ k, IsReal (b k)) →
    IsReal (∑ k, a k * b k) :=
  fun ha hb => IsReal.sum _ _ fun k _ => IsReal.mul _ _ (ha k) (hb k)

end Idealize.ShloMosaic.LibFinite

end
-- ==== Proof.FiniteArgs.lean ====
/- Finite inputs: when the precondition's predicate is all ones, every entry of each of the seven
   argument arrays is a real number. The predicate is a conjunction, argument by argument, of "every entry's
   absolute value is below +∞"; an extended real whose absolute value is below +∞ is neither infinity. -/
import proofs.«152301_j13073880449825_2_alg».proof.Pre_finite_inputs
import Idealize.ShloMosaic.Lib.ReduceAll
import Idealize.ShloMosaic.Lib.ValueIdx
import Idealize.ShloMosaic.PureOps.Ideal
import proofs.«152301_j13073880449825_2_alg».proof.Proof.LibFinite

noncomputable section

namespace Cert.Pre_finite_inputs.Real

open Cert.Pre_finite_inputs Idealize.ShloMosaic Idealize.ShloMosaic.ValueIdx Idealize.ShloMosaic.LibFinite

/-- The scalar shape has one index. -/
instance : Subsingleton S_.Idx := ⟨fun a b => funext fun d => d.elim0⟩

/-- An extended real whose absolute value is below the f32 word of `+∞` is a real number. -/
theorem isReal_of_abs_lt {x : EReal}
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    by_contra hn
    simp [Ideal.cmp, hn] at h
  induction x using EReal.rec with
  | bot => simp at hlt
  | coe r => exact ⟨r, rfl⟩
  | top => simp at hlt

/-- A conjunction of one-bit words at an index is the conjunction of the words. -/
theorem andi_at {s : Shape} (a b : IVec s 1) (i : s.Idx) : andi a b i = IntOp.andi (a i) (b i) := rfl

variable [Facts]

set_option maxHeartbeats 1000000 in
/-- THE PREDICATE ALL ONES: every entry of every argument is a real number. -/
theorem args_real (a0 : FVec Ideal S4x512x128 .f32) (a1 : FVec Ideal S512x128 .f32) (a2 : FVec Ideal S256x128 .f32)
    (a3 : FVec Ideal S128 .f32) (a4 : FVec Ideal S128x1 .f32) (a5 : FVec Ideal S1 .f32) (a6 : FVec Ideal S128x64 .f32)
    (h : fn (F := Ideal) a0 a1 a2 a3 a4 a5 a6 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, IsReal (a6 i)) := by
  have h0 := congrFun h ix0
  unfold fn fn_part1 at h0
  dsimp only at h0
  simp only [andi_at, IntOp.andi_eq_one] at h0
  obtain ⟨⟨⟨⟨⟨⟨e0, e1⟩, e2⟩, e3⟩, e4⟩, e5⟩, e6⟩ := h0
  exact ⟨fun i => isReal_of_abs_lt (Host.reduce_andi_all _ _ _ _ _ e0 i),
    fun i => isReal_of_abs_lt (Host.reduce_andi_all _ _ _ _ _ e1 i),
    fun i => isReal_of_abs_lt (Host.reduce_andi_all _ _ _ _ _ e2 i),
    fun i => isReal_of_abs_lt (Host.reduce_andi_all _ _ _ _ _ e3 i),
    fun i => isReal_of_abs_lt (Host.reduce_andi_all _ _ _ _ _ e4 i),
    fun i => isReal_of_abs_lt (Host.reduce_andi_all _ _ _ _ _ e5 i),
    fun i => isReal_of_abs_lt (Host.reduce_andi_all _ _ _ _ _ e6 i)⟩

end Cert.Pre_finite_inputs.Real

end
-- ==== Proof.SpecRealCore.lean ====
/- Finiteness of the specification: over argument arrays whose entries are all real numbers, every score
   and every value is a real number, so a masked score is `-∞` or real, the first key is never masked, and
   every row maximum is real. -/
import proofs.«152301_j13073880449825_2_alg».proof.Proof.Spec
import proofs.«152301_j13073880449825_2_alg».proof.Proof.LibFinite
import proofs.«152301_j13073880449825_2_alg».proof.Proof.OnlineMasked

noncomputable section

open scoped BigOperators

namespace Cert.Spec

open Idealize.ShloMosaic Idealize.ShloMosaic.ValueIdx Idealize.ShloMosaic.LibFinite

/-- The score scale's word denotes a real number: its exponent field is not all ones. -/
theorem lit_real : IsReal lit := by
  show IsReal (Ideal.ieee 8 23 (0x3DB504F3#32 : BitVec 32))
  exact isReal_ieee_of_exponent_ne 8 23 (0x3DB504F3#32 : BitVec 32) (by decide)

/-- Every entry of every argument array is a real number. -/
structure RealArgs (x : A3 4 512 128) (pos : A2 512 128) (W1 : A2 256 128) (b1 : A1 128) (W2 : A2 128 1) (b2 : A1 1)
    (Wv : A2 128 64) : Prop where
  hx : ∀ i, IsReal (x i)
  hpos : ∀ i, IsReal (pos i)
  hW1 : ∀ i, IsReal (W1 i)
  hb1 : ∀ i, IsReal (b1 i)
  hW2 : ∀ i, IsReal (W2 i)
  hb2 : ∀ i, IsReal (b2 i)
  hWv : ∀ i, IsReal (Wv i)

section
variable {x : A3 4 512 128} {pos : A2 512 128} {W1 : A2 256 128} {b1 : A1 128} {W2 : A2 128 1} {b2 : A1 1}
  {Wv : A2 128 64} (H : RealArgs x pos W1 b1 W2 b2 Wv)
include H

theorem x1_real (b : Fin 4) (t : Fin 512) (c : Fin 128) : IsReal (x1 x pos b t c) :=
  IsReal.add _ _ (H.hpos _) (H.hx _)

theorem Ak_real (b : Fin 4) (j : Fin 512) (d : Fin 128) : IsReal (Ak x pos W1 b j d) :=
  IsReal.sum _ _ fun c _ => IsReal.mul _ _ (x1_real H b j c) (H.hW1 _)

theorem Aq_real (b : Fin 4) (i : Fin 512) (d : Fin 128) : IsReal (Aq x pos W1 b i d) :=
  IsReal.sum _ _ fun c _ => IsReal.mul _ _ (x1_real H b i c) (H.hW1 _)

theorem hid_real (b : Fin 4) (i j : Fin 512) (c : Fin 128) : IsReal (hid x pos W1 b1 b i j c) :=
  IsReal.max _ _ (IsReal.add _ _ (IsReal.add _ _ (Aq_real H b i c) (Ak_real H b j c)) (H.hb1 _)) IsReal.zero

/-- Every score is a real number. -/
theorem s_real (b : Fin 4) (i j : Fin 512) : IsReal (s x pos W1 b1 W2 b2 b i j) :=
  IsReal.mul _ _ (IsReal.add _ _ (IsReal.sum _ _ fun c _ => IsReal.mul _ _ (hid_real H b i j c) (H.hW2 _)) (H.hb2 _))
    lit_real

/-- Every value is a real number. -/
theorem v_real (b : Fin 4) (j : Fin 512) (h : Fin 64) : IsReal (v x Wv b j h) :=
  IsReal.sum _ _ fun c _ => IsReal.mul _ _ (H.hx _) (H.hWv _)

/-- The same, in the form the running-softmax lemmas take. -/
theorem v_real' (b : Fin 4) (h : Fin 64) (j : Fin 512) : ∃ r : ℝ, v x Wv b j h = (r : EReal) := v_real H b j h

/-- A masked score is `-∞` or a real number. -/
theorem w_bot_or_real (b : Fin 4) (i j : Fin 512) :
    w x pos W1 b1 W2 b2 b i j = ⊥ ∨ ∃ r : ℝ, w x pos W1 b1 W2 b2 b i j = (r : EReal) := by
  unfold w
  split
  · exact Or.inr (s_real H b i j)
  · exact Or.inl rfl

/-- At or below the diagonal the masked score is the score, a real number. -/
theorem w_real_of_le (b : Fin 4) {i j : Fin 512} (h : j ≤ i) : ∃ r : ℝ, w x pos W1 b1 W2 b2 b i j = (r : EReal) := by
  unfold w
  rw [if_pos h]
  exact s_real H b i j

/-- The first key is never masked. -/
theorem w_zero_real (b : Fin 4) (i : Fin 512) : ∃ r : ℝ, w x pos W1 b1 W2 b2 b i 0 = (r : EReal) :=
  w_real_of_le H b (Fin.zero_le i)

/-- Every row maximum is a real number. -/
theorem M_real (b : Fin 4) (i : Fin 512) : ∃ r : ℝ, M x pos W1 b1 W2 b2 b i = (r : EReal) := by
  unfold M
  rw [OnlineMasked.fold_max_eq_sup]
  exact OnlineMasked.sup_real_of_mem _ (fun j => w_bot_or_real H b i j) _ (Finset.mem_univ (0 : Fin 512))
    (w_zero_real H b i)

end

/-- Above the diagonal the score is masked, whatever the arguments. -/
theorem w_of_lt (x : A3 4 512 128) (pos : A2 512 128) (W1 : A2 256 128) (b1 : A1 128) (W2 : A2 128 1) (b2 : A1 1)
    (b : Fin 4) {i j : Fin 512} (h : i < j) : w x pos W1 b1 W2 b2 b i j = ⊥ := by
  unfold w
  rw [if_neg (not_le.mpr h)]

/-- At or below the diagonal the masked score is the score. -/
theorem w_of_le (x : A3 4 512 128) (pos : A2 512 128) (W1 : A2 256 128) (b1 : A1 128) (W2 : A2 128 1) (b2 : A1 1)
    (b : Fin 4) {i j : Fin 512} (h : j ≤ i) : w x pos W1 b1 W2 b2 b i j = s x pos W1 b1 W2 b2 b i j := by
  unfold w
  rw [if_pos h]

end Cert.Spec

end
-- ==== Proof.SpecReal.lean ====
/- Finiteness from the precondition: on every core, the seven argument arrays of a launch memory of which
   the precondition holds have only real entries; hence the specification's scores and values over them are
   real numbers. -/
import proofs.«152301_j13073880449825_2_alg».proof.Defs
import proofs.«152301_j13073880449825_2_alg».proof.Proof.Gen.Pre_finite_inputs
import proofs.«152301_j13073880449825_2_alg».proof.Proof.FiniteArgs
import proofs.«152301_j13073880449825_2_alg».proof.Proof.SpecRealCore

noncomputable section

namespace Cert.Spec

open Idealize.ShloMosaic Idealize.SL.Sem Idealize.ShloMosaic.LibFinite

/-- Under the precondition, every entry of each of the seven argument arrays of the idealized kernel's launch
    memory, on every core, is a real number. -/
theorem realArgs_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    RealArgs (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) := by
  obtain ⟨h0, h1, h2, h3, h4, h5, h6⟩ := Cert.Pre_finite_inputs.Real.args_real _ _ _ _ _ _ _ (h c)
  exact ⟨h0, h1, h2, h3, h4, h5, h6⟩

end Cert.Spec

end
-- ==== Proof.lean ====
/-
  The kernel is a two-call attention: a first call projects (x + pos) by the two halves of the first-layer weight and x
  by the value weight, one batch entry per grid point; a second call walks, per batch entry and tile of 64 queries, the
  four tiles of 128 keys, skips those wholly above the causal diagonal, and keeps in scratch the running maximum,
  denominator and numerator of the softmax over the keys seen so far, writing numerator / denominator at the last key
  tile. The reference computes the same scores for all 512 x 512 pairs, masks above the diagonal with minus infinity,
  normalises each row and multiplies by the values. Over the extended reals the two agree: a masked score contributes
  exp(-inf) = 0 to both sums, the rescaling by exp(m - m') of the running sums is exact for real maxima, and a quotient
  of sums is the sum of quotients for a positive real denominator. Finiteness of the inputs is what makes every unmasked
  score and every value a real number.
-/
import proofs.«152301_j13073880449825_2_alg».proof.Defs
import proofs.«152301_j13073880449825_2_alg».proof.Proof.Gen.Kernel
import proofs.«152301_j13073880449825_2_alg».proof.Proof.Gen.KernelIdeal
import proofs.«152301_j13073880449825_2_alg».proof.Proof.Gen.ReferenceIdeal
import proofs.«152301_j13073880449825_2_alg».proof.Proof.Gen.Pre_finite_inputs
import proofs.«152301_j13073880449825_2_alg».proof.Proof.MainRun
import proofs.«152301_j13073880449825_2_alg».proof.Proof.MainRunB
import proofs.«152301_j13073880449825_2_alg».proof.Proof.AttnFinal
import proofs.«152301_j13073880449825_2_alg».proof.Proof.KernelArrays
import proofs.«152301_j13073880449825_2_alg».proof.Proof.RefRun
import proofs.«152301_j13073880449825_2_alg».proof.Proof.SpecReal
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_p : Cert.frame_Kernel (hKernel := Cert.Kernel.Gen.facts) (hPre_finite_inputs := Cert.Pre_finite_inputs.Gen.facts) :=
  fun m ρ _ => Cert.Kernel.Run.frame (F := Bits) m ρ

/-- So does its idealization. -/
theorem frame_pi : Cert.frame_KernelIdeal (hKernelIdeal := Cert.KernelIdeal.Gen.facts) (hPre_finite_inputs := Cert.Pre_finite_inputs.Gen.facts) :=
  fun m ρ _ => Cert.KernelIdeal.Run.frame (F := Ideal) m ρ

/-- The one rewrite of the ideal pass: the finite stand-in for minus infinity that fills the masked scores is named,
    and the table gives the name the value minus infinity. -/
theorem preserves : Cert.preserves_Kernel_KernelIdeal :=
  IdealRules.named_const.statement Cert.KernelIdeal.κ "neg_big" .f32 0xFF333332#32 ⊥ rfl

/-- From memories agreeing on the seven arguments, under finite inputs, both idealized programs end with the result
    buffer at the specification's output of the arguments: the kernel by the running-softmax invariant over the key
    tiles, the reference by reading its operations one at a time. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  have E : ∀ c, Cert.KernelIdeal.Attn.Entry m c := fun c =>
    ⟨Cert.KernelIdeal.Value.V3_aq m c, Cert.KernelIdeal.Value.V3_akT m c, Cert.KernelIdeal.Value.V3_v m c,
      Cert.KernelIdeal.Value.V3_b1 m c, Cert.KernelIdeal.Value.V3_w2 m c, Cert.KernelIdeal.Value.V3_b2 m c⟩
  have R : ∀ c, Cert.KernelIdeal.Attn.Reals m c := fun c =>
    ⟨fun b i j => Cert.Spec.w_bot_or_real (Cert.Spec.realArgs_of_pre m hpre c) b i j,
      fun b h j => Cert.Spec.v_real' (Cert.Spec.realArgs_of_pre m hpre c) b h j,
      fun b i => Cert.Spec.w_zero_real (Cert.Spec.realArgs_of_pre m hpre c) b i⟩
  refine ⟨fun c => Cert.KernelIdeal.Attn.G m c, Cert.KernelIdeal.Attn.run_spec m E R ρ, ?_⟩
  refine Cert.ReferenceIdeal.RefValue.run_spec_as m' ρ' _ (fun c => ?_)
  show Cert.Spec.out _ _ _ _ _ _ _ = Cert.Spec.out _ _ _ _ _ _ _
  rw [(hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_p, frame_pi, Cert.ReferenceIdeal.RefValue.frame_ref, preserves, algebraic⟩

end Cert.Proof

end
